-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x256x512 : Shape := ⟨3, ![32, 256, 512]⟩
abbrev S32x1024x512 : Shape := ⟨3, ![32, 1024, 512]⟩
abbrev S262144x256 : Shape := ⟨2, ![262144, 256]⟩
abbrev S256 : Shape := ⟨1, ![256]⟩
abbrev S_ : Shape := ⟨0, ![]⟩

class Facts : Prop where
  bcast_S_S32x256x512 : S_.BroadcastsInDim S32x256x512 (![] : Fin 0 → Fin S32x256x512.rank)
  reducesTo_S32x256x512_S_d0_1_2 : S32x256x512.ReducesTo [0, 1, 2] S_
  h_S_ : 0 < S_.numel
  bcast_S_S32x1024x512 : S_.BroadcastsInDim S32x1024x512 (![] : Fin 0 → Fin S32x1024x512.rank)
  reducesTo_S32x1024x512_S_d0_1_2 : S32x1024x512.ReducesTo [0, 1, 2] S_
  bcast_S_S262144x256 : S_.BroadcastsInDim S262144x256 (![] : Fin 0 → Fin S262144x256.rank)
  reducesTo_S262144x256_S_d0_1 : S262144x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg4 : FVec F S256 .f32) (main_v13 : IVec S_ 1) (main_v16 : IVec S262144x256 1) : IVec S_ 1 :=
  let main_c_5 : IVec S_ 1 := constantI S_ 1 1#1
  let main_v17 : IVec S_ 1 := (fun x v => Host.reduce IntOp.andi x v reducesTo_S262144x256_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  main_v23

def fn {F : FTy → Type} [FloatOps F] (main_arg0 : FVec F S32x256x512 .f32) (main_arg1 : FVec F S32x256x512 .f32) (main_arg2 : FVec F S32x1024x512 .f32) (main_arg3 : FVec F S262144x256 .f32) (main_arg4 : FVec F S256 .f32) : IVec S_ 1 :=
  let main_v0 : FVec F S32x256x512 .f32 := Host.absf main_arg0
  let main_cst : FVec F S_ .f32 := constant S_ .f32 0x7F800000#32
  let main_v1 : FVec F S32x256x512 .f32 := broadcastInDim S32x256x512 ![] bcast_S_S32x256x512 main_cst
  let main_v2 : IVec S32x256x512 1 := cmpf .olt main_v0 main_v1
  let main_c : IVec S_ 1 := constantI S_ 1 1#1
  let main_v3 : IVec S_ 1 := (fun x v => Host.reduce IntOp.andi x v reducesTo_S32x256x512_S_d0_1_2 h_S_) main_v2 main_c
  let main_v4 : FVec F S32x256x512 .f32 := Host.absf main_arg1
  let main_cst_0 : FVec F S_ .f32 := constant S_ .f32 0x7F800000#32
  let main_v5 : FVec F S32x256x512 .f32 := broadcastInDim S32x256x512 ![] bcast_S_S32x256x512 main_cst_0
  let main_v6 : IVec S32x256x512 1 := cmpf .olt main_v4 main_v5
  let main_c_1 : IVec S_ 1 := constantI S_ 1 1#1
  let main_v7 : IVec S_ 1 := (fun x v => Host.reduce IntOp.andi x v reducesTo_S32x256x512_S_d0_1_2 h_S_) main_v6 main_c_1
  let main_v8 : IVec S_ 1 := andi main_v3 main_v7
  let main_v9 : FVec F S32x1024x512 .f32 := Host.absf main_arg2
  let main_cst_2 : FVec F S_ .f32 := constant S_ .f32 0x7F800000#32
  let main_v10 : FVec F S32x1024x512 .f32 := broadcastInDim S32x1024x512 ![] bcast_S_S32x1024x512 main_cst_2
  let main_v11 : IVec S32x1024x512 1 := cmpf .olt main_v9 main_v10
  let main_c_3 : IVec S_ 1 := constantI S_ 1 1#1
  let main_v12 : IVec S_ 1 := (fun x v => Host.reduce IntOp.andi x v reducesTo_S32x1024x512_S_d0_1_2 h_S_) main_v11 main_c_3
  let main_v13 : IVec S_ 1 := andi main_v8 main_v12
  let main_v14 : FVec F S262144x256 .f32 := Host.absf main_arg3
  let main_cst_4 : FVec F S_ .f32 := constant S_ .f32 0x7F800000#32
  let main_v15 : FVec F S262144x256 .f32 := broadcastInDim S262144x256 ![] bcast_S_S262144x256 main_cst_4
  let main_v16 : IVec S262144x256 1 := cmpf .olt main_v14 main_v15
  fn_part1 (F := F) main_arg4 main_v13 main_v16
-- ==== Kernel.lean ====
abbrev S32x256x512 : Shape := ⟨3, ![32, 256, 512]⟩
abbrev S32x1024x512 : Shape := ⟨3, ![32, 1024, 512]⟩
abbrev S262144x256 : Shape := ⟨2, ![262144, 256]⟩
abbrev S256 : Shape := ⟨1, ![256]⟩
abbrev S32x512x512 : Shape := ⟨3, ![32, 512, 512]⟩
abbrev S1x1024x512 : Shape := ⟨3, ![1, 1024, 512]⟩
abbrev S1x512x512 : Shape := ⟨3, ![1, 512, 512]⟩
abbrev S1024x512 : Shape := ⟨2, ![1024, 512]⟩
abbrev S512x512 : Shape := ⟨2, ![512, 512]⟩
abbrev S512 : Shape := ⟨1, ![512]⟩
abbrev S512x1 : Shape := ⟨2, ![512, 1]⟩
abbrev S1x512 : Shape := ⟨2, ![1, 512]⟩
abbrev S32x262144 : Shape := ⟨2, ![32, 262144]⟩
abbrev S32x256 : Shape := ⟨2, ![32, 256]⟩
abbrev S32x16384 : Shape := ⟨2, ![32, 16384]⟩
abbrev S16384x128 : Shape := ⟨2, ![16384, 128]⟩
abbrev S32x128 : Shape := ⟨2, ![32, 128]⟩
abbrev S1x256 : Shape := ⟨2, ![1, 256]⟩
abbrev S_ : Shape := ⟨0, ![]⟩
abbrev S32 : Shape := ⟨1, ![32]⟩
abbrev S32x1 : Shape := ⟨2, ![32, 1]⟩

abbrev nBuf : Space → Nat
  | .hbm => 21
  | .vmem => 11
  | .smem => 0
  | _ => 0

abbrev bufTy : (tb : Table) → Fin (tcTables nBuf tb) → BufTy
  | .hbm, ⟨0, _⟩ => ⟨S32x256x512, .f32⟩
  | .hbm, ⟨1, _⟩ => ⟨S32x256x512, .f32⟩
  | .hbm, ⟨2, _⟩ => ⟨S32x1024x512, .f32⟩
  | .hbm, ⟨3, _⟩ => ⟨S262144x256, .f32⟩
  | .hbm, ⟨4, _⟩ => ⟨S256, .f32⟩
  | .hbm, ⟨5, _⟩ => ⟨S32x512x512, .f32⟩
  | .hbm, ⟨6, _⟩ => ⟨S32x262144, .f32⟩
  | .hbm, ⟨7, _⟩ => ⟨S32x256, .f32⟩
  | .hbm, ⟨8, _⟩ => ⟨S1x256, .f32⟩
  | .hbm, ⟨9, _⟩ => ⟨S32x256, .f32⟩
  | .hbm, ⟨10, _⟩ => ⟨S32x256, .f32⟩
  | .hbm, ⟨11, _⟩ => ⟨S32x256, .f32⟩
  | .hbm, ⟨12, _⟩ => ⟨S_, .f32⟩
  | .hbm, ⟨13, _⟩ => ⟨S32, .f32⟩
  | .hbm, ⟨14, _⟩ => ⟨S32x1, .f32⟩
  | .hbm, ⟨15, _⟩ => ⟨S32x1, .f32⟩
  | .hbm, ⟨16, _⟩ => ⟨S_, .f32⟩
  | .hbm, ⟨17, _⟩ => ⟨S32x1, .f32⟩
  | .hbm, ⟨18, _⟩ => ⟨S32x1, .f32⟩
  | .hbm, ⟨19, _⟩ => ⟨S32x256, .f32⟩
  | .hbm, ⟨20, _⟩ => ⟨S32x256, .f32⟩
  | .local _ .vmem, ⟨0, _⟩ => ⟨S1x1024x512, .f32⟩
  | .local _ .vmem, ⟨1, _⟩ => ⟨S1x1024x512, .f32⟩
  | .local _ .vmem, ⟨2, _⟩ => ⟨S1x512x512, .f32⟩
  | .local _ .vmem, ⟨3, _⟩ => ⟨S1x512x512, .f32⟩
  | .local _ .vmem, ⟨4, _⟩ => ⟨S32x16384, .f32⟩
  | .local _ .vmem, ⟨5, _⟩ => ⟨S32x16384, .f32⟩
  | .local _ .vmem, ⟨6, _⟩ => ⟨S16384x128, .f32⟩
  | .local _ .vmem, ⟨7, _⟩ => ⟨S16384x128, .f32⟩
  | .local _ .vmem, ⟨8, _⟩ => ⟨S32x128, .f32⟩
  | .local _ .vmem, ⟨9, _⟩ => ⟨S32x128, .f32⟩
  | .local _ .vmem, ⟨10, _⟩ => ⟨S32x128, .f32⟩
  | _, _ => ⟨S32x256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_call0_v0 : Ref sig .tc := ⟨.hbm, 11, rfl⟩
abbrev main_call0_cst : Ref sig .tc := ⟨.hbm, 12, rfl⟩
abbrev main_call0_v1 : Ref sig .tc := ⟨.hbm, 13, rfl⟩
abbrev main_call0_v2 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨2, ![2, 16], ![false, false]⟩

def k1_cond2 (i : grid1.Coords) : BitVec 1 :=
  let arg1 : BitVec 32 := BitVec.ofNat 32 (i 1).val
  let c15_i32 : BitVec 32 := 15#32
  let v12 : BitVec 1 := Scalar.cmpi .eq arg1 c15_i32
  let v13 : BitVec 32 := Scalar.extui v12
  let c0_i32_8 : BitVec 32 := 0#32
  let v14 : BitVec 1 := Scalar.cmpi .ne v13 c0_i32_8
  v14

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage1_0 : Fin 2 → Memref sig .tc .vmem S32x16384 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S16384x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S32x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

class Facts₀ : Prop where
  inb_S1x1024x512_S1x1024x512_0_0_0 : ∀ a, (![0, 0, 0] : Fin 3 → Nat) a + S1x1024x512.size a ≤ S1x1024x512.size a
  h_S1x1024x512 : 0 < S1x1024x512.numel
  shapeCasts_S1x1024x512_S1024x512 : S1x1024x512.ShapeCasts S1024x512
  reduces_S512x512_S512 : S512x512.Reduces [1] S512
  shapeCasts_S512_S512x1 : S512.ShapeCasts S512x1
  transposes_S512x1_p1_0_S1x512 : S512x1.Transposes [1, 0] S1x512
  broadcasts_S512x1_S512x512 : S512x1.Broadcasts S512x512
  broadcasts_S1x512_S512x512 : S1x512.Broadcasts S512x512
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  shapeCasts_S512x512_S1x512x512 : S512x512.ShapeCasts S1x512x512
  shapeCasts_S32x512x512_S32x262144 : S32x512x512.ShapeCasts S32x262144
  inb_S32x128_S32x128_0_0 : ∀ a, (![0, 0] : Fin 2 → Nat) a + S32x128.size a ≤ S32x128.size a
  h_S32x128 : 0 < S32x128.numel
  shapeCasts_S32x128_S32x128 : S32x128.ShapeCasts S32x128
  inb_S32x16384_S32x16384_0_0 : ∀ a, (![0, 0] : Fin 2 → Nat) a + S32x16384.size a ≤ S32x16384.size a
  h_S32x16384 : 0 < S32x16384.numel
  shapeCasts_S32x16384_S32x16384 : S32x16384.ShapeCasts S32x16384
  inb_S16384x128_S16384x128_0_0 : ∀ a, (![0, 0] : Fin 2 → Nat) a + S16384x128.size a ≤ S16384x128.size a
  h_S16384x128 : 0 < S16384x128.numel
  shapeCasts_S256_S1x256 : S256.ShapeCasts S1x256
  bcast_S1x256_S32x256_0_1 : S1x256.BroadcastsInDim S32x256 (![0, 1] : Fin 2 → Fin S32x256.rank)
  reducesTo_S32x256_S32_d1 : S32x256.ReducesTo [1] S32
  h_S_ : 0 < S_.numel
  bcast_S32_S32x1_0 : S32.BroadcastsInDim S32x1 (![0] : Fin 1 → Fin S32x1.rank)
  bcast_S_S32x1 : S_.BroadcastsInDim S32x1 (![] : Fin 0 → Fin S32x1.rank)
  bcast_S32x1_S32x256_0_1 : S32x1.BroadcastsInDim S32x256 (![0, 1] : Fin 2 → Fin S32x256.rank)
  dot_S1024x512_S1024x512_S512x512_0_0_1_1_n_n_wf : DotDims.WF S1024x512 S1024x512 S512x512 [0] [0] [1] [1] [] []
  dot_S512x512_S512x512_S512x512_1_0_0_1_n_n_wf : DotDims.WF S512x512 S512x512 S512x512 [1] [0] [0] [1] [] []
  dot_S32x16384_S16384x128_S32x128_1_0_0_1_n_n_wf : DotDims.WF S32x16384 S16384x128 S32x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x512.size a ≤ S32x1024x512.size a
  hwx0_0 : ∀ i : grid0.Coords, EltTy.bits .f32 = 32 ∨ (Rect.block (s := S32x1024x512) S1x1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x512.size a ≤ S32x512x512.size a
  hwx0_1 : ∀ i : grid0.Coords, EltTy.bits .f32 = 32 ∨ (Rect.block (s := S32x512x512) S1x512x512.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S32x16384.size a ≤ S32x262144.size a
  hwx1_0 : ∀ i : grid1.Coords, EltTy.bits .f32 = 32 ∨ (Rect.block (s := S32x262144) S32x16384.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S16384x128.size a ≤ S262144x256.size a
  hwx1_1 : ∀ i : grid1.Coords, EltTy.bits .f32 = 32 ∨ (Rect.block (s := S262144x256) S16384x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S32x128.size a ≤ S32x256.size a
  hwx1_2 : ∀ i : grid1.Coords, EltTy.bits .f32 = 32 ∨ (Rect.block (s := S32x256) S32x128.size (cc1_transform_2 i) (hinb1_2 i)).WholeWords (EltTy.packing .f32)

variable [Facts₀]

def dot_S1024x512_S1024x512_S512x512_0_0_1_1_n_n : DotDims S1024x512 S1024x512 S512x512 where
  lhsContracting := [0]
  rhsContracting := [0]
  lhsNonContracting := [1]
  rhsNonContracting := [1]
  lhsBatch := []
  rhsBatch := []
  wf := dot_S1024x512_S1024x512_S512x512_0_0_1_1_n_n_wf
def dot_S512x512_S512x512_S512x512_1_0_0_1_n_n : DotDims S512x512 S512x512 S512x512 where
  lhsContracting := [1]
  rhsContracting := [0]
  lhsNonContracting := [0]
  rhsNonContracting := [1]
  lhsBatch := []
  rhsBatch := []
  wf := dot_S512x512_S512x512_S512x512_1_0_0_1_n_n_wf
def dot_S32x16384_S16384x128_S32x128_1_0_0_1_n_n : DotDims S32x16384 S16384x128 S32x128 where
  lhsContracting := [1]
  rhsContracting := [0]
  lhsNonContracting := [0]
  rhsNonContracting := [1]
  lhsBatch := []
  rhsBatch := []
  wf := dot_S32x16384_S16384x128_S32x128_1_0_0_1_n_n_wf

abbrev win0_0 : Pipeline.Window sig grid0 :=
  Pipeline.Window.ofSpec (Memref.whole main_arg2) S1x1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x512x512.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v1) S32x16384.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S16384x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S32x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

class Facts : Prop extends Facts₀ where

variable [Facts]
-- ==== ReferenceIdeal.lean ====
abbrev S32x256x512 : Shape := ⟨3, ![32, 256, 512]⟩
abbrev S32x1024x512 : Shape := ⟨3, ![32, 1024, 512]⟩
abbrev S262144x256 : Shape := ⟨2, ![262144, 256]⟩
abbrev S256 : Shape := ⟨1, ![256]⟩
abbrev S32x512x1024 : Shape := ⟨3, ![32, 512, 1024]⟩
abbrev S32x512x512 : Shape := ⟨3, ![32, 512, 512]⟩
abbrev S_ : Shape := ⟨0, ![]⟩
abbrev S32x512 : Shape := ⟨2, ![32, 512]⟩
abbrev S32x512x1 : Shape := ⟨3, ![32, 512, 1]⟩
abbrev S32x1x512 : Shape := ⟨3, ![32, 1, 512]⟩
abbrev S32x262144 : Shape := ⟨2, ![32, 262144]⟩
abbrev S32x256 : Shape := ⟨2, ![32, 256]⟩
abbrev S1x256 : Shape := ⟨2, ![1, 256]⟩
abbrev S32 : Shape := ⟨1, ![32]⟩
abbrev S32x1 : Shape := ⟨2, ![32, 1]⟩

abbrev nBuf : Space → Nat
  | .hbm => 39
  | .vmem => 0
  | .smem => 0
  | _ => 0

abbrev bufTy : (tb : Table) → Fin (tcTables nBuf tb) → BufTy
  | .hbm, ⟨0, _⟩ => ⟨S32x256x512, .f32⟩
  | .hbm, ⟨1, _⟩ => ⟨S32x256x512, .f32⟩
  | .hbm, ⟨2, _⟩ => ⟨S32x1024x512, .f32⟩
  | .hbm, ⟨3, _⟩ => ⟨S262144x256, .f32⟩
  | .hbm, ⟨4, _⟩ => ⟨S256, .f32⟩
  | .hbm, ⟨5, _⟩ => ⟨S32x512x1024, .f32⟩
  | .hbm, ⟨6, _⟩ => ⟨S32x512x512, .f32⟩
  | .hbm, ⟨7, _⟩ => ⟨S32x512x512, .f32⟩
  | .hbm, ⟨8, _⟩ => ⟨S_, .f32⟩
  | .hbm, ⟨9, _⟩ => ⟨S32x512, .f32⟩
  | .hbm, ⟨10, _⟩ => ⟨S32x512x512, .f32⟩
  | .hbm, ⟨11, _⟩ => ⟨S32x512x1, .f32⟩
  | .hbm, ⟨12, _⟩ => ⟨S32x1x512, .f32⟩
  | .hbm, ⟨13, _⟩ => ⟨S32x512x512, .f32⟩
  | .hbm, ⟨14, _⟩ => ⟨S32x512x512, .f32⟩
  | .hbm, ⟨15, _⟩ => ⟨S32x512x512, .f32⟩
  | .hbm, ⟨16, _⟩ => ⟨S_, .f32⟩
  | .hbm, ⟨17, _⟩ => ⟨S32x512x512, .f32⟩
  | .hbm, ⟨18, _⟩ => ⟨S32x512x512, .f32⟩
  | .hbm, ⟨19, _⟩ => ⟨S32x512x512, .f32⟩
  | .hbm, ⟨20, _⟩ => ⟨S_, .f32⟩
  | .hbm, ⟨21, _⟩ => ⟨S32x512x512, .f32⟩
  | .hbm, ⟨22, _⟩ => ⟨S32x512x512, .f32⟩
  | .hbm, ⟨23, _⟩ => ⟨S32x512x512, .f32⟩
  | .hbm, ⟨24, _⟩ => ⟨S32x262144, .f32⟩
  | .hbm, ⟨25, _⟩ => ⟨S32x256, .f32⟩
  | .hbm, ⟨26, _⟩ => ⟨S1x256, .f32⟩
  | .hbm, ⟨27, _⟩ => ⟨S32x256, .f32⟩
  | .hbm, ⟨28, _⟩ => ⟨S32x256, .f32⟩
  | .hbm, ⟨29, _⟩ => ⟨S32x256, .f32⟩
  | .hbm, ⟨30, _⟩ => ⟨S_, .f32⟩
  | .hbm, ⟨31, _⟩ => ⟨S32, .f32⟩
  | .hbm, ⟨32, _⟩ => ⟨S32x1, .f32⟩
  | .hbm, ⟨33, _⟩ => ⟨S32x1, .f32⟩
  | .hbm, ⟨34, _⟩ => ⟨S_, .f32⟩
  | .hbm, ⟨35, _⟩ => ⟨S32x1, .f32⟩
  | .hbm, ⟨36, _⟩ => ⟨S32x1, .f32⟩
  | .hbm, ⟨37, _⟩ => ⟨S32x256, .f32⟩
  | .hbm, ⟨38, _⟩ => ⟨S32x256, .f32⟩
  | _, _ => ⟨S32x256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_call0_v0 : Ref sig .tc := ⟨.hbm, 29, rfl⟩
abbrev main_call0_cst : Ref sig .tc := ⟨.hbm, 30, rfl⟩
abbrev main_call0_v1 : Ref sig .tc := ⟨.hbm, 31, rfl⟩
abbrev main_call0_v2 : Ref sig .tc := ⟨.hbm, 32, rfl⟩
abbrev main_v21 : Ref sig .tc := ⟨.hbm, 33, rfl⟩
abbrev main_cst_2 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩

abbrev nD : Nat := 1
abbrev τ : Topo := Topo.v7x

variable {F : FTy → Type} [FloatOps F]

class Facts₀ : Prop where
  transposes_S32x1024x512_S32x512x1024_0_2_1 : S32x1024x512.Transposes [0, 2, 1] S32x512x1024
  reducesTo_S32x512x512_S32x512_d2 : S32x512x512.ReducesTo [2] S32x512
  h_S_ : 0 < S_.numel
  bcast_S32x512_S32x512x1_0_1 : S32x512.BroadcastsInDim S32x512x1 (![0, 1] : Fin 2 → Fin S32x512x1.rank)
  bcast_S32x512_S32x1x512_0_2 : S32x512.BroadcastsInDim S32x1x512 (![0, 2] : Fin 2 → Fin S32x1x512.rank)
  bcast_S32x512x1_S32x512x512_0_1_2 : S32x512x1.BroadcastsInDim S32x512x512 (![0, 1, 2] : Fin 3 → Fin S32x512x512.rank)
  bcast_S32x1x512_S32x512x512_0_1_2 : S32x1x512.BroadcastsInDim S32x512x512 (![0, 1, 2] : Fin 3 → Fin S32x512x512.rank)
  bcast_S_S32x512x512 : S_.BroadcastsInDim S32x512x512 (![] : Fin 0 → Fin S32x512x512.rank)
  shapeCasts_S32x512x512_S32x262144 : S32x512x512.ShapeCasts S32x262144
  bcast_S256_S1x256_1 : S256.BroadcastsInDim S1x256 (![1] : Fin 1 → Fin S1x256.rank)
  bcast_S1x256_S32x256_0_1 : S1x256.BroadcastsInDim S32x256 (![0, 1] : Fin 2 → Fin S32x256.rank)
  reducesTo_S32x256_S32_d1 : S32x256.ReducesTo [1] S32
  bcast_S32_S32x1_0 : S32.BroadcastsInDim S32x1 (![0] : Fin 1 → Fin S32x1.rank)
  bcast_S_S32x1 : S_.BroadcastsInDim S32x1 (![] : Fin 0 → Fin S32x1.rank)
  bcast_S32x1_S32x256_0_1 : S32x1.BroadcastsInDim S32x256 (![0, 1] : Fin 2 → Fin S32x256.rank)
  dot_S32x512x1024_S32x512x1024_S32x512x512_2_2_1_1_0_0_wf : DotDims.WF S32x512x1024 S32x512x1024 S32x512x512 [2] [2] [1] [1] [0] [0]
  dot_S32x512x512_S32x512x512_S32x512x512_2_2_1_1_0_0_wf : DotDims.WF S32x512x512 S32x512x512 S32x512x512 [2] [2] [1] [1] [0] [0]
  dot_S32x262144_S262144x256_S32x256_1_0_0_1_n_n_wf : DotDims.WF S32x262144 S262144x256 S32x256 [1] [0] [0] [1] [] []

variable [Facts₀]

def dot_S32x512x1024_S32x512x1024_S32x512x512_2_2_1_1_0_0 : DotDims S32x512x1024 S32x512x1024 S32x512x512 where
  lhsContracting := [2]
  rhsContracting := [2]
  lhsNonContracting := [1]
  rhsNonContracting := [1]
  lhsBatch := [0]
  rhsBatch := [0]
  wf := dot_S32x512x1024_S32x512x1024_S32x512x512_2_2_1_1_0_0_wf
def dot_S32x512x512_S32x512x512_S32x512x512_2_2_1_1_0_0 : DotDims S32x512x512 S32x512x512 S32x512x512 where
  lhsContracting := [2]
  rhsContracting := [2]
  lhsNonContracting := [1]
  rhsNonContracting := [1]
  lhsBatch := [0]
  rhsBatch := [0]
  wf := dot_S32x512x512_S32x512x512_S32x512x512_2_2_1_1_0_0_wf
def dot_S32x262144_S262144x256_S32x256_1_0_0_1_n_n : DotDims S32x262144 S262144x256 S32x256 where
  lhsContracting := [1]
  rhsContracting := [0]
  lhsNonContracting := [0]
  rhsNonContracting := [1]
  lhsBatch := []
  rhsBatch := []
  wf := dot_S32x262144_S262144x256_S32x256_1_0_0_1_n_n_wf

class Facts : Prop extends Facts₀ where

variable [Facts]
-- ==== Proof.KFrameR0.lean ====
import proofs.«106771_j67276367724779_2_alg».proof.Proof.Gen.Kernel.Launch
import proofs.«106771_j67276367724779_2_alg».proof.Proof.Gen.Kernel.Skeleton
import proofs.«106771_j67276367724779_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-!
# The first kernel region: one batch per grid point

The region walks the 32 batches. At point `t` the pipeline stages the block `t` of the input array (one batch,
1024 × 512) and the body stores ONE whole block of the output (one batch, 512 × 512): the pairwise-distance matrix
of that batch. Everything here is stated at a parameter `V`, the contents of the core's buffers when the region
is entered.
-/
section Region0

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's current staging buffer holds its block at every point, for any proof data whose array is
    `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The whole input block and the whole output block, as rectangles. -/
abbrev rIn0 : Rect S1x1024x512 := Rect.unit (s := S1x1024x512) ![0, 0, 0] S1x1024x512.size inb_S1x1024x512_S1x1024x512_0_0_0
abbrev rOut0 : Rect S1x512x512 := Rect.unit (s := S1x512x512) ![0, 0, 0] S1x512x512.size inb_S1x512x512_S1x512x512_0_0_0

/-- What the body leaves in the output block: its one store, of the distance payload of the input block. -/
def out0_1 (x0 : Vec F S1x1024x512 .f32) : Vec F S1x512x512 .f32 :=
  View.canon [⟨rOut0, k0_pay1 (View.ld x0 rIn0)⟩]

/-- The one store covers the output block. -/
theorem cover0_1 (p0 : Vec F S1x512x512 .f32) (y : S1x512x512.Idx) :
    ∃ pc ∈ ([⟨rOut0, p0⟩] : List (View.Piece (Elt F) S1x512x512 .f32)), y ∈ pc.1.set :=
  View.cover_of_tiled [⟨rOut0, p0⟩] S1x512x512.size (by rfl) y

set_option maxHeartbeats 1000000 in
/-- The body on whole staging buffers: the input's at contents `x0`, the output's at anything, runs to the
    continuation with the input's as it was and the output's at `out0_1 x0`. -/
theorem sound_kernel0 (c : Dev nD) (E : Set ℕ) (i : grid0.Coords) (arg1 : Memref sig .tc .vmem S1x1024x512 .f32) (harg1 : arg1.IsWhole)
    (arg2 : Memref sig .tc .vmem S1x512x512 .f32) (harg2 : arg2.IsWhole)
    (x0 : Vec F S1x1024x512 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out0_1 x0)) -∗ K ⟨⟩))
      ⊢ wp frame (wpE (defs₀ (F := F)) Variants.none c none) E (cc0__sim_kernel i arg1 harg1 arg2 harg2) K := by
  simp only [cc0__sim_kernel_eq_skeleton]; unfold cc0__sim_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

/-- The proof data of the first region on core `c`: the arrays as the region finds them; after the body at point
    `t` the input's buffer at its block and the output's at `out0_1` of the input block; nothing carried. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]

theorem before0_0 (c : Dev nD) (t : Fin cfg0.N) (d) : (dat0 V c).before 0 t d = iblk0 V c 0 t :=
  before0_0_of V (dat0 V c) (A_eq0 V c 0) (after0_0 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ _ _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The body obligation of the first region, at every point. -/
theorem body_obligation0 (c : Dev nD) : BodyObligation (dat0 (F := F) V c) (defs₀ (F := F)) Variants.none () Set.univ := fun t => by
  rw [bigSep_W0, bigSep_W0]
  exact sound_body0 V c t

end Region0

end Cert.Kernel.Hand

end
-- ==== Proof.KFrameR1.lean ====
import proofs.«106771_j67276367724779_2_alg».proof.Proof.Gen.Kernel.Launch
import proofs.«106771_j67276367724779_2_alg».proof.Proof.Gen.Kernel.Skeleton
import proofs.«106771_j67276367724779_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-!
# The second kernel region: a matrix product accumulated over K-blocks

The grid is 2 × 16: for each half `j` of the 256 output columns the region walks the 16 blocks `k` of the long
axis. A scratch buffer of 32 × 128 carries the running sum from point to point: at `k = 0` it is first reset to
zero, at every point the block product is added to it, and at `k = 15` it is copied into the output window, which
the pipeline writes back there and at no other point. So the body has three control cases — first block (A), an
inner block (B), last block (C) — and the invariant between two points names what the scratch holds.
Everything here is stated at a parameter `V`, the contents of the core's buffers when the region is entered.
-/

section Region1

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Each input window's current staging buffer holds its block at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The two conditions of the body, decided over the grid -/

/-- "This is the first K-block": the accumulator is reset. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 16 = 0 :=
  (by decide +kernel : ∀ t : Fin grid1.N, cond1_0 (grid1.coords t) ↔ t.val % 16 = 0)
/-- "This is the last K-block": the accumulator is copied out. -/
abbrev cond1_1 (i : grid1.Coords) : Prop := k1_cond2 i = 1#1
theorem hcond1_1 : ∀ t : Fin cfg1.N, cond1_1 (grid1.coords t) ↔ t.val % 16 = 15 :=
  (by decide +kernel : ∀ t : Fin grid1.N, cond1_1 (grid1.coords t) ↔ t.val % 16 = 15)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem idleAt1_2_A : ∀ t : Fin cfg1.N, cond1_0 (grid1.coords t) → ¬cond1_1 (grid1.coords t) → cfg1.idle 2 (grid1.coords t) = true := by decide +kernel
theorem noFlush1_2_A : ∀ t : Fin cfg1.N, cond1_0 (grid1.coords t) → ¬cond1_1 (grid1.coords t) → (cfg1.win 2).flush t = false := by decide +kernel
theorem idleAt1_2_B : ∀ t : Fin cfg1.N, ¬cond1_0 (grid1.coords t) → ¬cond1_1 (grid1.coords t) → cfg1.idle 2 (grid1.coords t) = true := by decide +kernel
theorem noFlush1_2_B : ∀ t : Fin cfg1.N, ¬cond1_0 (grid1.coords t) → ¬cond1_1 (grid1.coords t) → (cfg1.win 2).flush t = false := by decide +kernel
theorem liveAt1_2_C : ∀ t : Fin cfg1.N, ¬cond1_0 (grid1.coords t) → cond1_1 (grid1.coords t) → cfg1.idle 2 (grid1.coords t) = false := by decide +kernel

/-! ## The memrefs the body is called with -/

abbrev VO1_2 : View sig .tc .vmem S32x128 .f32 := (Memref.whole cc1_stg2_0 : Memref sig .tc .vmem S32x128 .f32).view
abbrev ms1_0 (t : Fin cfg1.N) : Memref sig .tc .vmem S32x16384 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S16384x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S32x128 .f32 := win1_2.stage (cfg1.slots t 2)
abbrev hs1_2 (t : Fin cfg1.N) : (ms1_2 t).IsWhole := hstage1_2 ((cfg1.slots t 2).cast nbuf1_2)
/-- The scratch accumulator, a whole scoped buffer of the kernel's own. -/
abbrev scM1 : Memref sig .tc .vmem S32x128 .f32 := Memref.whole cc1_scratch0
abbrev VS1 : View sig .tc .vmem S32x128 .f32 := scM1.view

/-- The scoped buffers this region does not stage — the other region's four staging buffers, each whole at some
    contents — beside a statement `P` about the scratch accumulator. -/
def others1 (c : Dev nD) (P : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ P)

/-- The class invariant, with the scratch accumulator as a memref owned at some contents. -/
theorem PhiA1_eq (c : Dev nD) :
    (Pipeline.ΦA spec1 c : sProp 𝕄)
      = iprop(others1 c (iprop(∃ d, owns (c : Thread nD τ) scM1 fullShare d)) ∗ (∃ r, prngReg c r)) := by
  unfold Pipeline.ΦA others1; rw [scopedRest1_eq]; simp only [scM1, owns_whole]; try rfl

/-! ## The body's triple, case by case -/

set_option maxHeartbeats 1000000 in
/-- Case A (first K-block, not the last): the scratch at anything, the output window untouched. -/
noncomputable def kernelRun1_A (c : Dev nD) (i : grid1.Coords) (arg2 : Memref sig .tc .vmem S32x16384 .f32) (harg2 : arg2.IsWhole) (arg3 : Memref sig .tc .vmem S16384x128 .f32) (harg3 : arg3.IsWhole) (arg4 : Memref sig .tc .vmem S32x128 .f32) (harg4 : arg4.IsWhole) (arg5 : Memref sig .tc .vmem S32x128 .f32) (harg5 : arg5.IsWhole) (hc0 : cond1_0 i) (hc1 : ¬cond1_1 i)
    (x0 : Vec F S32x16384 .f32) (x1 : Vec F S16384x128 .f32) :
    Σ' (L2 : List (View.Piece (Elt F) S32x128 .f32)), { LS0 : List (View.Piece (Elt F) S32x128 .f32) //
      ∀ (xi2 : Vec F S32x128 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1__mm_kernel i arg2 harg2 arg3 harg3 arg4 harg4 arg5 harg5) K } := by
  refine ⟨[], ?_, fun xi2 E K => ?run⟩
  case run =>
    simp only [cc1__mm_kernel_eq_skeleton]; unfold cc1__mm_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

set_option maxHeartbeats 1000000 in
/-- Case B (an inner K-block): the scratch at what the point before left, the output window untouched. -/
noncomputable def kernelRun1_B (c : Dev nD) (i : grid1.Coords) (arg2 : Memref sig .tc .vmem S32x16384 .f32) (harg2 : arg2.IsWhole) (arg3 : Memref sig .tc .vmem S16384x128 .f32) (harg3 : arg3.IsWhole) (arg4 : Memref sig .tc .vmem S32x128 .f32) (harg4 : arg4.IsWhole) (arg5 : Memref sig .tc .vmem S32x128 .f32) (harg5 : arg5.IsWhole) (hc0 : ¬cond1_0 i) (hc1 : ¬cond1_1 i)
    (x0 : Vec F S32x16384 .f32) (x1 : Vec F S16384x128 .f32) (xs0 : Vec F S32x128 .f32) :
    Σ' (L2 : List (View.Piece (Elt F) S32x128 .f32)), { LS0 : List (View.Piece (Elt F) S32x128 .f32) //
      ∀ (xi2 : Vec F S32x128 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1__mm_kernel i arg2 harg2 arg3 harg3 arg4 harg4 arg5 harg5) K } := by
  refine ⟨[], ?_, fun xi2 E K => ?run⟩
  case run =>
    simp only [cc1__mm_kernel_eq_skeleton]; unfold cc1__mm_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

set_option maxHeartbeats 1000000 in
/-- Case C (the last K-block): the scratch at what the point before left, the output window stored into. -/
noncomputable def kernelRun1_C (c : Dev nD) (i : grid1.Coords) (arg2 : Memref sig .tc .vmem S32x16384 .f32) (harg2 : arg2.IsWhole) (arg3 : Memref sig .tc .vmem S16384x128 .f32) (harg3 : arg3.IsWhole) (arg4 : Memref sig .tc .vmem S32x128 .f32) (harg4 : arg4.IsWhole) (arg5 : Memref sig .tc .vmem S32x128 .f32) (harg5 : arg5.IsWhole) (hc0 : ¬cond1_0 i) (hc1 : cond1_1 i)
    (x0 : Vec F S32x16384 .f32) (x1 : Vec F S16384x128 .f32) (xs0 : Vec F S32x128 .f32) :
    Σ' (L2 : List (View.Piece (Elt F) S32x128 .f32)), { LS0 : List (View.Piece (Elt F) S32x128 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc1__mm_kernel i arg2 harg2 arg3 harg3 arg4 harg4 arg5 harg5) K } := by
  refine ⟨?_, ?_, fun E K => ?run⟩
  case run =>
    simp only [cc1__mm_kernel_eq_skeleton]; unfold cc1__mm_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

/-! ## What each case leaves -/

/-- Case A stores nothing into the output window: a placeholder nothing consults. -/
def out1_A_2 (c : Dev nD) (i : grid1.Coords) (arg2 : Memref sig .tc .vmem S32x16384 .f32) (harg2 : arg2.IsWhole) (arg3 : Memref sig .tc .vmem S16384x128 .f32) (harg3 : arg3.IsWhole) (arg4 : Memref sig .tc .vmem S32x128 .f32) (harg4 : arg4.IsWhole) (arg5 : Memref sig .tc .vmem S32x128 .f32) (harg5 : arg5.IsWhole) (hc0 : cond1_0 i) (hc1 : ¬cond1_1 i)
    (x0 : Vec F S32x16384 .f32) (x1 : Vec F S16384x128 .f32) : Vec F S32x128 .f32 :=
  VO1_2.read (Elt F) (VO1_2.writes (Elt F) VO1_2.junk (kernelRun1_A c i arg2 harg2 arg3 harg3 arg4 harg4 arg5 harg5 hc0 hc1 x0 x1).1)
theorem scover1_A (c : Dev nD) (i : grid1.Coords) (arg2 : Memref sig .tc .vmem S32x16384 .f32) (harg2 : arg2.IsWhole) (arg3 : Memref sig .tc .vmem S16384x128 .f32) (harg3 : arg3.IsWhole) (arg4 : Memref sig .tc .vmem S32x128 .f32) (harg4 : arg4.IsWhole) (arg5 : Memref sig .tc .vmem S32x128 .f32) (harg5 : arg5.IsWhole) (hc0 : cond1_0 i) (hc1 : ¬cond1_1 i)
    (x0 : Vec F S32x16384 .f32) (x1 : Vec F S16384x128 .f32) (y : S32x128.Idx) :
    ∃ pc ∈ (kernelRun1_A c i arg2 harg2 arg3 harg3 arg4 harg4 arg5 harg5 hc0 hc1 x0 x1).2.1, y ∈ pc.1.set :=
  View.cover_of_tiledL (kernelRun1_A c i arg2 harg2 arg3 harg3 arg4 harg4 arg5 harg5 hc0 hc1 x0 x1).2.1 S32x128.size (by sl_kernel_rfl) y
/-- What case A leaves in the scratch accumulator. -/
def sout1_A (c : Dev nD) (i : grid1.Coords) (arg2 : Memref sig .tc .vmem S32x16384 .f32) (harg2 : arg2.IsWhole) (arg3 : Memref sig .tc .vmem S16384x128 .f32) (harg3 : arg3.IsWhole) (arg4 : Memref sig .tc .vmem S32x128 .f32) (harg4 : arg4.IsWhole) (arg5 : Memref sig .tc .vmem S32x128 .f32) (harg5 : arg5.IsWhole) (hc0 : cond1_0 i) (hc1 : ¬cond1_1 i)
    (x0 : Vec F S32x16384 .f32) (x1 : Vec F S16384x128 .f32) : Vec F S32x128 .f32 :=
  VS1.read (Elt F) (VS1.writes (Elt F) VS1.junk (kernelRun1_A c i arg2 harg2 arg3 harg3 arg4 harg4 arg5 harg5 hc0 hc1 x0 x1).2.1)

def out1_B_2 (c : Dev nD) (i : grid1.Coords) (arg2 : Memref sig .tc .vmem S32x16384 .f32) (harg2 : arg2.IsWhole) (arg3 : Memref sig .tc .vmem S16384x128 .f32) (harg3 : arg3.IsWhole) (arg4 : Memref sig .tc .vmem S32x128 .f32) (harg4 : arg4.IsWhole) (arg5 : Memref sig .tc .vmem S32x128 .f32) (harg5 : arg5.IsWhole) (hc0 : ¬cond1_0 i) (hc1 : ¬cond1_1 i)
    (x0 : Vec F S32x16384 .f32) (x1 : Vec F S16384x128 .f32) (xs0 : Vec F S32x128 .f32) : Vec F S32x128 .f32 :=
  VO1_2.read (Elt F) (VO1_2.writes (Elt F) VO1_2.junk (kernelRun1_B c i arg2 harg2 arg3 harg3 arg4 harg4 arg5 harg5 hc0 hc1 x0 x1 xs0).1)
theorem scover1_B (c : Dev nD) (i : grid1.Coords) (arg2 : Memref sig .tc .vmem S32x16384 .f32) (harg2 : arg2.IsWhole) (arg3 : Memref sig .tc .vmem S16384x128 .f32) (harg3 : arg3.IsWhole) (arg4 : Memref sig .tc .vmem S32x128 .f32) (harg4 : arg4.IsWhole) (arg5 : Memref sig .tc .vmem S32x128 .f32) (harg5 : arg5.IsWhole) (hc0 : ¬cond1_0 i) (hc1 : ¬cond1_1 i)
    (x0 : Vec F S32x16384 .f32) (x1 : Vec F S16384x128 .f32) (xs0 : Vec F S32x128 .f32) (y : S32x128.Idx) :
    ∃ pc ∈ (kernelRun1_B c i arg2 harg2 arg3 harg3 arg4 harg4 arg5 harg5 hc0 hc1 x0 x1 xs0).2.1, y ∈ pc.1.set :=
  View.cover_of_tiledL (kernelRun1_B c i arg2 harg2 arg3 harg3 arg4 harg4 arg5 harg5 hc0 hc1 x0 x1 xs0).2.1 S32x128.size (by sl_kernel_rfl) y
/-- What case B leaves in the scratch accumulator. -/
def sout1_B (c : Dev nD) (i : grid1.Coords) (arg2 : Memref sig .tc .vmem S32x16384 .f32) (harg2 : arg2.IsWhole) (arg3 : Memref sig .tc .vmem S16384x128 .f32) (harg3 : arg3.IsWhole) (arg4 : Memref sig .tc .vmem S32x128 .f32) (harg4 : arg4.IsWhole) (arg5 : Memref sig .tc .vmem S32x128 .f32) (harg5 : arg5.IsWhole) (hc0 : ¬cond1_0 i) (hc1 : ¬cond1_1 i)
    (x0 : Vec F S32x16384 .f32) (x1 : Vec F S16384x128 .f32) (xs0 : Vec F S32x128 .f32) : Vec F S32x128 .f32 :=
  VS1.read (Elt F) (VS1.writes (Elt F) VS1.junk (kernelRun1_B c i arg2 harg2 arg3 harg3 arg4 harg4 arg5 harg5 hc0 hc1 x0 x1 xs0).2.1)

theorem cover1_C_2 (c : Dev nD) (i : grid1.Coords) (arg2 : Memref sig .tc .vmem S32x16384 .f32) (harg2 : arg2.IsWhole) (arg3 : Memref sig .tc .vmem S16384x128 .f32) (harg3 : arg3.IsWhole) (arg4 : Memref sig .tc .vmem S32x128 .f32) (harg4 : arg4.IsWhole) (arg5 : Memref sig .tc .vmem S32x128 .f32) (harg5 : arg5.IsWhole) (hc0 : ¬cond1_0 i) (hc1 : cond1_1 i)
    (x0 : Vec F S32x16384 .f32) (x1 : Vec F S16384x128 .f32) (xs0 : Vec F S32x128 .f32) (y : S32x128.Idx) :
    ∃ pc ∈ (kernelRun1_C c i arg2 harg2 arg3 harg3 arg4 harg4 arg5 harg5 hc0 hc1 x0 x1 xs0).1, y ∈ pc.1.set :=
  View.cover_of_tiledL (kernelRun1_C c i arg2 harg2 arg3 harg3 arg4 harg4 arg5 harg5 hc0 hc1 x0 x1 xs0).1 S32x128.size (by sl_kernel_rfl) y
/-- What case C leaves in the output window's staging buffer. -/
def out1_C_2 (c : Dev nD) (i : grid1.Coords) (arg2 : Memref sig .tc .vmem S32x16384 .f32) (harg2 : arg2.IsWhole) (arg3 : Memref sig .tc .vmem S16384x128 .f32) (harg3 : arg3.IsWhole) (arg4 : Memref sig .tc .vmem S32x128 .f32) (harg4 : arg4.IsWhole) (arg5 : Memref sig .tc .vmem S32x128 .f32) (harg5 : arg5.IsWhole) (hc0 : ¬cond1_0 i) (hc1 : cond1_1 i)
    (x0 : Vec F S32x16384 .f32) (x1 : Vec F S16384x128 .f32) (xs0 : Vec F S32x128 .f32) : Vec F S32x128 .f32 :=
  VO1_2.read (Elt F) (VO1_2.writes (Elt F) VO1_2.junk (kernelRun1_C c i arg2 harg2 arg3 harg3 arg4 harg4 arg5 harg5 hc0 hc1 x0 x1 xs0).1)
theorem scover1_C (c : Dev nD) (i : grid1.Coords) (arg2 : Memref sig .tc .vmem S32x16384 .f32) (harg2 : arg2.IsWhole) (arg3 : Memref sig .tc .vmem S16384x128 .f32) (harg3 : arg3.IsWhole) (arg4 : Memref sig .tc .vmem S32x128 .f32) (harg4 : arg4.IsWhole) (arg5 : Memref sig .tc .vmem S32x128 .f32) (harg5 : arg5.IsWhole) (hc0 : ¬cond1_0 i) (hc1 : cond1_1 i)
    (x0 : Vec F S32x16384 .f32) (x1 : Vec F S16384x128 .f32) (xs0 : Vec F S32x128 .f32) (y : S32x128.Idx) :
    ∃ pc ∈ (kernelRun1_C c i arg2 harg2 arg3 harg3 arg4 harg4 arg5 harg5 hc0 hc1 x0 x1 xs0).2.1, y ∈ pc.1.set :=
  View.cover_of_tiledL (kernelRun1_C c i arg2 harg2 arg3 harg3 arg4 harg4 arg5 harg5 hc0 hc1 x0 x1 xs0).2.1 S32x128.size (by sl_kernel_rfl) y
/-- What case C leaves in the scratch accumulator. -/
def sout1_C (c : Dev nD) (i : grid1.Coords) (arg2 : Memref sig .tc .vmem S32x16384 .f32) (harg2 : arg2.IsWhole) (arg3 : Memref sig .tc .vmem S16384x128 .f32) (harg3 : arg3.IsWhole) (arg4 : Memref sig .tc .vmem S32x128 .f32) (harg4 : arg4.IsWhole) (arg5 : Memref sig .tc .vmem S32x128 .f32) (harg5 : arg5.IsWhole) (hc0 : ¬cond1_0 i) (hc1 : cond1_1 i)
    (x0 : Vec F S32x16384 .f32) (x1 : Vec F S16384x128 .f32) (xs0 : Vec F S32x128 .f32) : Vec F S32x128 .f32 :=
  VS1.read (Elt F) (VS1.writes (Elt F) VS1.junk (kernelRun1_C c i arg2 harg2 arg3 harg3 arg4 harg4 arg5 harg5 hc0 hc1 x0 x1 xs0).2.1)

/-! ## The accumulation, point by point -/

/-- What the output window's staging buffer and the scratch accumulator hold after the body at position `n`: the case the
    closed forms select, run at the point's memrefs and input blocks, over what the point before left in the scratch. -/
def outsAt1 (c : Dev nD) : (n : ℕ) → n < cfg1.N → Vec F S32x128 .f32 × Vec F S32x128 .f32
  | 0, hn => (out1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩), sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩))
  | n + 1, hn =>
    if h0 : (n + 1) % 16 = 0 then
      if h1 : (n + 1) % 16 = 15 then
        False.elim (by omega)
      else
        (out1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩), sout1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩))
    else
      if h1 : (n + 1) % 16 = 15 then
        (out1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2, sout1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2)
      else
        (out1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2, sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2)

theorem outsAt1_A (c : Dev nD) (t : Fin cfg1.N) (h0 : t.val % 16 = 0) (h1 : ¬t.val % 16 = 15) :
    outsAt1 V c t.val t.isLt = (out1_A_2 c (grid1.coords t) (ms1_0 t) (hs1_0 t) (ms1_1 t) (hs1_1 t) (ms1_2 t) (hs1_2 t) scM1 (Memref.isWhole_whole _) ((hcond1_0 t).mpr h0) (fun h => h1 ((hcond1_1 t).mp h)) (iblk1 V c 0 t) (iblk1 V c 1 t), sout1_A c (grid1.coords t) (ms1_0 t) (hs1_0 t) (ms1_1 t) (hs1_1 t) (ms1_2 t) (hs1_2 t) scM1 (Memref.isWhole_whole _) ((hcond1_0 t).mpr h0) (fun h => h1 ((hcond1_1 t).mp h)) (iblk1 V c 0 t) (iblk1 V c 1 t)) := by
  obtain ⟨n, hn⟩ := t
  cases n with
  | zero => exact rfl
  | succ n => exact (dif_pos h0).trans ((dif_neg h1).trans rfl)

theorem outsAt1_B (c : Dev nD) (t : Fin cfg1.N) (h0 : ¬t.val % 16 = 0) (h1 : ¬t.val % 16 = 15) :
    outsAt1 V c t.val t.isLt = (out1_B_2 c (grid1.coords t) (ms1_0 t) (hs1_0 t) (ms1_1 t) (hs1_1 t) (ms1_2 t) (hs1_2 t) scM1 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2, sout1_B c (grid1.coords t) (ms1_0 t) (hs1_0 t) (ms1_1 t) (hs1_1 t) (ms1_2 t) (hs1_2 t) scM1 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 16 = 0) (h1 : t.val % 16 = 15) :
    outsAt1 V c t.val t.isLt = (out1_C_2 c (grid1.coords t) (ms1_0 t) (hs1_0 t) (ms1_1 t) (hs1_1 t) (ms1_2 t) (hs1_2 t) scM1 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2, sout1_C c (grid1.coords t) (ms1_0 t) (hs1_0 t) (ms1_1 t) (hs1_1 t) (ms1_2 t) (hs1_2 t) scM1 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the class's; afterwards the other scoped buffers at
    anything, the scratch accumulator at what the point before left in it, and the generator register at some state. -/
def PhiS (c : Dev nD) : (n : ℕ) → n ≤ cfg1.N → sProp 𝕄
  | 0, _ => Pipeline.ΦA spec1 c
  | n + 1, hn => iprop(others1 c (owns (c : Thread nD τ) scM1 fullShare ((outsAt1 V c n hn).2)) ∗ (∃ r, prngReg c r))

theorem PhiS_zero (c : Dev nD) (n : ℕ) (h : n ≤ cfg1.N) (hz : n = 0) : PhiS V c n h = Pipeline.ΦA spec1 c := by
  subst hz; rfl
theorem PhiS_succ (c : Dev nD) (n : ℕ) (hn : n < cfg1.N) :
    PhiS V c (n + 1) hn = iprop(others1 c (owns (c : Thread nD τ) scM1 fullShare ((outsAt1 V c n hn).2)) ∗ (∃ r, prngReg c r)) := rfl
theorem PhiS_pos (c : Dev nD) (n : ℕ) (h : n ≤ cfg1.N) (hz : n ≠ 0) :
    PhiS V c n h = iprop(others1 c (owns (c : Thread nD τ) scM1 fullShare ((outsAt1 V c (n - 1) (by omega)).2)) ∗ (∃ r, prngReg c r)) := by
  cases n with
  | zero => exact absurd rfl hz
  | succ n => rfl

/-! ## The proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS_castSucc (c : Dev nD) (t : Fin cfg1.N) :
    (dat1 V c).Φ t.castSucc = PhiS V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

end Region1

end Cert.Kernel.Hand

end
-- ==== Proof.KFrameR1b.lean ====
import proofs.«106771_j67276367724779_2_alg».proof.Proof.Gen.Kernel.Launch
import proofs.«106771_j67276367724779_2_alg».proof.Proof.Gen.Kernel.Skeleton
import proofs.«106771_j67276367724779_2_alg».proof.Proof.Gen.Kernel.Points
import proofs.«106771_j67276367724779_2_alg».proof.Proof.KFrameR1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-!
# The second region's body obligation

At every point the closed forms of the two conditions say which control case the point is in; the invariant hands the body
the scratch accumulator at what the point before left (at anything before a first K-block, which resets it) and takes it back
at this point's contents.
-/

section Region1

variable (V : (c : Dev nD) → (b : Ref sig .tc) → Buf (Elt F) ((c : Thread nD τ).loc b))

set_option maxHeartbeats 4800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS V c (t.val + 1) t.isLt from rfl, PhiS_succ]
  have hN : t.val < 32 := lt_of_lt_of_eq t.isLt (show cfg1.N = 32 from N_1)
  by_cases h0 : t.val % 16 = 0
  · by_cases h1 : t.val % 16 = 15
    · exfalso; omega
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [Dat.leavesExact_idle (dat1 V c) 2 t (idleAt1_2_A t ((hcond1_0 t).mpr h0) (fun h => h1 ((hcond1_1 t).mp h))) (noFlush1_2_A t ((hcond1_0 t).mpr h0) (fun h => h1 ((hcond1_1 t).mp h)))]
      rw [outsAt1_A V c t h0 h1]
      unfold sout1_A; (try dsimp only)
      by_cases hz : t.val = 0
      · rw [PhiS_castSucc V c t, PhiS_zero V c _ _ hz, PhiA1_eq]; unfold others1
        iintro ⟨⟨⟨HA, HB, HC, HD, HS0⟩, Hg⟩, Ho, ⟨%d0, H0⟩, ⟨%d1, H1⟩, ⟨%d2, H2⟩⟩
        iapply ((kernelRun1_A c (grid1.coords t) _ _ _ _ _ _ _ _ ((hcond1_0 t).mpr h0) (fun h => h1 ((hcond1_1 t).mp h)) (iblk1 V c 0 t) (iblk1 V c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HA HB HC HD HS0 Hg]
        · isplitl [HA HB HC HD HS0]
          · isplitl [HA]; · iexact HA
            isplitl [HB]; · iexact HB
            isplitl [HC]; · iexact HC
            isplitl [HD]; · iexact HD
            unfold owns; iexists _; isplitr
            swap; · iexact HS0
            ipureintro; exact View.read_writes_of_cover _ _ _ _ _ (scover1_A c _ _ _ _ _ _ _ _ _ _ _ _ _)
          iexact Hg
        isplitl [Ho]; · iexact Ho
        isplitl [H0]; · iexact H0
        isplitl [H1]; · iexact H1
        iexists _; iexact H2
      · rw [PhiS_castSucc V c t, PhiS_pos V c _ _ hz]; unfold others1
        iintro ⟨⟨⟨HA, HB, HC, HD, HS0⟩, Hg⟩, Ho, ⟨%d0, H0⟩, ⟨%d1, H1⟩, ⟨%d2, H2⟩⟩
        iapply ((kernelRun1_A c (grid1.coords t) _ _ _ _ _ _ _ _ ((hcond1_0 t).mpr h0) (fun h => h1 ((hcond1_1 t).mp h)) (iblk1 V c 0 t) (iblk1 V c 1 t)).2.2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [HA HB HC HD HS0 Hg]
        · isplitl [HA HB HC HD HS0]
          · isplitl [HA]; · iexact HA
            isplitl [HB]; · iexact HB
            isplitl [HC]; · iexact HC
            isplitl [HD]; · iexact HD
            unfold owns; iexists _; isplitr
            swap; · iexact HS0
            ipureintro; exact View.read_writes_of_cover _ _ _ _ _ (scover1_A c _ _ _ _ _ _ _ _ _ _ _ _ _)
          iexact Hg
        isplitl [Ho]; · iexact Ho
        isplitl [H0]; · iexact H0
        isplitl [H1]; · iexact H1
        iexists _; iexact H2
  · by_cases h1 : t.val % 16 = 15
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2_C t (fun h => h0 ((hcond1_0 t).mp h)) ((hcond1_1 t).mpr h1)], after1_2]
      rw [outsAt1_C V c t h0 h1]
      unfold out1_C_2 sout1_C; (try dsimp only)
      by_cases hz : t.val = 0
      · exfalso; omega
      · rw [PhiS_castSucc V c t, PhiS_pos V c _ _ hz]; unfold others1
        iintro ⟨⟨⟨HA, HB, HC, HD, HS0⟩, Hg⟩, Ho, ⟨%d0, H0⟩, ⟨%d1, H1⟩, ⟨%d2, H2⟩⟩
        iapply ((kernelRun1_C c (grid1.coords t) _ _ _ _ _ _ _ _ (fun h => h0 ((hcond1_0 t).mp h)) ((hcond1_1 t).mpr h1) (iblk1 V c 0 t) (iblk1 V c 1 t) _).2.2 Set.univ _)
        isplitl [H0]; · iexact H0
        isplitl [H1]; · iexact H1
        isplitl [H2]; · iexists _; iexact H2
        isplitl [HS0]; · iexact HS0
        iintro ⟨H0, H1, ⟨%e2, H2⟩, ⟨%es0, HS0⟩⟩
        isplitl [HA HB HC HD HS0 Hg]
        · isplitl [HA HB HC HD HS0]
          · isplitl [HA]; · iexact HA
            isplitl [HB]; · iexact HB
            isplitl [HC]; · iexact HC
            isplitl [HD]; · iexact HD
            unfold owns; iexists _; isplitr
            swap; · iexact HS0
            ipureintro; exact View.read_writes_of_cover _ _ _ _ _ (scover1_C c _ _ _ _ _ _ _ _ _ _ _ _ _ _)
          iexact Hg
        isplitl [Ho]; · iexact Ho
        isplitl [H0]; · iexact H0
        isplitl [H1]; · iexact H1
        unfold owns; iexists _; isplitr
        swap; · iexact H2
        ipureintro; exact View.read_writes_of_cover _ _ _ _ _ (cover1_C_2 c _ _ _ _ _ _ _ _ _ _ _ _ _ _)
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [Dat.leavesExact_idle (dat1 V c) 2 t (idleAt1_2_B t (fun h => h0 ((hcond1_0 t).mp h)) (fun h => h1 ((hcond1_1 t).mp h))) (noFlush1_2_B t (fun h => h0 ((hcond1_0 t).mp h)) (fun h => h1 ((hcond1_1 t).mp h)))]
      rw [outsAt1_B V c t h0 h1]
      unfold sout1_B; (try dsimp only)
      by_cases hz : t.val = 0
      · exfalso; omega
      · rw [PhiS_castSucc V c t, PhiS_pos V c _ _ hz]; unfold others1
        iintro ⟨⟨⟨HA, HB, HC, HD, HS0⟩, Hg⟩, Ho, ⟨%d0, H0⟩, ⟨%d1, H1⟩, ⟨%d2, H2⟩⟩
        iapply ((kernelRun1_B c (grid1.coords t) _ _ _ _ _ _ _ _ (fun h => h0 ((hcond1_0 t).mp h)) (fun h => h1 ((hcond1_1 t).mp h)) (iblk1 V c 0 t) (iblk1 V c 1 t) _).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HA HB HC HD HS0 Hg]
        · isplitl [HA HB HC HD HS0]
          · isplitl [HA]; · iexact HA
            isplitl [HB]; · iexact HB
            isplitl [HC]; · iexact HC
            isplitl [HD]; · iexact HD
            unfold owns; iexists _; isplitr
            swap; · iexact HS0
            ipureintro; exact View.read_writes_of_cover _ _ _ _ _ (scover1_B c _ _ _ _ _ _ _ _ _ _ _ _ _ _)
          iexact Hg
        isplitl [Ho]; · iexact Ho
        isplitl [H0]; · iexact H0
        isplitl [H1]; · iexact H1
        iexists _; iexact H2

/-- The body obligation of the second region, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After any point but the first the invariant gives the class's back: the scratch's named contents are forgotten. -/
theorem Phi_out1 (c : Dev nD) (t : Fin (cfg1.N + 1)) (ht : t.val ≠ 0) : (dat1 V c).Φ t ⊢ Pipeline.ΦA spec1 c := by
  rw [show (dat1 V c).Φ t = PhiS V c t.val (Nat.le_of_lt_succ t.isLt) from rfl, PhiS_pos V c _ _ ht, PhiA1_eq]
  unfold others1
  iintro ⟨⟨HA, HB, HC, HD, HS0⟩, Hg⟩
  isplitl [HA HB HC HD HS0]
  · isplitl [HA]; · iexact HA
    isplitl [HB]; · iexact HB
    isplitl [HC]; · iexact HC
    isplitl [HD]; · iexact HD
    iexists _; iexact HS0
  iexact Hg

theorem hout1 (c : Dev nD) : (dat1 V c).Φ (Fin.last cfg1.N) ⊢ Pipeline.ΦA spec1 c :=
  Phi_out1 V c _ (by rw [Fin.val_last]; have : cfg1.N = 32 := N_1; omega)

end Region1

end Cert.Kernel.Hand

end
-- ==== Proof.KFrameRun.lean ====
import proofs.«106771_j67276367724779_2_alg».proof.Proof.Gen.Kernel.Launch
import proofs.«106771_j67276367724779_2_alg».proof.Proof.Gen.Kernel.Skeleton
import proofs.«106771_j67276367724779_2_alg».proof.Proof.Gen.Kernel.Points
import proofs.«106771_j67276367724779_2_alg».proof.Proof.KFrameR0
import proofs.«106771_j67276367724779_2_alg».proof.Proof.KFrameR1b
import proofs.«106771_j67276367724779_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-!
# The run of the whole program

@main is: the first region, a reshape, the second region, and thirteen host operations (bias, row norm, division).
The contents of the core's unscoped buffers at each boundary are a fold from the launch memory; a region changes only
its windows' arrays, to what its write-backs leave. Every weakly fair execution terminates with every unscoped buffer
at the last boundary's contents: the frame claim and the value claim are both read off that.
-/

variable (m : (ℓ : Loc nD τ sig) → Buf (Elt F) ℓ) (ρ : Dev nD → PrngReg)

/-! ## The buffer contents at each boundary -/

/-- At launch (the first region's entry). -/
abbrev W0 : Dev nD → Valuation τ sig (Elt F) := fun c b => (s₀ m ρ).mem ((c : Dev nD), b)
abbrev V0r : (c : Dev nD) → (b : Ref sig .tc) → Buf (Elt F) ((c : Thread nD τ).loc b) := fun c b => W0 m ρ c b
/-- At the first region's exit: its arrays at what the pipeline leaves, every other buffer as entered. -/
def W1 (c : Dev nD) : Valuation τ sig (Elt F) :=
  Pipeline.withArrays spec0 c (W0 m ρ c) fun w => (dat0 (V0r m ρ) c).arrAt w cfg0.N
theorem W1_arr (c : Dev nD) (w : Fin cfg0.W) :
    W1 m ρ c (Proc.devRef .tc (Pipeline.arrRef spec0 w)) = (dat0 (V0r m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1r : (c : Dev nD) → (b : Ref sig .tc) → Buf (Elt F) ((c : Thread nD τ).loc b) := fun c b => W1 m ρ c b
theorem hF0 (c : Dev nD) (w : Fin cfg0.W) : (dat0 (V0r m ρ) c).arrAt w cfg0.N = V1r m ρ c (Pipeline.arrRef spec0 w) :=
  (W1_arr m ρ c w).symm
theorem hrest0 (c : Dev nD) : ∀ b, b ∉ Finset.univ.image (Pipeline.arrRef spec0) → V1r m ρ c b = V0r m ρ c b :=
  fun b hb => W1_of_ne m ρ c b fun w e => hb (Finset.mem_image.mpr ⟨w, Finset.mem_univ _, e⟩)

/-- After the reshape (the second region's entry). -/
abbrev W2 : Dev nD → Valuation τ sig (Elt F) := fun c => StableHlo.after hostOps1 (W1 m ρ c)
abbrev V2r : (c : Dev nD) → (b : Ref sig .tc) → Buf (Elt F) ((c : Thread nD τ).loc b) := fun c b => W2 m ρ c b
/-- At the second region's exit. -/
def W3 (c : Dev nD) : Valuation τ sig (Elt F) :=
  Pipeline.withArrays spec1 c (W2 m ρ c) fun w => (dat1 (V2r m ρ) c).arrAt w cfg1.N
theorem W3_arr (c : Dev nD) (w : Fin cfg1.W) :
    W3 m ρ c (Proc.devRef .tc (Pipeline.arrRef spec1 w)) = (dat1 (V2r m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3r : (c : Dev nD) → (b : Ref sig .tc) → Buf (Elt F) ((c : Thread nD τ).loc b) := fun c b => W3 m ρ c b
theorem hF1 (c : Dev nD) (w : Fin cfg1.W) : (dat1 (V2r m ρ) c).arrAt w cfg1.N = V3r m ρ c (Pipeline.arrRef spec1 w) :=
  (W3_arr m ρ c w).symm
theorem hrest1 (c : Dev nD) : ∀ b, b ∉ Finset.univ.image (Pipeline.arrRef spec1) → V3r m ρ c b = V2r m ρ c b :=
  fun b hb => W3_of_ne m ρ c b fun w e => hb (Finset.mem_image.mpr ⟨w, Finset.mem_univ _, e⟩)

/-- After the bias stretch, the row-norm stretch and the last stretch. -/
abbrev W4 : Dev nD → Valuation τ sig (Elt F) := fun c => StableHlo.after hostOps2 (W3 m ρ c)
abbrev W5 : Dev nD → Valuation τ sig (Elt F) := fun c => StableHlo.after hostOps2_1 (W4 m ρ c)
abbrev W6 : Dev nD → Valuation τ sig (Elt F) := fun c => StableHlo.after hostOps2_2 (W5 m ρ c)

/-- A buffer none of the last three stretches writes is, at the end, what the second region left. -/
theorem W6_of (c : Dev nD) (r : Ref sig .tc) (h1 : r ∉ (hostOps2_W : List (Ref sig .tc))) (h2 : r ∉ (hostOps2_1_W : List (Ref sig .tc))) (h3 : r ∉ (hostOps2_2_W : List (Ref sig .tc))) :
    W6 m ρ c (Proc.devRef .tc r) = W3 m ρ c (Proc.devRef .tc r) :=
  (StableHlo.after_of_writes_sub hostOps2_2 _ hostOps2_2_writes h3).trans
    ((StableHlo.after_of_writes_sub hostOps2_1 _ hostOps2_1_writes h2).trans
      (StableHlo.after_of_writes_sub hostOps2 _ hostOps2_writes h1))

/-! ### The arguments end as launched -/

theorem W6_main_arg0 (c : Dev nD) : W6 m ρ c (Proc.devRef .tc main_arg0) = m ((c : Thread nD τ).loc main_arg0) :=
  calc W6 m ρ c (Proc.devRef .tc main_arg0)
    _ = W3 m ρ c (Proc.devRef .tc main_arg0) := W6_of m ρ c main_arg0 (by decide) (by decide) (by decide)
    _ = W2 m ρ c (Proc.devRef .tc main_arg0) := W3_of_ne m ρ c main_arg0 (by decide)
    _ = W1 m ρ c (Proc.devRef .tc main_arg0) := StableHlo.after_of_writes_sub hostOps1 _ hostOps1_writes (by decide)
    _ = W0 m ρ c (Proc.devRef .tc main_arg0) := W1_of_ne m ρ c main_arg0 (by decide)
    _ = m ((c : Thread nD τ).loc main_arg0) := rfl
theorem W6_main_arg1 (c : Dev nD) : W6 m ρ c (Proc.devRef .tc main_arg1) = m ((c : Thread nD τ).loc main_arg1) :=
  calc W6 m ρ c (Proc.devRef .tc main_arg1)
    _ = W3 m ρ c (Proc.devRef .tc main_arg1) := W6_of m ρ c main_arg1 (by decide) (by decide) (by decide)
    _ = W2 m ρ c (Proc.devRef .tc main_arg1) := W3_of_ne m ρ c main_arg1 (by decide)
    _ = W1 m ρ c (Proc.devRef .tc main_arg1) := StableHlo.after_of_writes_sub hostOps1 _ hostOps1_writes (by decide)
    _ = W0 m ρ c (Proc.devRef .tc main_arg1) := W1_of_ne m ρ c main_arg1 (by decide)
    _ = m ((c : Thread nD τ).loc main_arg1) := rfl
theorem W6_main_arg2 (c : Dev nD) : W6 m ρ c (Proc.devRef .tc main_arg2) = m ((c : Thread nD τ).loc main_arg2) :=
  calc W6 m ρ c (Proc.devRef .tc main_arg2)
    _ = W3 m ρ c (Proc.devRef .tc main_arg2) := W6_of m ρ c main_arg2 (by decide) (by decide) (by decide)
    _ = W2 m ρ c (Proc.devRef .tc main_arg2) := W3_of_ne m ρ c main_arg2 (by decide)
    _ = W1 m ρ c (Proc.devRef .tc main_arg2) := StableHlo.after_of_writes_sub hostOps1 _ hostOps1_writes (by decide)
    _ = W0 m ρ c (Proc.devRef .tc main_arg2) := (W1_arr m ρ c 0).trans (((dat0 (V0r m ρ) c).arrAt_in 0 rfl _).trans (A_eq0 (V0r m ρ) c 0))
    _ = m ((c : Thread nD τ).loc main_arg2) := rfl
theorem W6_main_arg3 (c : Dev nD) : W6 m ρ c (Proc.devRef .tc main_arg3) = m ((c : Thread nD τ).loc main_arg3) :=
  calc W6 m ρ c (Proc.devRef .tc main_arg3)
    _ = W3 m ρ c (Proc.devRef .tc main_arg3) := W6_of m ρ c main_arg3 (by decide) (by decide) (by decide)
    _ = W2 m ρ c (Proc.devRef .tc main_arg3) := (W3_arr m ρ c 1).trans (((dat1 (V2r m ρ) c).arrAt_in 1 rfl _).trans (A_eq1 (V2r m ρ) c 1))
    _ = W1 m ρ c (Proc.devRef .tc main_arg3) := StableHlo.after_of_writes_sub hostOps1 _ hostOps1_writes (by decide)
    _ = W0 m ρ c (Proc.devRef .tc main_arg3) := W1_of_ne m ρ c main_arg3 (by decide)
    _ = m ((c : Thread nD τ).loc main_arg3) := rfl
theorem W6_main_arg4 (c : Dev nD) : W6 m ρ c (Proc.devRef .tc main_arg4) = m ((c : Thread nD τ).loc main_arg4) :=
  calc W6 m ρ c (Proc.devRef .tc main_arg4)
    _ = W3 m ρ c (Proc.devRef .tc main_arg4) := W6_of m ρ c main_arg4 (by decide) (by decide) (by decide)
    _ = W2 m ρ c (Proc.devRef .tc main_arg4) := W3_of_ne m ρ c main_arg4 (by decide)
    _ = W1 m ρ c (Proc.devRef .tc main_arg4) := StableHlo.after_of_writes_sub hostOps1 _ hostOps1_writes (by decide)
    _ = W0 m ρ c (Proc.devRef .tc main_arg4) := W1_of_ne m ρ c main_arg4 (by decide)
    _ = m ((c : Thread nD τ).loc main_arg4) := rfl

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V0r m ρ) c
  | ⟨1, _⟩ => fun c => dat1 (V2r m ρ) c
abbrev 𝒱₀ : Variants := Variants.none
abbrev L : GSem nD τ sig → Finset Unit := fun _ => ∅
abbrev lv : GSem nD τ sig → Unit → ℕ := fun _ _ => 0
/-- What rides beside the buffers through every segment: the generator register at some state and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W6 m ρ c) ∗ ∃ r, prngReg c r)

/-! ## The regions as segments -/

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0r m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0r m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0r m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0r m ρ c) (V1r m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2r m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2r m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2r m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (V2r m ρ) c)
    unfold Pipeline.ΦA
    iintro ⟨Hp, -, Hr⟩
    isplitl [Hr]; · iexact Hr
    iexact Hp
  hout c := by
    rw [Pipeline.ownSems0_none]
    refine BIBase.Entails.trans (hout1 (V2r m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2r m ρ c) (V3r m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .region (reg0 m ρ),
    .host (hseg hostOps1 hostOps1_sub hostOps1_fresh (W1 m ρ)),
    .region (reg1 m ρ),
    .host (hseg hostOps2 hostOps2_sub hostOps2_fresh (W3 m ρ)),
    .host (hseg hostOps2_1 hostOps2_1_sub hostOps2_1_fresh (W4 m ρ)),
    .host (hseg hostOps2_2 hostOps2_2_sub hostOps2_2_fresh (W5 m ρ)) ]

set_option backward.isDefEq.respectTransparency.types false in
/-- Every weakly fair execution of @main terminates, nothing faulting, with every unscoped buffer of every core at the
    last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by
      rewrite [main_chain c, Pipeline.Seg.run_eq_chain,
        show (segs m ρ).map Pipeline.Seg.prog = [
          Prog.lift (.customCall (Pipeline.entry 0) ()),
          StableHlo.seq hostOps1,
          Prog.lift (.customCall (Pipeline.entry 1) ()),
          StableHlo.seq hostOps2,
          StableHlo.seq hostOps2_1,
          StableHlo.seq hostOps2_2 ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      show iprop(StableHlo.held (c : Thread nD τ) (Pipeline.ucRefs τ sig) (W6 m ρ c) ∗ R c) ⊢ _
      iintro ⟨Hh, Hp, Ho⟩
      isplitl [Hh Hp]
      · isplitl [Hh]; · iexact Hh
        iexact Hp
      iexact Ho⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h => h)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_arg0 (by decide))).trans (W6_main_arg0 m ρ c),
     (h c _ (mem_uc main_arg1 (by decide))).trans (W6_main_arg1 m ρ c),
     (h c _ (mem_uc main_arg2 (by decide))).trans (W6_main_arg2 m ρ c),
     (h c _ (mem_uc main_arg3 (by decide))).trans (W6_main_arg3 m ρ c),
     (h c _ (mem_uc main_arg4 (by decide))).trans (W6_main_arg4 m ρ c)⟩) (run_all m ρ)

end Cert.Kernel.Hand

end
-- ==== Proof.FrameR0.lean ====
import proofs.«106771_j67276367724779_2_alg».proof.Proof.Gen.KernelIdeal.Launch
import proofs.«106771_j67276367724779_2_alg».proof.Proof.Gen.KernelIdeal.Skeleton
import proofs.«106771_j67276367724779_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-!
# The first kernel region: one batch per grid point

The region walks the 32 batches. At point `t` the pipeline stages the block `t` of the input array (one batch,
1024 × 512) and the body stores ONE whole block of the output (one batch, 512 × 512): the pairwise-distance matrix
of that batch. Everything here is stated at a parameter `V`, the contents of the core's buffers when the region
is entered.
-/
section Region0

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's current staging buffer holds its block at every point, for any proof data whose array is
    `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The whole input block and the whole output block, as rectangles. -/
abbrev rIn0 : Rect S1x1024x512 := Rect.unit (s := S1x1024x512) ![0, 0, 0] S1x1024x512.size inb_S1x1024x512_S1x1024x512_0_0_0
abbrev rOut0 : Rect S1x512x512 := Rect.unit (s := S1x512x512) ![0, 0, 0] S1x512x512.size inb_S1x512x512_S1x512x512_0_0_0

/-- What the body leaves in the output block: its one store, of the distance payload of the input block. -/
def out0_1 (x0 : Vec F S1x1024x512 .f32) : Vec F S1x512x512 .f32 :=
  View.canon [⟨rOut0, k0_pay1 (View.ld x0 rIn0)⟩]

/-- The one store covers the output block. -/
theorem cover0_1 (p0 : Vec F S1x512x512 .f32) (y : S1x512x512.Idx) :
    ∃ pc ∈ ([⟨rOut0, p0⟩] : List (View.Piece (Elt F) S1x512x512 .f32)), y ∈ pc.1.set :=
  View.cover_of_tiled [⟨rOut0, p0⟩] S1x512x512.size (by rfl) y

set_option maxHeartbeats 1000000 in
/-- The body on whole staging buffers: the input's at contents `x0`, the output's at anything, runs to the
    continuation with the input's as it was and the output's at `out0_1 x0`. -/
theorem sound_kernel0 (c : Dev nD) (E : Set ℕ) (i : grid0.Coords) (arg1 : Memref sig .tc .vmem S1x1024x512 .f32) (harg1 : arg1.IsWhole)
    (arg2 : Memref sig .tc .vmem S1x512x512 .f32) (harg2 : arg2.IsWhole)
    (x0 : Vec F S1x1024x512 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out0_1 x0)) -∗ K ⟨⟩))
      ⊢ wp frame (wpE (defs₀ (F := F)) Variants.none c none) E (cc0__sim_kernel i arg1 harg1 arg2 harg2) K := by
  simp only [cc0__sim_kernel_eq_skeleton]; unfold cc0__sim_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

/-- The proof data of the first region on core `c`: the arrays as the region finds them; after the body at point
    `t` the input's buffer at its block and the output's at `out0_1` of the input block; nothing carried. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]

theorem before0_0 (c : Dev nD) (t : Fin cfg0.N) (d) : (dat0 V c).before 0 t d = iblk0 V c 0 t :=
  before0_0_of V (dat0 V c) (A_eq0 V c 0) (after0_0 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ _ _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The body obligation of the first region, at every point. -/
theorem body_obligation0 (c : Dev nD) : BodyObligation (dat0 (F := F) V c) (defs₀ (F := F)) Variants.none () Set.univ := fun t => by
  rw [bigSep_W0, bigSep_W0]
  exact sound_body0 V c t

end Region0

end Cert.KernelIdeal.Hand

end
-- ==== Proof.FrameR1.lean ====
import proofs.«106771_j67276367724779_2_alg».proof.Proof.Gen.KernelIdeal.Launch
import proofs.«106771_j67276367724779_2_alg».proof.Proof.Gen.KernelIdeal.Skeleton
import proofs.«106771_j67276367724779_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-!
# The second kernel region: a matrix product accumulated over K-blocks

The grid is 2 × 16: for each half `j` of the 256 output columns the region walks the 16 blocks `k` of the long
axis. A scratch buffer of 32 × 128 carries the running sum from point to point: at `k = 0` it is first reset to
zero, at every point the block product is added to it, and at `k = 15` it is copied into the output window, which
the pipeline writes back there and at no other point. So the body has three control cases — first block (A), an
inner block (B), last block (C) — and the invariant between two points names what the scratch holds.
Everything here is stated at a parameter `V`, the contents of the core's buffers when the region is entered.
-/

section Region1

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Each input window's current staging buffer holds its block at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The two conditions of the body, decided over the grid -/

/-- "This is the first K-block": the accumulator is reset. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 16 = 0 :=
  (by decide +kernel : ∀ t : Fin grid1.N, cond1_0 (grid1.coords t) ↔ t.val % 16 = 0)
/-- "This is the last K-block": the accumulator is copied out. -/
abbrev cond1_1 (i : grid1.Coords) : Prop := k1_cond2 i = 1#1
theorem hcond1_1 : ∀ t : Fin cfg1.N, cond1_1 (grid1.coords t) ↔ t.val % 16 = 15 :=
  (by decide +kernel : ∀ t : Fin grid1.N, cond1_1 (grid1.coords t) ↔ t.val % 16 = 15)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem idleAt1_2_A : ∀ t : Fin cfg1.N, cond1_0 (grid1.coords t) → ¬cond1_1 (grid1.coords t) → cfg1.idle 2 (grid1.coords t) = true := by decide +kernel
theorem noFlush1_2_A : ∀ t : Fin cfg1.N, cond1_0 (grid1.coords t) → ¬cond1_1 (grid1.coords t) → (cfg1.win 2).flush t = false := by decide +kernel
theorem idleAt1_2_B : ∀ t : Fin cfg1.N, ¬cond1_0 (grid1.coords t) → ¬cond1_1 (grid1.coords t) → cfg1.idle 2 (grid1.coords t) = true := by decide +kernel
theorem noFlush1_2_B : ∀ t : Fin cfg1.N, ¬cond1_0 (grid1.coords t) → ¬cond1_1 (grid1.coords t) → (cfg1.win 2).flush t = false := by decide +kernel
theorem liveAt1_2_C : ∀ t : Fin cfg1.N, ¬cond1_0 (grid1.coords t) → cond1_1 (grid1.coords t) → cfg1.idle 2 (grid1.coords t) = false := by decide +kernel

/-! ## The memrefs the body is called with -/

abbrev VO1_2 : View sig .tc .vmem S32x128 .f32 := (Memref.whole cc1_stg2_0 : Memref sig .tc .vmem S32x128 .f32).view
abbrev ms1_0 (t : Fin cfg1.N) : Memref sig .tc .vmem S32x16384 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S16384x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S32x128 .f32 := win1_2.stage (cfg1.slots t 2)
abbrev hs1_2 (t : Fin cfg1.N) : (ms1_2 t).IsWhole := hstage1_2 ((cfg1.slots t 2).cast nbuf1_2)
/-- The scratch accumulator, a whole scoped buffer of the kernel's own. -/
abbrev scM1 : Memref sig .tc .vmem S32x128 .f32 := Memref.whole cc1_scratch0
abbrev VS1 : View sig .tc .vmem S32x128 .f32 := scM1.view

/-- The scoped buffers this region does not stage — the other region's four staging buffers, each whole at some
    contents — beside a statement `P` about the scratch accumulator. -/
def others1 (c : Dev nD) (P : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ P)

/-- The class invariant, with the scratch accumulator as a memref owned at some contents. -/
theorem PhiA1_eq (c : Dev nD) :
    (Pipeline.ΦA spec1 c : sProp 𝕄)
      = iprop(others1 c (iprop(∃ d, owns (c : Thread nD τ) scM1 fullShare d)) ∗ (∃ r, prngReg c r)) := by
  unfold Pipeline.ΦA others1; rw [scopedRest1_eq]; simp only [scM1, owns_whole]; try rfl

/-! ## The body's triple, case by case -/

set_option maxHeartbeats 1000000 in
/-- Case A (first K-block, not the last): the scratch at anything, the output window untouched. -/
noncomputable def kernelRun1_A (c : Dev nD) (i : grid1.Coords) (arg2 : Memref sig .tc .vmem S32x16384 .f32) (harg2 : arg2.IsWhole) (arg3 : Memref sig .tc .vmem S16384x128 .f32) (harg3 : arg3.IsWhole) (arg4 : Memref sig .tc .vmem S32x128 .f32) (harg4 : arg4.IsWhole) (arg5 : Memref sig .tc .vmem S32x128 .f32) (harg5 : arg5.IsWhole) (hc0 : cond1_0 i) (hc1 : ¬cond1_1 i)
    (x0 : Vec F S32x16384 .f32) (x1 : Vec F S16384x128 .f32) :
    Σ' (L2 : List (View.Piece (Elt F) S32x128 .f32)), { LS0 : List (View.Piece (Elt F) S32x128 .f32) //
      ∀ (xi2 : Vec F S32x128 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1__mm_kernel i arg2 harg2 arg3 harg3 arg4 harg4 arg5 harg5) K } := by
  refine ⟨[], ?_, fun xi2 E K => ?run⟩
  case run =>
    simp only [cc1__mm_kernel_eq_skeleton]; unfold cc1__mm_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

set_option maxHeartbeats 1000000 in
/-- Case B (an inner K-block): the scratch at what the point before left, the output window untouched. -/
noncomputable def kernelRun1_B (c : Dev nD) (i : grid1.Coords) (arg2 : Memref sig .tc .vmem S32x16384 .f32) (harg2 : arg2.IsWhole) (arg3 : Memref sig .tc .vmem S16384x128 .f32) (harg3 : arg3.IsWhole) (arg4 : Memref sig .tc .vmem S32x128 .f32) (harg4 : arg4.IsWhole) (arg5 : Memref sig .tc .vmem S32x128 .f32) (harg5 : arg5.IsWhole) (hc0 : ¬cond1_0 i) (hc1 : ¬cond1_1 i)
    (x0 : Vec F S32x16384 .f32) (x1 : Vec F S16384x128 .f32) (xs0 : Vec F S32x128 .f32) :
    Σ' (L2 : List (View.Piece (Elt F) S32x128 .f32)), { LS0 : List (View.Piece (Elt F) S32x128 .f32) //
      ∀ (xi2 : Vec F S32x128 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1__mm_kernel i arg2 harg2 arg3 harg3 arg4 harg4 arg5 harg5) K } := by
  refine ⟨[], ?_, fun xi2 E K => ?run⟩
  case run =>
    simp only [cc1__mm_kernel_eq_skeleton]; unfold cc1__mm_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

set_option maxHeartbeats 1000000 in
/-- Case C (the last K-block): the scratch at what the point before left, the output window stored into. -/
noncomputable def kernelRun1_C (c : Dev nD) (i : grid1.Coords) (arg2 : Memref sig .tc .vmem S32x16384 .f32) (harg2 : arg2.IsWhole) (arg3 : Memref sig .tc .vmem S16384x128 .f32) (harg3 : arg3.IsWhole) (arg4 : Memref sig .tc .vmem S32x128 .f32) (harg4 : arg4.IsWhole) (arg5 : Memref sig .tc .vmem S32x128 .f32) (harg5 : arg5.IsWhole) (hc0 : ¬cond1_0 i) (hc1 : cond1_1 i)
    (x0 : Vec F S32x16384 .f32) (x1 : Vec F S16384x128 .f32) (xs0 : Vec F S32x128 .f32) :
    Σ' (L2 : List (View.Piece (Elt F) S32x128 .f32)), { LS0 : List (View.Piece (Elt F) S32x128 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc1__mm_kernel i arg2 harg2 arg3 harg3 arg4 harg4 arg5 harg5) K } := by
  refine ⟨?_, ?_, fun E K => ?run⟩
  case run =>
    simp only [cc1__mm_kernel_eq_skeleton]; unfold cc1__mm_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

/-! ## What each case leaves -/

/-- Case A stores nothing into the output window: a placeholder nothing consults. -/
def out1_A_2 (c : Dev nD) (i : grid1.Coords) (arg2 : Memref sig .tc .vmem S32x16384 .f32) (harg2 : arg2.IsWhole) (arg3 : Memref sig .tc .vmem S16384x128 .f32) (harg3 : arg3.IsWhole) (arg4 : Memref sig .tc .vmem S32x128 .f32) (harg4 : arg4.IsWhole) (arg5 : Memref sig .tc .vmem S32x128 .f32) (harg5 : arg5.IsWhole) (hc0 : cond1_0 i) (hc1 : ¬cond1_1 i)
    (x0 : Vec F S32x16384 .f32) (x1 : Vec F S16384x128 .f32) : Vec F S32x128 .f32 :=
  VO1_2.read (Elt F) (VO1_2.writes (Elt F) VO1_2.junk (kernelRun1_A c i arg2 harg2 arg3 harg3 arg4 harg4 arg5 harg5 hc0 hc1 x0 x1).1)
theorem scover1_A (c : Dev nD) (i : grid1.Coords) (arg2 : Memref sig .tc .vmem S32x16384 .f32) (harg2 : arg2.IsWhole) (arg3 : Memref sig .tc .vmem S16384x128 .f32) (harg3 : arg3.IsWhole) (arg4 : Memref sig .tc .vmem S32x128 .f32) (harg4 : arg4.IsWhole) (arg5 : Memref sig .tc .vmem S32x128 .f32) (harg5 : arg5.IsWhole) (hc0 : cond1_0 i) (hc1 : ¬cond1_1 i)
    (x0 : Vec F S32x16384 .f32) (x1 : Vec F S16384x128 .f32) (y : S32x128.Idx) :
    ∃ pc ∈ (kernelRun1_A c i arg2 harg2 arg3 harg3 arg4 harg4 arg5 harg5 hc0 hc1 x0 x1).2.1, y ∈ pc.1.set :=
  View.cover_of_tiledL (kernelRun1_A c i arg2 harg2 arg3 harg3 arg4 harg4 arg5 harg5 hc0 hc1 x0 x1).2.1 S32x128.size (by sl_kernel_rfl) y
/-- What case A leaves in the scratch accumulator. -/
def sout1_A (c : Dev nD) (i : grid1.Coords) (arg2 : Memref sig .tc .vmem S32x16384 .f32) (harg2 : arg2.IsWhole) (arg3 : Memref sig .tc .vmem S16384x128 .f32) (harg3 : arg3.IsWhole) (arg4 : Memref sig .tc .vmem S32x128 .f32) (harg4 : arg4.IsWhole) (arg5 : Memref sig .tc .vmem S32x128 .f32) (harg5 : arg5.IsWhole) (hc0 : cond1_0 i) (hc1 : ¬cond1_1 i)
    (x0 : Vec F S32x16384 .f32) (x1 : Vec F S16384x128 .f32) : Vec F S32x128 .f32 :=
  VS1.read (Elt F) (VS1.writes (Elt F) VS1.junk (kernelRun1_A c i arg2 harg2 arg3 harg3 arg4 harg4 arg5 harg5 hc0 hc1 x0 x1).2.1)

def out1_B_2 (c : Dev nD) (i : grid1.Coords) (arg2 : Memref sig .tc .vmem S32x16384 .f32) (harg2 : arg2.IsWhole) (arg3 : Memref sig .tc .vmem S16384x128 .f32) (harg3 : arg3.IsWhole) (arg4 : Memref sig .tc .vmem S32x128 .f32) (harg4 : arg4.IsWhole) (arg5 : Memref sig .tc .vmem S32x128 .f32) (harg5 : arg5.IsWhole) (hc0 : ¬cond1_0 i) (hc1 : ¬cond1_1 i)
    (x0 : Vec F S32x16384 .f32) (x1 : Vec F S16384x128 .f32) (xs0 : Vec F S32x128 .f32) : Vec F S32x128 .f32 :=
  VO1_2.read (Elt F) (VO1_2.writes (Elt F) VO1_2.junk (kernelRun1_B c i arg2 harg2 arg3 harg3 arg4 harg4 arg5 harg5 hc0 hc1 x0 x1 xs0).1)
theorem scover1_B (c : Dev nD) (i : grid1.Coords) (arg2 : Memref sig .tc .vmem S32x16384 .f32) (harg2 : arg2.IsWhole) (arg3 : Memref sig .tc .vmem S16384x128 .f32) (harg3 : arg3.IsWhole) (arg4 : Memref sig .tc .vmem S32x128 .f32) (harg4 : arg4.IsWhole) (arg5 : Memref sig .tc .vmem S32x128 .f32) (harg5 : arg5.IsWhole) (hc0 : ¬cond1_0 i) (hc1 : ¬cond1_1 i)
    (x0 : Vec F S32x16384 .f32) (x1 : Vec F S16384x128 .f32) (xs0 : Vec F S32x128 .f32) (y : S32x128.Idx) :
    ∃ pc ∈ (kernelRun1_B c i arg2 harg2 arg3 harg3 arg4 harg4 arg5 harg5 hc0 hc1 x0 x1 xs0).2.1, y ∈ pc.1.set :=
  View.cover_of_tiledL (kernelRun1_B c i arg2 harg2 arg3 harg3 arg4 harg4 arg5 harg5 hc0 hc1 x0 x1 xs0).2.1 S32x128.size (by sl_kernel_rfl) y
/-- What case B leaves in the scratch accumulator. -/
def sout1_B (c : Dev nD) (i : grid1.Coords) (arg2 : Memref sig .tc .vmem S32x16384 .f32) (harg2 : arg2.IsWhole) (arg3 : Memref sig .tc .vmem S16384x128 .f32) (harg3 : arg3.IsWhole) (arg4 : Memref sig .tc .vmem S32x128 .f32) (harg4 : arg4.IsWhole) (arg5 : Memref sig .tc .vmem S32x128 .f32) (harg5 : arg5.IsWhole) (hc0 : ¬cond1_0 i) (hc1 : ¬cond1_1 i)
    (x0 : Vec F S32x16384 .f32) (x1 : Vec F S16384x128 .f32) (xs0 : Vec F S32x128 .f32) : Vec F S32x128 .f32 :=
  VS1.read (Elt F) (VS1.writes (Elt F) VS1.junk (kernelRun1_B c i arg2 harg2 arg3 harg3 arg4 harg4 arg5 harg5 hc0 hc1 x0 x1 xs0).2.1)

theorem cover1_C_2 (c : Dev nD) (i : grid1.Coords) (arg2 : Memref sig .tc .vmem S32x16384 .f32) (harg2 : arg2.IsWhole) (arg3 : Memref sig .tc .vmem S16384x128 .f32) (harg3 : arg3.IsWhole) (arg4 : Memref sig .tc .vmem S32x128 .f32) (harg4 : arg4.IsWhole) (arg5 : Memref sig .tc .vmem S32x128 .f32) (harg5 : arg5.IsWhole) (hc0 : ¬cond1_0 i) (hc1 : cond1_1 i)
    (x0 : Vec F S32x16384 .f32) (x1 : Vec F S16384x128 .f32) (xs0 : Vec F S32x128 .f32) (y : S32x128.Idx) :
    ∃ pc ∈ (kernelRun1_C c i arg2 harg2 arg3 harg3 arg4 harg4 arg5 harg5 hc0 hc1 x0 x1 xs0).1, y ∈ pc.1.set :=
  View.cover_of_tiledL (kernelRun1_C c i arg2 harg2 arg3 harg3 arg4 harg4 arg5 harg5 hc0 hc1 x0 x1 xs0).1 S32x128.size (by sl_kernel_rfl) y
/-- What case C leaves in the output window's staging buffer. -/
def out1_C_2 (c : Dev nD) (i : grid1.Coords) (arg2 : Memref sig .tc .vmem S32x16384 .f32) (harg2 : arg2.IsWhole) (arg3 : Memref sig .tc .vmem S16384x128 .f32) (harg3 : arg3.IsWhole) (arg4 : Memref sig .tc .vmem S32x128 .f32) (harg4 : arg4.IsWhole) (arg5 : Memref sig .tc .vmem S32x128 .f32) (harg5 : arg5.IsWhole) (hc0 : ¬cond1_0 i) (hc1 : cond1_1 i)
    (x0 : Vec F S32x16384 .f32) (x1 : Vec F S16384x128 .f32) (xs0 : Vec F S32x128 .f32) : Vec F S32x128 .f32 :=
  VO1_2.read (Elt F) (VO1_2.writes (Elt F) VO1_2.junk (kernelRun1_C c i arg2 harg2 arg3 harg3 arg4 harg4 arg5 harg5 hc0 hc1 x0 x1 xs0).1)
theorem scover1_C (c : Dev nD) (i : grid1.Coords) (arg2 : Memref sig .tc .vmem S32x16384 .f32) (harg2 : arg2.IsWhole) (arg3 : Memref sig .tc .vmem S16384x128 .f32) (harg3 : arg3.IsWhole) (arg4 : Memref sig .tc .vmem S32x128 .f32) (harg4 : arg4.IsWhole) (arg5 : Memref sig .tc .vmem S32x128 .f32) (harg5 : arg5.IsWhole) (hc0 : ¬cond1_0 i) (hc1 : cond1_1 i)
    (x0 : Vec F S32x16384 .f32) (x1 : Vec F S16384x128 .f32) (xs0 : Vec F S32x128 .f32) (y : S32x128.Idx) :
    ∃ pc ∈ (kernelRun1_C c i arg2 harg2 arg3 harg3 arg4 harg4 arg5 harg5 hc0 hc1 x0 x1 xs0).2.1, y ∈ pc.1.set :=
  View.cover_of_tiledL (kernelRun1_C c i arg2 harg2 arg3 harg3 arg4 harg4 arg5 harg5 hc0 hc1 x0 x1 xs0).2.1 S32x128.size (by sl_kernel_rfl) y
/-- What case C leaves in the scratch accumulator. -/
def sout1_C (c : Dev nD) (i : grid1.Coords) (arg2 : Memref sig .tc .vmem S32x16384 .f32) (harg2 : arg2.IsWhole) (arg3 : Memref sig .tc .vmem S16384x128 .f32) (harg3 : arg3.IsWhole) (arg4 : Memref sig .tc .vmem S32x128 .f32) (harg4 : arg4.IsWhole) (arg5 : Memref sig .tc .vmem S32x128 .f32) (harg5 : arg5.IsWhole) (hc0 : ¬cond1_0 i) (hc1 : cond1_1 i)
    (x0 : Vec F S32x16384 .f32) (x1 : Vec F S16384x128 .f32) (xs0 : Vec F S32x128 .f32) : Vec F S32x128 .f32 :=
  VS1.read (Elt F) (VS1.writes (Elt F) VS1.junk (kernelRun1_C c i arg2 harg2 arg3 harg3 arg4 harg4 arg5 harg5 hc0 hc1 x0 x1 xs0).2.1)

/-! ## The accumulation, point by point -/

/-- What the output window's staging buffer and the scratch accumulator hold after the body at position `n`: the case the
    closed forms select, run at the point's memrefs and input blocks, over what the point before left in the scratch. -/
def outsAt1 (c : Dev nD) : (n : ℕ) → n < cfg1.N → Vec F S32x128 .f32 × Vec F S32x128 .f32
  | 0, hn => (out1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩), sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩))
  | n + 1, hn =>
    if h0 : (n + 1) % 16 = 0 then
      if h1 : (n + 1) % 16 = 15 then
        False.elim (by omega)
      else
        (out1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩), sout1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩))
    else
      if h1 : (n + 1) % 16 = 15 then
        (out1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2, sout1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2)
      else
        (out1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2, sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2)

theorem outsAt1_A (c : Dev nD) (t : Fin cfg1.N) (h0 : t.val % 16 = 0) (h1 : ¬t.val % 16 = 15) :
    outsAt1 V c t.val t.isLt = (out1_A_2 c (grid1.coords t) (ms1_0 t) (hs1_0 t) (ms1_1 t) (hs1_1 t) (ms1_2 t) (hs1_2 t) scM1 (Memref.isWhole_whole _) ((hcond1_0 t).mpr h0) (fun h => h1 ((hcond1_1 t).mp h)) (iblk1 V c 0 t) (iblk1 V c 1 t), sout1_A c (grid1.coords t) (ms1_0 t) (hs1_0 t) (ms1_1 t) (hs1_1 t) (ms1_2 t) (hs1_2 t) scM1 (Memref.isWhole_whole _) ((hcond1_0 t).mpr h0) (fun h => h1 ((hcond1_1 t).mp h)) (iblk1 V c 0 t) (iblk1 V c 1 t)) := by
  obtain ⟨n, hn⟩ := t
  cases n with
  | zero => exact rfl
  | succ n => exact (dif_pos h0).trans ((dif_neg h1).trans rfl)

theorem outsAt1_B (c : Dev nD) (t : Fin cfg1.N) (h0 : ¬t.val % 16 = 0) (h1 : ¬t.val % 16 = 15) :
    outsAt1 V c t.val t.isLt = (out1_B_2 c (grid1.coords t) (ms1_0 t) (hs1_0 t) (ms1_1 t) (hs1_1 t) (ms1_2 t) (hs1_2 t) scM1 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2, sout1_B c (grid1.coords t) (ms1_0 t) (hs1_0 t) (ms1_1 t) (hs1_1 t) (ms1_2 t) (hs1_2 t) scM1 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 16 = 0) (h1 : t.val % 16 = 15) :
    outsAt1 V c t.val t.isLt = (out1_C_2 c (grid1.coords t) (ms1_0 t) (hs1_0 t) (ms1_1 t) (hs1_1 t) (ms1_2 t) (hs1_2 t) scM1 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2, sout1_C c (grid1.coords t) (ms1_0 t) (hs1_0 t) (ms1_1 t) (hs1_1 t) (ms1_2 t) (hs1_2 t) scM1 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the class's; afterwards the other scoped buffers at
    anything, the scratch accumulator at what the point before left in it, and the generator register at some state. -/
def PhiS (c : Dev nD) : (n : ℕ) → n ≤ cfg1.N → sProp 𝕄
  | 0, _ => Pipeline.ΦA spec1 c
  | n + 1, hn => iprop(others1 c (owns (c : Thread nD τ) scM1 fullShare ((outsAt1 V c n hn).2)) ∗ (∃ r, prngReg c r))

theorem PhiS_zero (c : Dev nD) (n : ℕ) (h : n ≤ cfg1.N) (hz : n = 0) : PhiS V c n h = Pipeline.ΦA spec1 c := by
  subst hz; rfl
theorem PhiS_succ (c : Dev nD) (n : ℕ) (hn : n < cfg1.N) :
    PhiS V c (n + 1) hn = iprop(others1 c (owns (c : Thread nD τ) scM1 fullShare ((outsAt1 V c n hn).2)) ∗ (∃ r, prngReg c r)) := rfl
theorem PhiS_pos (c : Dev nD) (n : ℕ) (h : n ≤ cfg1.N) (hz : n ≠ 0) :
    PhiS V c n h = iprop(others1 c (owns (c : Thread nD τ) scM1 fullShare ((outsAt1 V c (n - 1) (by omega)).2)) ∗ (∃ r, prngReg c r)) := by
  cases n with
  | zero => exact absurd rfl hz
  | succ n => rfl

/-! ## The proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS_castSucc (c : Dev nD) (t : Fin cfg1.N) :
    (dat1 V c).Φ t.castSucc = PhiS V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

end Region1

end Cert.KernelIdeal.Hand

end
-- ==== Proof.FrameR1b.lean ====
import proofs.«106771_j67276367724779_2_alg».proof.Proof.Gen.KernelIdeal.Launch
import proofs.«106771_j67276367724779_2_alg».proof.Proof.Gen.KernelIdeal.Skeleton
import proofs.«106771_j67276367724779_2_alg».proof.Proof.Gen.KernelIdeal.Points
import proofs.«106771_j67276367724779_2_alg».proof.Proof.FrameR1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-!
# The second region's body obligation

At every point the closed forms of the two conditions say which control case the point is in; the invariant hands the body
the scratch accumulator at what the point before left (at anything before a first K-block, which resets it) and takes it back
at this point's contents.
-/

section Region1

variable (V : (c : Dev nD) → (b : Ref sig .tc) → Buf (Elt F) ((c : Thread nD τ).loc b))

set_option maxHeartbeats 4800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS V c (t.val + 1) t.isLt from rfl, PhiS_succ]
  have hN : t.val < 32 := lt_of_lt_of_eq t.isLt (show cfg1.N = 32 from N_1)
  by_cases h0 : t.val % 16 = 0
  · by_cases h1 : t.val % 16 = 15
    · exfalso; omega
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [Dat.leavesExact_idle (dat1 V c) 2 t (idleAt1_2_A t ((hcond1_0 t).mpr h0) (fun h => h1 ((hcond1_1 t).mp h))) (noFlush1_2_A t ((hcond1_0 t).mpr h0) (fun h => h1 ((hcond1_1 t).mp h)))]
      rw [outsAt1_A V c t h0 h1]
      unfold sout1_A; (try dsimp only)
      by_cases hz : t.val = 0
      · rw [PhiS_castSucc V c t, PhiS_zero V c _ _ hz, PhiA1_eq]; unfold others1
        iintro ⟨⟨⟨HA, HB, HC, HD, HS0⟩, Hg⟩, Ho, ⟨%d0, H0⟩, ⟨%d1, H1⟩, ⟨%d2, H2⟩⟩
        iapply ((kernelRun1_A c (grid1.coords t) _ _ _ _ _ _ _ _ ((hcond1_0 t).mpr h0) (fun h => h1 ((hcond1_1 t).mp h)) (iblk1 V c 0 t) (iblk1 V c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HA HB HC HD HS0 Hg]
        · isplitl [HA HB HC HD HS0]
          · isplitl [HA]; · iexact HA
            isplitl [HB]; · iexact HB
            isplitl [HC]; · iexact HC
            isplitl [HD]; · iexact HD
            unfold owns; iexists _; isplitr
            swap; · iexact HS0
            ipureintro; exact View.read_writes_of_cover _ _ _ _ _ (scover1_A c _ _ _ _ _ _ _ _ _ _ _ _ _)
          iexact Hg
        isplitl [Ho]; · iexact Ho
        isplitl [H0]; · iexact H0
        isplitl [H1]; · iexact H1
        iexists _; iexact H2
      · rw [PhiS_castSucc V c t, PhiS_pos V c _ _ hz]; unfold others1
        iintro ⟨⟨⟨HA, HB, HC, HD, HS0⟩, Hg⟩, Ho, ⟨%d0, H0⟩, ⟨%d1, H1⟩, ⟨%d2, H2⟩⟩
        iapply ((kernelRun1_A c (grid1.coords t) _ _ _ _ _ _ _ _ ((hcond1_0 t).mpr h0) (fun h => h1 ((hcond1_1 t).mp h)) (iblk1 V c 0 t) (iblk1 V c 1 t)).2.2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [HA HB HC HD HS0 Hg]
        · isplitl [HA HB HC HD HS0]
          · isplitl [HA]; · iexact HA
            isplitl [HB]; · iexact HB
            isplitl [HC]; · iexact HC
            isplitl [HD]; · iexact HD
            unfold owns; iexists _; isplitr
            swap; · iexact HS0
            ipureintro; exact View.read_writes_of_cover _ _ _ _ _ (scover1_A c _ _ _ _ _ _ _ _ _ _ _ _ _)
          iexact Hg
        isplitl [Ho]; · iexact Ho
        isplitl [H0]; · iexact H0
        isplitl [H1]; · iexact H1
        iexists _; iexact H2
  · by_cases h1 : t.val % 16 = 15
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2_C t (fun h => h0 ((hcond1_0 t).mp h)) ((hcond1_1 t).mpr h1)], after1_2]
      rw [outsAt1_C V c t h0 h1]
      unfold out1_C_2 sout1_C; (try dsimp only)
      by_cases hz : t.val = 0
      · exfalso; omega
      · rw [PhiS_castSucc V c t, PhiS_pos V c _ _ hz]; unfold others1
        iintro ⟨⟨⟨HA, HB, HC, HD, HS0⟩, Hg⟩, Ho, ⟨%d0, H0⟩, ⟨%d1, H1⟩, ⟨%d2, H2⟩⟩
        iapply ((kernelRun1_C c (grid1.coords t) _ _ _ _ _ _ _ _ (fun h => h0 ((hcond1_0 t).mp h)) ((hcond1_1 t).mpr h1) (iblk1 V c 0 t) (iblk1 V c 1 t) _).2.2 Set.univ _)
        isplitl [H0]; · iexact H0
        isplitl [H1]; · iexact H1
        isplitl [H2]; · iexists _; iexact H2
        isplitl [HS0]; · iexact HS0
        iintro ⟨H0, H1, ⟨%e2, H2⟩, ⟨%es0, HS0⟩⟩
        isplitl [HA HB HC HD HS0 Hg]
        · isplitl [HA HB HC HD HS0]
          · isplitl [HA]; · iexact HA
            isplitl [HB]; · iexact HB
            isplitl [HC]; · iexact HC
            isplitl [HD]; · iexact HD
            unfold owns; iexists _; isplitr
            swap; · iexact HS0
            ipureintro; exact View.read_writes_of_cover _ _ _ _ _ (scover1_C c _ _ _ _ _ _ _ _ _ _ _ _ _ _)
          iexact Hg
        isplitl [Ho]; · iexact Ho
        isplitl [H0]; · iexact H0
        isplitl [H1]; · iexact H1
        unfold owns; iexists _; isplitr
        swap; · iexact H2
        ipureintro; exact View.read_writes_of_cover _ _ _ _ _ (cover1_C_2 c _ _ _ _ _ _ _ _ _ _ _ _ _ _)
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [Dat.leavesExact_idle (dat1 V c) 2 t (idleAt1_2_B t (fun h => h0 ((hcond1_0 t).mp h)) (fun h => h1 ((hcond1_1 t).mp h))) (noFlush1_2_B t (fun h => h0 ((hcond1_0 t).mp h)) (fun h => h1 ((hcond1_1 t).mp h)))]
      rw [outsAt1_B V c t h0 h1]
      unfold sout1_B; (try dsimp only)
      by_cases hz : t.val = 0
      · exfalso; omega
      · rw [PhiS_castSucc V c t, PhiS_pos V c _ _ hz]; unfold others1
        iintro ⟨⟨⟨HA, HB, HC, HD, HS0⟩, Hg⟩, Ho, ⟨%d0, H0⟩, ⟨%d1, H1⟩, ⟨%d2, H2⟩⟩
        iapply ((kernelRun1_B c (grid1.coords t) _ _ _ _ _ _ _ _ (fun h => h0 ((hcond1_0 t).mp h)) (fun h => h1 ((hcond1_1 t).mp h)) (iblk1 V c 0 t) (iblk1 V c 1 t) _).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HA HB HC HD HS0 Hg]
        · isplitl [HA HB HC HD HS0]
          · isplitl [HA]; · iexact HA
            isplitl [HB]; · iexact HB
            isplitl [HC]; · iexact HC
            isplitl [HD]; · iexact HD
            unfold owns; iexists _; isplitr
            swap; · iexact HS0
            ipureintro; exact View.read_writes_of_cover _ _ _ _ _ (scover1_B c _ _ _ _ _ _ _ _ _ _ _ _ _ _)
          iexact Hg
        isplitl [Ho]; · iexact Ho
        isplitl [H0]; · iexact H0
        isplitl [H1]; · iexact H1
        iexists _; iexact H2

/-- The body obligation of the second region, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After any point but the first the invariant gives the class's back: the scratch's named contents are forgotten. -/
theorem Phi_out1 (c : Dev nD) (t : Fin (cfg1.N + 1)) (ht : t.val ≠ 0) : (dat1 V c).Φ t ⊢ Pipeline.ΦA spec1 c := by
  rw [show (dat1 V c).Φ t = PhiS V c t.val (Nat.le_of_lt_succ t.isLt) from rfl, PhiS_pos V c _ _ ht, PhiA1_eq]
  unfold others1
  iintro ⟨⟨HA, HB, HC, HD, HS0⟩, Hg⟩
  isplitl [HA HB HC HD HS0]
  · isplitl [HA]; · iexact HA
    isplitl [HB]; · iexact HB
    isplitl [HC]; · iexact HC
    isplitl [HD]; · iexact HD
    iexists _; iexact HS0
  iexact Hg

theorem hout1 (c : Dev nD) : (dat1 V c).Φ (Fin.last cfg1.N) ⊢ Pipeline.ΦA spec1 c :=
  Phi_out1 V c _ (by rw [Fin.val_last]; have : cfg1.N = 32 := N_1; omega)

end Region1

end Cert.KernelIdeal.Hand

end
-- ==== Proof.FrameRun.lean ====
import proofs.«106771_j67276367724779_2_alg».proof.Proof.Gen.KernelIdeal.Launch
import proofs.«106771_j67276367724779_2_alg».proof.Proof.Gen.KernelIdeal.Skeleton
import proofs.«106771_j67276367724779_2_alg».proof.Proof.Gen.KernelIdeal.Points
import proofs.«106771_j67276367724779_2_alg».proof.Proof.FrameR0
import proofs.«106771_j67276367724779_2_alg».proof.Proof.FrameR1b
import proofs.«106771_j67276367724779_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-!
# The run of the whole program

@main is: the first region, a reshape, the second region, and thirteen host operations (bias, row norm, division).
The contents of the core's unscoped buffers at each boundary are a fold from the launch memory; a region changes only
its windows' arrays, to what its write-backs leave. Every weakly fair execution terminates with every unscoped buffer
at the last boundary's contents: the frame claim and the value claim are both read off that.
-/

variable (m : (ℓ : Loc nD τ sig) → Buf (Elt F) ℓ) (ρ : Dev nD → PrngReg)

/-! ## The buffer contents at each boundary -/

/-- At launch (the first region's entry). -/
abbrev W0 : Dev nD → Valuation τ sig (Elt F) := fun c b => (s₀ m ρ).mem ((c : Dev nD), b)
abbrev V0r : (c : Dev nD) → (b : Ref sig .tc) → Buf (Elt F) ((c : Thread nD τ).loc b) := fun c b => W0 m ρ c b
/-- At the first region's exit: its arrays at what the pipeline leaves, every other buffer as entered. -/
def W1 (c : Dev nD) : Valuation τ sig (Elt F) :=
  Pipeline.withArrays spec0 c (W0 m ρ c) fun w => (dat0 (V0r m ρ) c).arrAt w cfg0.N
theorem W1_arr (c : Dev nD) (w : Fin cfg0.W) :
    W1 m ρ c (Proc.devRef .tc (Pipeline.arrRef spec0 w)) = (dat0 (V0r m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1r : (c : Dev nD) → (b : Ref sig .tc) → Buf (Elt F) ((c : Thread nD τ).loc b) := fun c b => W1 m ρ c b
theorem hF0 (c : Dev nD) (w : Fin cfg0.W) : (dat0 (V0r m ρ) c).arrAt w cfg0.N = V1r m ρ c (Pipeline.arrRef spec0 w) :=
  (W1_arr m ρ c w).symm
theorem hrest0 (c : Dev nD) : ∀ b, b ∉ Finset.univ.image (Pipeline.arrRef spec0) → V1r m ρ c b = V0r m ρ c b :=
  fun b hb => W1_of_ne m ρ c b fun w e => hb (Finset.mem_image.mpr ⟨w, Finset.mem_univ _, e⟩)

/-- After the reshape (the second region's entry). -/
abbrev W2 : Dev nD → Valuation τ sig (Elt F) := fun c => StableHlo.after hostOps1 (W1 m ρ c)
abbrev V2r : (c : Dev nD) → (b : Ref sig .tc) → Buf (Elt F) ((c : Thread nD τ).loc b) := fun c b => W2 m ρ c b
/-- At the second region's exit. -/
def W3 (c : Dev nD) : Valuation τ sig (Elt F) :=
  Pipeline.withArrays spec1 c (W2 m ρ c) fun w => (dat1 (V2r m ρ) c).arrAt w cfg1.N
theorem W3_arr (c : Dev nD) (w : Fin cfg1.W) :
    W3 m ρ c (Proc.devRef .tc (Pipeline.arrRef spec1 w)) = (dat1 (V2r m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3r : (c : Dev nD) → (b : Ref sig .tc) → Buf (Elt F) ((c : Thread nD τ).loc b) := fun c b => W3 m ρ c b
theorem hF1 (c : Dev nD) (w : Fin cfg1.W) : (dat1 (V2r m ρ) c).arrAt w cfg1.N = V3r m ρ c (Pipeline.arrRef spec1 w) :=
  (W3_arr m ρ c w).symm
theorem hrest1 (c : Dev nD) : ∀ b, b ∉ Finset.univ.image (Pipeline.arrRef spec1) → V3r m ρ c b = V2r m ρ c b :=
  fun b hb => W3_of_ne m ρ c b fun w e => hb (Finset.mem_image.mpr ⟨w, Finset.mem_univ _, e⟩)

/-- After the bias stretch, the row-norm stretch and the last stretch. -/
abbrev W4 : Dev nD → Valuation τ sig (Elt F) := fun c => StableHlo.after hostOps2 (W3 m ρ c)
abbrev W5 : Dev nD → Valuation τ sig (Elt F) := fun c => StableHlo.after hostOps2_1 (W4 m ρ c)
abbrev W6 : Dev nD → Valuation τ sig (Elt F) := fun c => StableHlo.after hostOps2_2 (W5 m ρ c)

/-- A buffer none of the last three stretches writes is, at the end, what the second region left. -/
theorem W6_of (c : Dev nD) (r : Ref sig .tc) (h1 : r ∉ (hostOps2_W : List (Ref sig .tc))) (h2 : r ∉ (hostOps2_1_W : List (Ref sig .tc))) (h3 : r ∉ (hostOps2_2_W : List (Ref sig .tc))) :
    W6 m ρ c (Proc.devRef .tc r) = W3 m ρ c (Proc.devRef .tc r) :=
  (StableHlo.after_of_writes_sub hostOps2_2 _ hostOps2_2_writes h3).trans
    ((StableHlo.after_of_writes_sub hostOps2_1 _ hostOps2_1_writes h2).trans
      (StableHlo.after_of_writes_sub hostOps2 _ hostOps2_writes h1))

/-! ### The arguments end as launched -/

theorem W6_main_arg0 (c : Dev nD) : W6 m ρ c (Proc.devRef .tc main_arg0) = m ((c : Thread nD τ).loc main_arg0) :=
  calc W6 m ρ c (Proc.devRef .tc main_arg0)
    _ = W3 m ρ c (Proc.devRef .tc main_arg0) := W6_of m ρ c main_arg0 (by decide) (by decide) (by decide)
    _ = W2 m ρ c (Proc.devRef .tc main_arg0) := W3_of_ne m ρ c main_arg0 (by decide)
    _ = W1 m ρ c (Proc.devRef .tc main_arg0) := StableHlo.after_of_writes_sub hostOps1 _ hostOps1_writes (by decide)
    _ = W0 m ρ c (Proc.devRef .tc main_arg0) := W1_of_ne m ρ c main_arg0 (by decide)
    _ = m ((c : Thread nD τ).loc main_arg0) := rfl
theorem W6_main_arg1 (c : Dev nD) : W6 m ρ c (Proc.devRef .tc main_arg1) = m ((c : Thread nD τ).loc main_arg1) :=
  calc W6 m ρ c (Proc.devRef .tc main_arg1)
    _ = W3 m ρ c (Proc.devRef .tc main_arg1) := W6_of m ρ c main_arg1 (by decide) (by decide) (by decide)
    _ = W2 m ρ c (Proc.devRef .tc main_arg1) := W3_of_ne m ρ c main_arg1 (by decide)
    _ = W1 m ρ c (Proc.devRef .tc main_arg1) := StableHlo.after_of_writes_sub hostOps1 _ hostOps1_writes (by decide)
    _ = W0 m ρ c (Proc.devRef .tc main_arg1) := W1_of_ne m ρ c main_arg1 (by decide)
    _ = m ((c : Thread nD τ).loc main_arg1) := rfl
theorem W6_main_arg2 (c : Dev nD) : W6 m ρ c (Proc.devRef .tc main_arg2) = m ((c : Thread nD τ).loc main_arg2) :=
  calc W6 m ρ c (Proc.devRef .tc main_arg2)
    _ = W3 m ρ c (Proc.devRef .tc main_arg2) := W6_of m ρ c main_arg2 (by decide) (by decide) (by decide)
    _ = W2 m ρ c (Proc.devRef .tc main_arg2) := W3_of_ne m ρ c main_arg2 (by decide)
    _ = W1 m ρ c (Proc.devRef .tc main_arg2) := StableHlo.after_of_writes_sub hostOps1 _ hostOps1_writes (by decide)
    _ = W0 m ρ c (Proc.devRef .tc main_arg2) := (W1_arr m ρ c 0).trans (((dat0 (V0r m ρ) c).arrAt_in 0 rfl _).trans (A_eq0 (V0r m ρ) c 0))
    _ = m ((c : Thread nD τ).loc main_arg2) := rfl
theorem W6_main_arg3 (c : Dev nD) : W6 m ρ c (Proc.devRef .tc main_arg3) = m ((c : Thread nD τ).loc main_arg3) :=
  calc W6 m ρ c (Proc.devRef .tc main_arg3)
    _ = W3 m ρ c (Proc.devRef .tc main_arg3) := W6_of m ρ c main_arg3 (by decide) (by decide) (by decide)
    _ = W2 m ρ c (Proc.devRef .tc main_arg3) := (W3_arr m ρ c 1).trans (((dat1 (V2r m ρ) c).arrAt_in 1 rfl _).trans (A_eq1 (V2r m ρ) c 1))
    _ = W1 m ρ c (Proc.devRef .tc main_arg3) := StableHlo.after_of_writes_sub hostOps1 _ hostOps1_writes (by decide)
    _ = W0 m ρ c (Proc.devRef .tc main_arg3) := W1_of_ne m ρ c main_arg3 (by decide)
    _ = m ((c : Thread nD τ).loc main_arg3) := rfl
theorem W6_main_arg4 (c : Dev nD) : W6 m ρ c (Proc.devRef .tc main_arg4) = m ((c : Thread nD τ).loc main_arg4) :=
  calc W6 m ρ c (Proc.devRef .tc main_arg4)
    _ = W3 m ρ c (Proc.devRef .tc main_arg4) := W6_of m ρ c main_arg4 (by decide) (by decide) (by decide)
    _ = W2 m ρ c (Proc.devRef .tc main_arg4) := W3_of_ne m ρ c main_arg4 (by decide)
    _ = W1 m ρ c (Proc.devRef .tc main_arg4) := StableHlo.after_of_writes_sub hostOps1 _ hostOps1_writes (by decide)
    _ = W0 m ρ c (Proc.devRef .tc main_arg4) := W1_of_ne m ρ c main_arg4 (by decide)
    _ = m ((c : Thread nD τ).loc main_arg4) := rfl

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V0r m ρ) c
  | ⟨1, _⟩ => fun c => dat1 (V2r m ρ) c
abbrev 𝒱₀ : Variants := Variants.none
abbrev L : GSem nD τ sig → Finset Unit := fun _ => ∅
abbrev lv : GSem nD τ sig → Unit → ℕ := fun _ _ => 0
/-- What rides beside the buffers through every segment: the generator register at some state and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W6 m ρ c) ∗ ∃ r, prngReg c r)

/-! ## The regions as segments -/

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0r m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0r m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0r m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0r m ρ c) (V1r m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2r m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2r m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2r m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (V2r m ρ) c)
    unfold Pipeline.ΦA
    iintro ⟨Hp, -, Hr⟩
    isplitl [Hr]; · iexact Hr
    iexact Hp
  hout c := by
    rw [Pipeline.ownSems0_none]
    refine BIBase.Entails.trans (hout1 (V2r m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2r m ρ c) (V3r m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .region (reg0 m ρ),
    .host (hseg hostOps1 hostOps1_sub hostOps1_fresh (W1 m ρ)),
    .region (reg1 m ρ),
    .host (hseg hostOps2 hostOps2_sub hostOps2_fresh (W3 m ρ)),
    .host (hseg hostOps2_1 hostOps2_1_sub hostOps2_1_fresh (W4 m ρ)),
    .host (hseg hostOps2_2 hostOps2_2_sub hostOps2_2_fresh (W5 m ρ)) ]

set_option backward.isDefEq.respectTransparency.types false in
/-- Every weakly fair execution of @main terminates, nothing faulting, with every unscoped buffer of every core at the
    last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by
      rewrite [main_chain c, Pipeline.Seg.run_eq_chain,
        show (segs m ρ).map Pipeline.Seg.prog = [
          Prog.lift (.customCall (Pipeline.entry 0) ()),
          StableHlo.seq hostOps1,
          Prog.lift (.customCall (Pipeline.entry 1) ()),
          StableHlo.seq hostOps2,
          StableHlo.seq hostOps2_1,
          StableHlo.seq hostOps2_2 ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      show iprop(StableHlo.held (c : Thread nD τ) (Pipeline.ucRefs τ sig) (W6 m ρ c) ∗ R c) ⊢ _
      iintro ⟨Hh, Hp, Ho⟩
      isplitl [Hh Hp]
      · isplitl [Hh]; · iexact Hh
        iexact Hp
      iexact Ho⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h => h)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_arg0 (by decide))).trans (W6_main_arg0 m ρ c),
     (h c _ (mem_uc main_arg1 (by decide))).trans (W6_main_arg1 m ρ c),
     (h c _ (mem_uc main_arg2 (by decide))).trans (W6_main_arg2 m ρ c),
     (h c _ (mem_uc main_arg3 (by decide))).trans (W6_main_arg3 m ρ c),
     (h c _ (mem_uc main_arg4 (by decide))).trans (W6_main_arg4 m ρ c)⟩) (run_all m ρ)

end Cert.KernelIdeal.Hand

end
-- ==== Proof.ValueR0.lean ====
import proofs.«106771_j67276367724779_2_alg».proof.Proof.Gen.KernelIdeal.Launch
import proofs.«106771_j67276367724779_2_alg».proof.Proof.Gen.KernelIdeal.Skeleton
import proofs.«106771_j67276367724779_2_alg».proof.Proof.Gen.KernelIdeal.Points
import proofs.«106771_j67276367724779_2_alg».proof.Proof.FrameR0
import Idealize.ShloMosaic.Lib.Pipeline.Value
import Idealize.ShloMosaic.Lib.ValueIdx
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-!
# The first region's output array, as one function of its input array

Point `t` of the grid reads batch `t` of the input and writes block `t` of the output, and the 32 blocks tile the output.
So after the region the output array is, index by index, the distance payload of the index's own batch.
-/

open Idealize.ShloMosaic.ValueIdx

section Region0

variable (V : (c : Dev nD) → (b : Ref sig .tc) → Buf (Elt F) ((c : Thread nD τ).loc b))

theorem hz3 : (![0, 0, 0] : Fin 3 → Nat) = fun _ => 0 := funext fun a => by fin_cases a <;> rfl

/-- Batch `b` of the input array, as one block. -/
def batchOf (xo : S32x1024x512.Idx → Elt F .f32) (b : Fin 32) : Vec F S1x1024x512 .f32 :=
  fun y => xo (ix3 b (⟨(y 1).val, (y 1).isLt⟩ : Fin 1024) (⟨(y 2).val, (y 2).isLt⟩ : Fin 512))

/-- The output array: at `(b, n, m)` the distance payload of batch `b` at `(0, n, m)`. -/
def G0 (xo : S32x1024x512.Idx → Elt F .f32) : S32x512x512.Idx → Elt F .f32 :=
  fun i => k0_pay1 (batchOf xo ⟨(i 0).val, (i 0).isLt⟩) (ix3 (0 : Fin 1) (⟨(i 1).val, (i 1).isLt⟩ : Fin 512) (⟨(i 2).val, (i 2).isLt⟩ : Fin 512))

/-- The printed index maps over the grid: both windows' block index is `(t, 0, 0)`. -/
theorem idx_facts0 : ∀ t : Fin cfg0.N, win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0 :=
  (by decide +kernel : ∀ t : Fin grid0.N, _)

/-- What point `t` writes back is block `t` of `G0` of the input array as the region finds it. -/
theorem flushed0_eq (c : Dev nD) (t : Fin cfg0.N) :
    (dat0 V c).flushed 1 t = ((cfg0.win 1).blk t).view.read (Elt F) (G0 (V c main_arg2)) := by
  show (cfg0.win 1).cut (grid0.coords t) ((dat0 V c).after 1 t) = _
  rw [after0_1]
  unfold out0_1
  rw [View.canon_unit_zero hz3]
  simp only [View.ld_unit_zero (S := S1x1024x512) hz3]
  obtain ⟨e0, e1, e2, e3, e4, e5⟩ := idx_facts0 t
  funext j
  show k0_pay1 (iblk0 V c 0 t) j = G0 (V c main_arg2) (((cfg0.win 1).blk t).view.emb j)
  have hj0 : (j 0).val < 1 := (j 0).isLt
  have q0 : ((((cfg0.win 1).blk t).view.emb j) 0).val = t.val := by
    show win0_1.index t (0 : Fin 3) * 1 + 1 * (j 0).val = t.val
    omega
  have q1 : ((((cfg0.win 1).blk t).view.emb j) 1).val = (j 1).val := by
    show win0_1.index t (1 : Fin 3) * 512 + 1 * (j 1).val = (j 1).val
    omega
  have q2 : ((((cfg0.win 1).blk t).view.emb j) 2).val = (j 2).val := by
    show win0_1.index t (2 : Fin 3) * 512 + 1 * (j 2).val = (j 2).val
    omega
  generalize ((cfg0.win 1).blk t).view.emb j = e at q0 q1 q2
  unfold G0
  have hb : batchOf (V c main_arg2) ⟨(e 0).val, (e 0).isLt⟩ = iblk0 V c 0 t := by
    funext y
    have hy0 : (y 0).val < 1 := (y 0).isLt
    unfold batchOf iblk0
    rw [View.read_apply]
    show V c main_arg2 _ = V c main_arg2 _
    congr 1
    funext a
    apply Fin.ext
    match a with
    | ⟨0, _⟩ => show (e 0).val = win0_0.index t (0 : Fin 3) * 1 + 1 * (y 0).val; omega
    | ⟨1, _⟩ => show (y 1).val = win0_0.index t (1 : Fin 3) * 1024 + 1 * (y 1).val; omega
    | ⟨2, _⟩ => show (y 2).val = win0_0.index t (2 : Fin 3) * 512 + 1 * (y 2).val; omega
  have hjj : ix3 (0 : Fin 1) (⟨(e 1).val, (e 1).isLt⟩ : Fin 512) (⟨(e 2).val, (e 2).isLt⟩ : Fin 512) = j := by
    funext a
    apply Fin.ext
    match a with
    | ⟨0, _⟩ => show 0 = (j 0).val; omega
    | ⟨1, _⟩ => show (e 1).val = (j 1).val; exact q1
    | ⟨2, _⟩ => show (e 2).val = (j 2).val; exact q2
  exact (congr (congrArg k0_pay1 hb) hjj).symm

/-- An index of the array is in point `t`'s block iff each coordinate is in the block's range on its axis. -/
theorem mem_blk0 (t : Fin cfg0.N) (i : S32x512x512.Idx) :
    i ∈ ((cfg0.win 1).blk t).view.set ↔ ∀ a : Fin 3, win0_1.index t a * S1x512x512.size a ≤ (i a).val ∧ (i a).val < win0_1.index t a * S1x512x512.size a + S1x512x512.size a := by
  show i ∈ ((View.whole main_v0).slice (win0_1.rect t)).set ↔ _
  rw [View.set_slice_whole, Rect.mem_set_unit]
  exact Iff.rfl

/-- The output array after the region. -/
theorem final0 (c : Dev nD) : (dat0 V c).arrAt 1 cfg0.N = G0 (V c main_arg2) :=
  (dat0 V c).arrAt_eq_of_cover 1 (G0 (V c main_arg2)) (fun t _ => flushed0_eq V c t) fun i => by
    have h0 : (i 0).val < 32 := (i 0).isLt
    have h1 : (i 1).val < 512 := (i 1).isLt
    have h2 : (i 2).val < 512 := (i 2).isLt
    have hN : cfg0.N = 32 := N_0
    refine ⟨⟨(i 0).val, by omega⟩, flush0_1 _, ?_⟩
    rw [mem_blk0]
    obtain ⟨e0, e1, e2, e3, e4, e5⟩ := idx_facts0 ⟨(i 0).val, by omega⟩
    intro a
    match a with
    | ⟨0, _⟩ => show win0_1.index _ (0 : Fin 3) * 1 ≤ (i 0).val ∧ (i 0).val < win0_1.index _ (0 : Fin 3) * 1 + 1; rw [e3]; dsimp only; omega
    | ⟨1, _⟩ => show win0_1.index _ (1 : Fin 3) * 512 ≤ (i 1).val ∧ (i 1).val < win0_1.index _ (1 : Fin 3) * 512 + 512; rw [e4]; omega
    | ⟨2, _⟩ => show win0_1.index _ (2 : Fin 3) * 512 ≤ (i 2).val ∧ (i 2).val < win0_1.index _ (2 : Fin 3) * 512 + 512; rw [e5]; omega

end Region0

end Cert.KernelIdeal.Hand

end
-- ==== Proof.ValueR1.lean ====
import proofs.«106771_j67276367724779_2_alg».proof.Proof.Gen.KernelIdeal.Launch
import proofs.«106771_j67276367724779_2_alg».proof.Proof.Gen.KernelIdeal.Skeleton
import proofs.«106771_j67276367724779_2_alg».proof.Proof.Gen.KernelIdeal.Points
import proofs.«106771_j67276367724779_2_alg».proof.Proof.FrameR1
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-!
# What each control case of the second region leaves, as the payloads

Case A (first K-block) leaves in the scratch the block product added onto the zero array; cases B and C leave the block
product added onto what the point before left; case C copies exactly that into the output window.
-/

theorem hz2 : (![0, 0] : Fin 2 → Nat) = fun _ => 0 := funext fun a => by fin_cases a <;> rfl

theorem soutA_eq (c : Dev nD) (i : grid1.Coords) (arg2 : Memref sig .tc .vmem S32x16384 .f32) (harg2 : arg2.IsWhole) (arg3 : Memref sig .tc .vmem S16384x128 .f32) (harg3 : arg3.IsWhole) (arg4 : Memref sig .tc .vmem S32x128 .f32) (harg4 : arg4.IsWhole) (arg5 : Memref sig .tc .vmem S32x128 .f32) (harg5 : arg5.IsWhole) (hc0 : cond1_0 i) (hc1 : ¬cond1_1 i)
    (x0 : Vec F S32x16384 .f32) (x1 : Vec F S16384x128 .f32) :
    sout1_A c i arg2 harg2 arg3 harg3 arg4 harg4 arg5 harg5 hc0 hc1 x0 x1 = k1_pay2 (k1_pay1 (F := F)) x0 x1 := by
  unfold sout1_A
  rw [View.read_writes_eq_canon _ _ _ (scover1_A c i arg2 harg2 arg3 harg3 arg4 harg4 arg5 harg5 hc0 hc1 x0 x1)]
  unfold kernelRun1_A
  dsimp only
  try sl_unfold_words
  rw [View.canon_cons_unit_zero hz2]
  rw [View.readCov_unit_zero (S := S32x128) _ hz2]
  simp only [View.readAt_eq_ld, harg2.read_unread, harg3.read_unread, View.ld_unit_zero (S := S32x16384) hz2, View.ld_unit_zero (S := S16384x128) hz2]

theorem soutB_eq (c : Dev nD) (i : grid1.Coords) (arg2 : Memref sig .tc .vmem S32x16384 .f32) (harg2 : arg2.IsWhole) (arg3 : Memref sig .tc .vmem S16384x128 .f32) (harg3 : arg3.IsWhole) (arg4 : Memref sig .tc .vmem S32x128 .f32) (harg4 : arg4.IsWhole) (arg5 : Memref sig .tc .vmem S32x128 .f32) (harg5 : arg5.IsWhole) (hc0 : ¬cond1_0 i) (hc1 : ¬cond1_1 i)
    (x0 : Vec F S32x16384 .f32) (x1 : Vec F S16384x128 .f32) (xs0 : Vec F S32x128 .f32) :
    sout1_B c i arg2 harg2 arg3 harg3 arg4 harg4 arg5 harg5 hc0 hc1 x0 x1 xs0 = k1_pay2 xs0 x0 x1 := by
  unfold sout1_B
  rw [View.read_writes_eq_canon _ _ _ (scover1_B c i arg2 harg2 arg3 harg3 arg4 harg4 arg5 harg5 hc0 hc1 x0 x1 xs0)]
  unfold kernelRun1_B
  dsimp only
  try sl_unfold_words
  rw [View.canon_unit_zero hz2]
  simp only [View.readAt_eq_ld, harg5.read_unread, harg2.read_unread, harg3.read_unread, View.ld_unit_zero (S := S32x128) hz2, View.ld_unit_zero (S := S32x16384) hz2, View.ld_unit_zero (S := S16384x128) hz2]

theorem outC_eq (c : Dev nD) (i : grid1.Coords) (arg2 : Memref sig .tc .vmem S32x16384 .f32) (harg2 : arg2.IsWhole) (arg3 : Memref sig .tc .vmem S16384x128 .f32) (harg3 : arg3.IsWhole) (arg4 : Memref sig .tc .vmem S32x128 .f32) (harg4 : arg4.IsWhole) (arg5 : Memref sig .tc .vmem S32x128 .f32) (harg5 : arg5.IsWhole) (hc0 : ¬cond1_0 i) (hc1 : cond1_1 i)
    (x0 : Vec F S32x16384 .f32) (x1 : Vec F S16384x128 .f32) (xs0 : Vec F S32x128 .f32) :
    out1_C_2 c i arg2 harg2 arg3 harg3 arg4 harg4 arg5 harg5 hc0 hc1 x0 x1 xs0 = k1_pay2 xs0 x0 x1 := by
  unfold out1_C_2
  rw [View.read_writes_eq_canon _ _ _ (cover1_C_2 c i arg2 harg2 arg3 harg3 arg4 harg4 arg5 harg5 hc0 hc1 x0 x1 xs0)]
  unfold kernelRun1_C
  dsimp only
  try sl_unfold_words
  rw [View.canon_unit_zero hz2]
  rw [View.readCov_unit_zero (S := S32x128) _ hz2]
  simp only [View.readAt_eq_ld, harg5.read_unread, harg2.read_unread, harg3.read_unread, View.ld_unit_zero (S := S32x128) hz2, View.ld_unit_zero (S := S32x16384) hz2, View.ld_unit_zero (S := S16384x128) hz2]

theorem soutC_eq (c : Dev nD) (i : grid1.Coords) (arg2 : Memref sig .tc .vmem S32x16384 .f32) (harg2 : arg2.IsWhole) (arg3 : Memref sig .tc .vmem S16384x128 .f32) (harg3 : arg3.IsWhole) (arg4 : Memref sig .tc .vmem S32x128 .f32) (harg4 : arg4.IsWhole) (arg5 : Memref sig .tc .vmem S32x128 .f32) (harg5 : arg5.IsWhole) (hc0 : ¬cond1_0 i) (hc1 : cond1_1 i)
    (x0 : Vec F S32x16384 .f32) (x1 : Vec F S16384x128 .f32) (xs0 : Vec F S32x128 .f32) :
    sout1_C c i arg2 harg2 arg3 harg3 arg4 harg4 arg5 harg5 hc0 hc1 x0 x1 xs0 = k1_pay2 xs0 x0 x1 := by
  unfold sout1_C
  rw [View.read_writes_eq_canon _ _ _ (scover1_C c i arg2 harg2 arg3 harg3 arg4 harg4 arg5 harg5 hc0 hc1 x0 x1 xs0)]
  unfold kernelRun1_C
  dsimp only
  try sl_unfold_words
  rw [View.canon_unit_zero hz2]
  simp only [View.readAt_eq_ld, harg5.read_unread, harg2.read_unread, harg3.read_unread, View.ld_unit_zero (S := S32x128) hz2, View.ld_unit_zero (S := S32x16384) hz2, View.ld_unit_zero (S := S16384x128) hz2]

end Cert.KernelIdeal.Hand

end
-- ==== Proof.ValueR1b.lean ====
import proofs.«106771_j67276367724779_2_alg».proof.Proof.Gen.KernelIdeal.Launch
import proofs.«106771_j67276367724779_2_alg».proof.Proof.Gen.KernelIdeal.Skeleton
import proofs.«106771_j67276367724779_2_alg».proof.Proof.Gen.KernelIdeal.Points
import proofs.«106771_j67276367724779_2_alg».proof.Proof.ValueR1
import Idealize.ShloMosaic.Lib.Pipeline.Value
import Idealize.ShloMosaic.Lib.ValueIdx
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-!
# The second region's accumulator as a recurrence, and its blocks as pieces of the two operand arrays

After a first K-block the scratch holds the block product added onto zero; after any other point, the block product added
onto what the point before left; at a last K-block the output window receives exactly what the scratch then holds. The
point `t = 16 j + k` reads columns `16384 k …` of the left operand, and rows `16384 k …`, columns `128 j …` of the right.
-/

open Idealize.ShloMosaic.ValueIdx

section Region1

variable (V : (c : Dev nD) → (b : Ref sig .tc) → Buf (Elt F) ((c : Thread nD τ).loc b))

theorem outsAt1_congr (c : Dev nD) {n n' : ℕ} (e : n = n') (h : n < cfg1.N) (h' : n' < cfg1.N) :
    outsAt1 V c n h = outsAt1 V c n' h' := by subst e; rfl

theorem acc_reset (c : Dev nD) (n : ℕ) (h : n < cfg1.N) (h0 : n % 16 = 0) :
    (outsAt1 V c n h).2 = k1_pay2 (k1_pay1 (F := F)) (iblk1 V c 0 ⟨n, h⟩) (iblk1 V c 1 ⟨n, h⟩) := by
  have e := congrArg Prod.snd (outsAt1_A V c ⟨n, h⟩ h0 (by dsimp only; omega))
  dsimp only at e
  exact e.trans (soutA_eq (F := F) _ _ _ _ _ _ _ _ _ _ _ _ _ _)

theorem acc_step (c : Dev nD) (n : ℕ) (h : n + 1 < cfg1.N) (h0 : ¬(n + 1) % 16 = 0) :
    (outsAt1 V c (n + 1) h).2 = k1_pay2 ((outsAt1 V c n (Nat.lt_of_succ_lt h)).2) (iblk1 V c 0 ⟨n + 1, h⟩) (iblk1 V c 1 ⟨n + 1, h⟩) := by
  by_cases h1 : (n + 1) % 16 = 15
  · have e := congrArg Prod.snd (outsAt1_C V c ⟨n + 1, h⟩ h0 h1)
    dsimp only at e
    exact e.trans (soutC_eq (F := F) _ _ _ _ _ _ _ _ _ _ _ _ _ _ _)
  · have e := congrArg Prod.snd (outsAt1_B V c ⟨n + 1, h⟩ h0 h1)
    dsimp only at e
    exact e.trans (soutB_eq (F := F) _ _ _ _ _ _ _ _ _ _ _ _ _ _ _)

theorem out_last (c : Dev nD) (n : ℕ) (h : n < cfg1.N) (h0 : ¬n % 16 = 0) (h1 : n % 16 = 15) :
    (outsAt1 V c n h).1 = (outsAt1 V c n h).2 := by
  have e1 := congrArg Prod.fst (outsAt1_C V c ⟨n, h⟩ h0 h1)
  have e2 := congrArg Prod.snd (outsAt1_C V c ⟨n, h⟩ h0 h1)
  dsimp only at e1 e2
  exact (e1.trans (outC_eq (F := F) _ _ _ _ _ _ _ _ _ _ _ _ _ _ _)).trans (e2.trans (soutC_eq (F := F) _ _ _ _ _ _ _ _ _ _ _ _ _ _ _)).symm

/-- The printed index maps over the grid. -/
theorem idx_facts1 : ∀ t : Fin cfg1.N, win1_0.index t (0 : Fin 2) = 0 ∧ win1_0.index t (1 : Fin 2) = t.val % 16
    ∧ win1_1.index t (0 : Fin 2) = t.val % 16 ∧ win1_1.index t (1 : Fin 2) = t.val / 16
    ∧ win1_2.index t (0 : Fin 2) = 0 ∧ win1_2.index t (1 : Fin 2) = t.val / 16 :=
  (by decide +kernel : ∀ t : Fin grid1.N, _)

/-- The left operand's block at point `t`: all 32 rows, columns `16384 (t mod 16) …`. -/
theorem iblk1_0_apply (c : Dev nD) (t : Fin cfg1.N) (b : Fin 32) (kk : Fin 16384) (k : S32x262144.Idx)
    (hk0 : (k 0).val = b.val) (hk1 : (k 1).val = (t.val % 16) * 16384 + kk.val) :
    (iblk1 V c 0 t : Vec F S32x16384 .f32) (ix2 b kk) = (V c main_v1 : S32x262144.Idx → Elt F .f32) k := by
  obtain ⟨e0, e1, -⟩ := idx_facts1 t
  unfold iblk1
  rw [View.read_apply]
  show V c main_v1 _ = V c main_v1 _
  congr 1
  funext a
  apply Fin.ext
  match a with
  | ⟨0, _⟩ => show win1_0.index t (0 : Fin 2) * 32 + 1 * b.val = (k 0).val; omega
  | ⟨1, _⟩ => show win1_0.index t (1 : Fin 2) * 16384 + 1 * kk.val = (k 1).val; omega

/-- The right operand's block at point `t`: rows `16384 (t mod 16) …`, columns `128 (t div 16) …`. -/
theorem iblk1_1_apply (c : Dev nD) (t : Fin cfg1.N) (kk : Fin 16384) (o : Fin 128) (k : S262144x256.Idx)
    (hk0 : (k 0).val = (t.val % 16) * 16384 + kk.val) (hk1 : (k 1).val = (t.val / 16) * 128 + o.val) :
    (iblk1 V c 1 t : Vec F S16384x128 .f32) (ix2 kk o) = (V c main_arg3 : S262144x256.Idx → Elt F .f32) k := by
  obtain ⟨-, -, e2, e3, -⟩ := idx_facts1 t
  unfold iblk1
  rw [View.read_apply]
  show V c main_arg3 _ = V c main_arg3 _
  congr 1
  funext a
  apply Fin.ext
  match a with
  | ⟨0, _⟩ => show win1_1.index t (0 : Fin 2) * 16384 + 1 * kk.val = (k 0).val; omega
  | ⟨1, _⟩ => show win1_1.index t (1 : Fin 2) * 128 + 1 * o.val = (k 1).val; omega

/-- An index of the output array is in point `t`'s block iff each coordinate is in the block's range on its axis. -/
theorem mem_blk1 (t : Fin cfg1.N) (i : S32x256.Idx) :
    i ∈ ((cfg1.win 2).blk t).view.set ↔ ∀ a : Fin 2, win1_2.index t a * S32x128.size a ≤ (i a).val ∧ (i a).val < win1_2.index t a * S32x128.size a + S32x128.size a := by
  show i ∈ ((View.whole main_v2).slice (win1_2.rect t)).set ↔ _
  rw [View.set_slice_whole, Rect.mem_set_unit]
  exact Iff.rfl

/-- Every index of the output array is in the block of a point that writes back: the last K-block of its column half. -/
theorem cover1 (i : S32x256.Idx) : ∃ t : Fin cfg1.N, (cfg1.win 2).flush t = true ∧ i ∈ ((cfg1.win 2).blk t).view.set := by
  have h0 : (i 0).val < 32 := (i 0).isLt
  have h1 : (i 1).val < 256 := (i 1).isLt
  have hN : cfg1.N = 32 := N_1
  refine ⟨⟨16 * ((i 1).val / 128) + 15, by omega⟩, (flush1_2 _).mpr (by dsimp only; omega), ?_⟩
  rw [mem_blk1]
  obtain ⟨-, -, -, -, e4, e5⟩ := idx_facts1 ⟨16 * ((i 1).val / 128) + 15, by omega⟩
  intro a
  match a with
  | ⟨0, _⟩ => show win1_2.index _ (0 : Fin 2) * 32 ≤ (i 0).val ∧ (i 0).val < win1_2.index _ (0 : Fin 2) * 32 + 32; rw [e4]; omega
  | ⟨1, _⟩ => show win1_2.index _ (1 : Fin 2) * 128 ≤ (i 1).val ∧ (i 1).val < win1_2.index _ (1 : Fin 2) * 128 + 128; rw [e5]; dsimp only; omega

end Region1

end Cert.KernelIdeal.Hand

end
-- ==== Proof.LibLayout.lean ====
/-
  Layout operations read at an index written by its coordinates, for the shapes a "keepdims" reduction kernel meets:
  a unit axis inserted in the middle or at the end of a shape by a shape cast, a broadcast along such a unit axis,
  the two composed, and a sum over one axis read as a `Fin`-indexed sum at coordinates.  All statements are over
  generic extents; the indices are the library's `ixN` constructors.
-/
import Idealize.ShloMosaic.Lib.Pipeline.Value
import Idealize.ShloMosaic.Lib.ValueIdx
import Idealize.ShloMosaic.Lib.ValueLayout
import Idealize.ShloMosaic.PureOps.Ideal.Laws

namespace PushPull.Layout

open Idealize.ShloMosaic Idealize.ShloMosaic.ValueIdx

variable {α : Type}

/-! ## A unit axis inserted by a shape cast -/

/-- `[a, b] → [a, b, 1]`: the entry `(i, j, 0)` is the entry `(i, j)`. -/
theorem cast_ab_ab1 {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_two, Shape.rowMajor_val_three]
    show i.val * b + j.val = (i.val * b + j.val) * 1 + u.val
    rw [hu, Nat.mul_one, Nat.add_zero])

/-- `[a, b] → [a, 1, b]`. -/
theorem cast_ab_a1b {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_two, Shape.rowMajor_val_three]
    show i.val * b + j.val = (i.val * 1 + u.val) * b + j.val
    rw [hu, Nat.mul_one, Nat.add_zero])

/-- `[a, b, c] → [a, b, 1, c]`. -/
theorem cast_abc_ab1c {a b c : ℕ} (x : (⟨3, ![a, b, c]⟩ : Shape).Idx → α)
    (h : (⟨3, ![a, b, c]⟩ : Shape).ShapeCasts ⟨4, ![a, b, 1, c]⟩) (i : Fin a) (j : Fin b) (u : Fin 1) (k : Fin c) :
    shapeCast ⟨4, ![a, b, 1, c]⟩ x h (ix4 i j u k) = x (ix3 i j k) :=
  shapeCast_apply x h _ _ (by
    have hu : u.val = 0 := by omega
    rw [Shape.rowMajor_val_three, Shape.rowMajor_val_four]
    show (i.val * b + j.val) * c + k.val = ((i.val * b + j.val) * 1 + u.val) * c + k.val
    rw [hu, Nat.mul_one, Nat.add_zero])

/-- `[a, b, c] → [a, 1, b, c]`. -/
theorem cast_abc_a1bc {a b c : ℕ} (x : (⟨3, ![a, b, c]⟩ : Shape).Idx → α)
    (h : (⟨3, ![a, b, c]⟩ : Shape).ShapeCasts ⟨4, ![a, 1, b, c]⟩) (i : Fin a) (u : Fin 1) (j : Fin b) (k : Fin c) :
    shapeCast ⟨4, ![a, 1, b, c]⟩ x h (ix4 i u j k) = x (ix3 i j k) :=
  shapeCast_apply x h _ _ (by
    have hu : u.val = 0 := by omega
    rw [Shape.rowMajor_val_three, Shape.rowMajor_val_four]
    show (i.val * b + j.val) * c + k.val = ((i.val * 1 + u.val) * b + j.val) * c + k.val
    rw [hu, Nat.mul_one, Nat.add_zero])

/-- `[a, b, c] → [a, b, c, 1]`. -/
theorem cast_abc_abc1 {a b c : ℕ} (x : (⟨3, ![a, b, c]⟩ : Shape).Idx → α)
    (h : (⟨3, ![a, b, c]⟩ : Shape).ShapeCasts ⟨4, ![a, b, c, 1]⟩) (i : Fin a) (j : Fin b) (k : Fin c) (u : Fin 1) :
    shapeCast ⟨4, ![a, b, c, 1]⟩ x h (ix4 i j k u) = x (ix3 i j k) :=
  shapeCast_apply x h _ _ (by
    have hu : u.val = 0 := by omega
    rw [Shape.rowMajor_val_three, Shape.rowMajor_val_four]
    show (i.val * b + j.val) * c + k.val = ((i.val * b + j.val) * c + k.val) * 1 + u.val
    rw [hu, Nat.mul_one, Nat.add_zero])

/-- `[a] → [a, 1]`. -/
theorem cast_a_a1 {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-! ## A broadcast along a unit axis -/

/-- `[a, b, 1, c] → [a, b, k, c]`. -/
theorem bcast_ab1c {a b c k : ℕ} (x : (⟨4, ![a, b, 1, c]⟩ : Shape).Idx → α)
    (h : (⟨4, ![a, b, 1, c]⟩ : Shape).Broadcasts ⟨4, ![a, b, k, c]⟩) (i : Fin a) (j : Fin b) (q : Fin k) (l : Fin c) :
    broadcastTo ⟨4, ![a, b, k, c]⟩ x h (ix4 i j q l) = x (ix4 i j (0 : Fin 1) l) :=
  broadcastTo_apply x h _ _ (fun ax => by
    have hi := i.isLt; have hj := j.isLt; have hl := l.isLt
    match ax with
    | ⟨0, _⟩ => show i.val = if a = 1 then 0 else i.val; split <;> omega
    | ⟨1, _⟩ => show j.val = if b = 1 then 0 else j.val; split <;> omega
    | ⟨2, _⟩ => show (0 : ℕ) = if 1 = 1 then 0 else q.val; exact (if_pos rfl).symm
    | ⟨3, _⟩ => show l.val = if c = 1 then 0 else l.val; split <;> omega)

/-- `[a, 1, b, c] → [a, k, b, c]`. -/
theorem bcast_a1bc {a b c k : ℕ} (x : (⟨4, ![a, 1, b, c]⟩ : Shape).Idx → α)
    (h : (⟨4, ![a, 1, b, c]⟩ : Shape).Broadcasts ⟨4, ![a, k, b, c]⟩) (i : Fin a) (q : Fin k) (j : Fin b) (l : Fin c) :
    broadcastTo ⟨4, ![a, k, b, c]⟩ x h (ix4 i q j l) = x (ix4 i (0 : Fin 1) j l) :=
  broadcastTo_apply x h _ _ (fun ax => by
    have hi := i.isLt; have hj := j.isLt; have hl := l.isLt
    match ax with
    | ⟨0, _⟩ => show i.val = if a = 1 then 0 else i.val; split <;> omega
    | ⟨1, _⟩ => show (0 : ℕ) = if 1 = 1 then 0 else q.val; exact (if_pos rfl).symm
    | ⟨2, _⟩ => show j.val = if b = 1 then 0 else j.val; split <;> omega
    | ⟨3, _⟩ => show l.val = if c = 1 then 0 else l.val; split <;> omega)

/-- `[a, b, 1] → [a, b, k]`. -/
theorem bcast_ab1 {a b k : ℕ} (x : (⟨3, ![a, b, 1]⟩ : Shape).Idx → α)
    (h : (⟨3, ![a, b, 1]⟩ : Shape).Broadcasts ⟨3, ![a, b, k]⟩) (i : Fin a) (j : Fin b) (q : Fin k) :
    broadcastTo ⟨3, ![a, b, k]⟩ x h (ix3 i j q) = x (ix3 i j (0 : Fin 1)) :=
  broadcastTo_apply x h _ _ (fun ax => by
    have hi := i.isLt; have hj := j.isLt
    match ax with
    | ⟨0, _⟩ => show i.val = if a = 1 then 0 else i.val; split <;> omega
    | ⟨1, _⟩ => show j.val = if b = 1 then 0 else j.val; split <;> omega
    | ⟨2, _⟩ => show (0 : ℕ) = if 1 = 1 then 0 else q.val; exact (if_pos rfl).symm)

/-- `[a, 1, b] → [a, k, b]`. -/
theorem bcast_a1b {a b k : ℕ} (x : (⟨3, ![a, 1, b]⟩ : Shape).Idx → α)
    (h : (⟨3, ![a, 1, b]⟩ : Shape).Broadcasts ⟨3, ![a, k, b]⟩) (i : Fin a) (q : Fin k) (j : Fin b) :
    broadcastTo ⟨3, ![a, k, b]⟩ x h (ix3 i q j) = x (ix3 i (0 : Fin 1) j) :=
  broadcastTo_apply x h _ _ (fun ax => by
    have hi := i.isLt; have hj := j.isLt
    match ax with
    | ⟨0, _⟩ => show i.val = if a = 1 then 0 else i.val; split <;> omega
    | ⟨1, _⟩ => show (0 : ℕ) = if 1 = 1 then 0 else q.val; exact (if_pos rfl).symm
    | ⟨2, _⟩ => show j.val = if b = 1 then 0 else j.val; split <;> omega)

/-- `[a, b, c, 1] → [a, b, c, k]`. -/
theorem bcast_abc1 {a b c k : ℕ} (x : (⟨4, ![a, b, c, 1]⟩ : Shape).Idx → α)
    (h : (⟨4, ![a, b, c, 1]⟩ : Shape).Broadcasts ⟨4, ![a, b, c, k]⟩) (i : Fin a) (j : Fin b) (l : Fin c) (q : Fin k) :
    broadcastTo ⟨4, ![a, b, c, k]⟩ x h (ix4 i j l q) = x (ix4 i j l (0 : Fin 1)) :=
  broadcastTo_apply x h _ _ (fun ax => by
    have hi := i.isLt; have hj := j.isLt; have hl := l.isLt
    match ax with
    | ⟨0, _⟩ => show i.val = if a = 1 then 0 else i.val; split <;> omega
    | ⟨1, _⟩ => show j.val = if b = 1 then 0 else j.val; split <;> omega
    | ⟨2, _⟩ => show l.val = if c = 1 then 0 else l.val; split <;> omega
    | ⟨3, _⟩ => show (0 : ℕ) = if 1 = 1 then 0 else q.val; exact (if_pos rfl).symm)

/-- `[1, 1] → [1, k]`. -/
theorem bcast_11 {k : ℕ} (x : (⟨2, ![1, 1]⟩ : Shape).Idx → α)
    (h : (⟨2, ![1, 1]⟩ : Shape).Broadcasts ⟨2, ![1, k]⟩) (u : Fin 1) (q : Fin k) :
    broadcastTo ⟨2, ![1, k]⟩ x h (ix2 u q) = x (ix2 (0 : Fin 1) (0 : Fin 1)) :=
  broadcastTo_apply x h _ _ (fun ax => by
    match ax with
    | ⟨0, _⟩ => show (0 : ℕ) = if 1 = 1 then 0 else u.val; exact (if_pos rfl).symm
    | ⟨1, _⟩ => show (0 : ℕ) = if 1 = 1 then 0 else q.val; exact (if_pos rfl).symm)

/-! ## A sum over one axis, at coordinates -/

section Sums
variable {φ : FTy}

/-- The last axis of three. -/
theorem sum_abc_2 {a b c : ℕ} (src : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ)
    (i : Fin a) (j : Fin b) :
    multiReduction .add [2] ⟨2, ![a, b]⟩ src acc h hφ hacc (ix2 i j) = ∑ k : Fin c, src (ix3 i j k) :=
  (Ideal.multiReduction_add_single src acc h hφ hacc (ix2 i j)).trans
    (Finset.sum_congr rfl fun k _ => congrArg src (funext fun ax => Fin.ext (by
      match ax with | ⟨0, _⟩ => rfl | ⟨1, _⟩ => rfl | ⟨2, _⟩ => rfl)))

/-- The last axis of four. -/
theorem sum_abcd_3 {a b c d : ℕ} (src : FVec Ideal ⟨4, ![a, b, c, d]⟩ φ) (acc : BitVec φ.bits)
    (h : (⟨4, ![a, b, c, d]⟩ : Shape).Reduces [3] ⟨3, ![a, b, c]⟩) (hφ : FKind.Formats φ) (hacc : acc = FKind.add.neutral φ hφ)
    (i : Fin a) (j : Fin b) (l : Fin c) :
    multiReduction .add [3] ⟨3, ![a, b, c]⟩ src acc h hφ hacc (ix3 i j l) = ∑ k : Fin d, src (ix4 i j l k) :=
  (Ideal.multiReduction_add_single src acc h hφ hacc (ix3 i j l)).trans
    (Finset.sum_congr rfl fun k _ => congrArg src (funext fun ax => Fin.ext (by
      match ax with | ⟨0, _⟩ => rfl | ⟨1, _⟩ => rfl | ⟨2, _⟩ => rfl | ⟨3, _⟩ => rfl)))

/-- The third axis of four. -/
theorem sum_abcd_2 {a b c d : ℕ} (src : FVec Ideal ⟨4, ![a, b, c, d]⟩ φ) (acc : BitVec φ.bits)
    (h : (⟨4, ![a, b, c, d]⟩ : Shape).Reduces [2] ⟨3, ![a, b, d]⟩) (hφ : FKind.Formats φ) (hacc : acc = FKind.add.neutral φ hφ)
    (i : Fin a) (j : Fin b) (l : Fin d) :
    multiReduction .add [2] ⟨3, ![a, b, d]⟩ src acc h hφ hacc (ix3 i j l) = ∑ k : Fin c, src (ix4 i j k l) :=
  (Ideal.multiReduction_add_single src acc h hφ hacc (ix3 i j l)).trans
    (Finset.sum_congr rfl fun k _ => congrArg src (funext fun ax => Fin.ext (by
      match ax with | ⟨0, _⟩ => rfl | ⟨1, _⟩ => rfl | ⟨2, _⟩ => rfl | ⟨3, _⟩ => rfl)))

/-- The last axis of two. -/
theorem sum_ab_1 {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (i : Fin a) :
    multiReduction .add [1] ⟨1, ![a]⟩ src acc h hφ hacc (ix1 i) = ∑ k : Fin b, src (ix2 i k) :=
  (Ideal.multiReduction_add_single src acc h hφ hacc (ix1 i)).trans
    (Finset.sum_congr rfl fun k _ => congrArg src (funext fun ax => Fin.ext (by
      match ax with | ⟨0, _⟩ => rfl | ⟨1, _⟩ => rfl)))

/-- The first axis of two. -/
theorem sum_ab_0 {a b : ℕ} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ)
    (j : Fin b) :
    multiReduction .add [0] ⟨1, ![b]⟩ src acc h hφ hacc (ix1 j) = ∑ k : Fin a, src (ix2 k j) :=
  (Ideal.multiReduction_add_single src acc h hφ hacc (ix1 j)).trans
    (Finset.sum_congr rfl fun k _ => congrArg src (funext fun ax => Fin.ext (by
      match ax with | ⟨0, _⟩ => rfl | ⟨1, _⟩ => rfl)))

end Sums

end PushPull.Layout
-- ==== Proof.LibMatProd.lean ====
/-
  The product of two rank-2 arrays of extended reals, entry by entry, and two ways a program spells it.

  `entry A B p q` is the sum over `l` of `A (p, l) * B (l, q)`; `mm A B` is the array of these entries.  A matrix
  unit's product of rank-2 operands accumulated onto the zero array, contracting the columns of the left operand
  against the rows of the right one, is `entry` at every pair of coordinates (`matmul_zero_entry`): the accumulator
  adds nothing and the contraction's one-axis index set is re-indexed by its coordinate.  A sum written through two
  index maps that put `(row of i, l)` on the left and `(l, column of i)` on the right is `mm` at `i` (`sum_eq_mm`).
  Everything is over generic extents; indices are built from coordinates.
-/
import Idealize.ShloMosaic.Lib.ValueIdx
import Idealize.ShloMosaic.PureOps.Ideal.Laws

noncomputable section

open scoped BigOperators

namespace MatProd

open Idealize.ShloMosaic Idealize.ShloMosaic.ValueIdx

/-- Entry `(p, q)` of the product of an `n × k` array and a `k × m` array. -/
def entry {n k m : ℕ} (A : (⟨2, ![n, k]⟩ : Shape).Idx → EReal) (B : (⟨2, ![k, m]⟩ : Shape).Idx → EReal)
    (p : Fin n) (q : Fin m) : EReal :=
  ∑ l : Fin k, A (ix2 p l) * B (ix2 l q)

/-- The product as an array: at an index, the entry at that index's two coordinates. -/
def mm {n k m : ℕ} (A : (⟨2, ![n, k]⟩ : Shape).Idx → EReal) (B : (⟨2, ![k, m]⟩ : Shape).Idx → EReal) :
    (⟨2, ![n, m]⟩ : Shape).Idx → EReal :=
  fun i => entry A B ⟨(i 0).val, idx2_lt0 i⟩ ⟨(i 1).val, idx2_lt1 i⟩

/-- At an index given by its coordinates the product array reads the entry. -/
theorem mm_ix2 {n k m : ℕ} (A : (⟨2, ![n, k]⟩ : Shape).Idx → EReal) (B : (⟨2, ![k, m]⟩ : Shape).Idx → EReal)
    (p : Fin n) (q : Fin m) : mm A B (ix2 p q) = entry A B p q := rfl

/-- A sum over `l` of a left factor read at `(row of i, l)` times a right factor read at `(l, column of i)` is the
    product array at `i`, however the two index maps are spelt. -/
theorem sum_eq_mm {n k m : ℕ} (A : (⟨2, ![n, k]⟩ : Shape).Idx → EReal) (B : (⟨2, ![k, m]⟩ : Shape).Idx → EReal)
    (i : (⟨2, ![n, m]⟩ : Shape).Idx) (li : Fin k → (⟨2, ![n, k]⟩ : Shape).Idx) (ri : Fin k → (⟨2, ![k, m]⟩ : Shape).Idx)
    (hl : ∀ l, li l = ix2 ⟨(i 0).val, idx2_lt0 i⟩ l) (hr : ∀ l, ri l = ix2 l ⟨(i 1).val, idx2_lt1 i⟩) :
    ∑ l : Fin k, A (li l) * B (ri l) = mm A B i :=
  Finset.sum_congr rfl fun l _ => by rw [hl l, hr l]

/-- A matrix unit's product of rank-2 operands onto the zero accumulator is the product's entry.  `hr`, `hs`: one
    axis of extent `k` is contracted.  `hl0` … `hr1`: the left operand is read at (row of the result, contracted
    coordinate), the right operand at (contracted coordinate, column of the result). -/
theorem matmul_zero_entry {n k m : ℕ} {φ₁ φ₂ : FTy}
    (d : DotDims (⟨2, ![n, k]⟩ : Shape) (⟨2, ![k, m]⟩ : Shape) (⟨2, ![n, m]⟩ : Shape)) (prec : Option ContractPrecision)
    (hr : d.contr.rank = 1) (hs : d.contr.size ⟨0, by omega⟩ = k)
    (hl0 : ∀ (j : (⟨2, ![n, m]⟩ : Shape).Idx) (c : d.contr.Idx), (d.lhsIdx j c 0).val = (j 0).val)
    (hl1 : ∀ (j : (⟨2, ![n, m]⟩ : Shape).Idx) (c : d.contr.Idx), (d.lhsIdx j c 1).val = (c ⟨0, by omega⟩).val)
    (hr0 : ∀ (j : (⟨2, ![n, m]⟩ : Shape).Idx) (c : d.contr.Idx), (d.rhsIdx j c 0).val = (c ⟨0, by omega⟩).val)
    (hr1 : ∀ (j : (⟨2, ![n, m]⟩ : Shape).Idx) (c : d.contr.Idx), (d.rhsIdx j c 1).val = (j 1).val)
    (lhs : FVec Ideal (⟨2, ![n, k]⟩ : Shape) φ₁) (rhs : FVec Ideal (⟨2, ![k, m]⟩ : Shape) φ₂) (p : Fin n) (q : Fin m) :
    FloatOps.matmul d prec lhs rhs (constant (F := Ideal) (⟨2, ![n, m]⟩ : Shape) .f32 0x00000000#32) (ix2 p q)
      = entry lhs rhs p q := by
  rw [Ideal.matmul_constant_zero_apply, ← Equiv.sum_comp (contrEquiv1 d k hr hs).symm]
  unfold entry
  refine Finset.sum_congr rfl fun l _ => ?_
  have hk := contrEquiv1_symm_val d k hr hs l
  have el : d.lhsIdx (ix2 p q) ((contrEquiv1 d k hr hs).symm l) = ix2 p l := funext fun a => Fin.ext (by
    match a with
    | ⟨0, _⟩ => exact hl0 _ _
    | ⟨1, _⟩ => exact (hl1 _ _).trans hk)
  have er : d.rhsIdx (ix2 p q) ((contrEquiv1 d k hr hs).symm l) = ix2 l q := funext fun a => Fin.ext (by
    match a with
    | ⟨0, _⟩ => exact (hr0 _ _).trans hk
    | ⟨1, _⟩ => exact hr1 _ _)
  rw [el, er]

end MatProd

end
-- ==== Proof.LibRowCol.lean ====
/-
  A vector seen as a one-column or a one-row array, and the layout operations that compute those views.

  `colOf y` is the `[n, 1]` array whose entry `(p, 0)` is `y p`; `rowOf b` the `[1, k]` array whose entry `(0, q)` is
  `b q`.  A reshape of `[n]` to `[n, 1]` is the column view and a reshape of `[k]` to `[1, k]` the row view
  (`shapeCast_col`, `shapeCast_row`); a view read at an index is the vector at ANY index with the same coordinate
  (`colOf_eq`, `rowOf_eq`), which is how a chain of broadcasts that ends in the vector is matched with the view.
  An `[a, 1]` array broadcast to `[a, b]` reads its one column in the row (`broadcastTo_a1_ab_apply`), and an `[a]`
  array cast to `[a, 1]` reads the vector in the row (`shapeCast_a_a1_apply`).  Over generic extents; indices are built
  from coordinates.
-/
import Idealize.ShloMosaic.Lib.Pipeline.Value
import Idealize.ShloMosaic.Lib.ValueIdx
import Idealize.ShloMosaic.Lib.ValueLayout

noncomputable section

namespace RowCol

open Idealize.ShloMosaic Idealize.ShloMosaic.ValueIdx

/-! ## Layout operations at coordinates -/

section Layout
variable {α : Type}

/-- An `[a, 1]` array broadcast to `[a, b]` reads, at `(p, c)`, the operand's one column at `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if 1 = 1 then 0 else c.val
    exact (if_pos rfl).symm

/-- An `[a]` array cast to `[a, 1]` reads, at `(i, u)`, the operand at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

end Layout

/-! ## Column and row views of a vector of extended reals -/

/-- A vector as a one-column array. -/
def colOf {n : ℕ} (y : (⟨1, ![n]⟩ : Shape).Idx → EReal) : (⟨2, ![n, 1]⟩ : Shape).Idx → EReal :=
  fun i => y (ix1 ⟨(i 0).val, idx2_lt0 i⟩)

/-- A vector as a one-row array. -/
def rowOf {k : ℕ} (b : (⟨1, ![k]⟩ : Shape).Idx → EReal) : (⟨2, ![1, k]⟩ : Shape).Idx → EReal :=
  fun i => b (ix1 ⟨(i 1).val, idx2_lt1 i⟩)

theorem colOf_ix2 {n : ℕ} (y : (⟨1, ![n]⟩ : Shape).Idx → EReal) (p : Fin n) (u : Fin 1) : colOf y (ix2 p u) = y (ix1 p) := rfl
theorem rowOf_ix2 {k : ℕ} (b : (⟨1, ![k]⟩ : Shape).Idx → EReal) (u : Fin 1) (q : Fin k) : rowOf b (ix2 u q) = b (ix1 q) := rfl

/-- The column view at an index is the vector at any index with the same row number. -/
theorem colOf_eq {n : ℕ} (y : (⟨1, ![n]⟩ : Shape).Idx → EReal) (i : (⟨2, ![n, 1]⟩ : Shape).Idx) (k : (⟨1, ![n]⟩ : Shape).Idx)
    (hk : (k 0).val = (i 0).val) : colOf y i = y k :=
  congrArg y (funext fun a => Fin.ext (match a with | ⟨0, _⟩ => hk.symm))

/-- The row view at an index is the vector at any index with the same column number. -/
theorem rowOf_eq {k : ℕ} (b : (⟨1, ![k]⟩ : Shape).Idx → EReal) (i : (⟨2, ![1, k]⟩ : Shape).Idx) (l : (⟨1, ![k]⟩ : Shape).Idx)
    (hl : (l 0).val = (i 1).val) : rowOf b i = b l :=
  congrArg b (funext fun a => Fin.ext (match a with | ⟨0, _⟩ => hl.symm))

/-- A reshape of a vector to one column is its column view. -/
theorem shapeCast_col {n : ℕ} (y : (⟨1, ![n]⟩ : Shape).Idx → EReal) (h : (⟨1, ![n]⟩ : Shape).ShapeCasts ⟨2, ![n, 1]⟩) :
    shapeCast ⟨2, ![n, 1]⟩ y h = colOf y := by
  funext i
  obtain ⟨p, u, rfl⟩ : ∃ (p : Fin n) (u : Fin 1), i = ix2 p u := ⟨i 0, i 1, eq_ix2 i⟩
  rw [shapeCast_a_a1_apply, colOf_ix2]

/-- A reshape of a vector to one row is its row view. -/
theorem shapeCast_row {k : ℕ} (b : (⟨1, ![k]⟩ : Shape).Idx → EReal) (h : (⟨1, ![k]⟩ : Shape).ShapeCasts ⟨2, ![1, k]⟩) :
    shapeCast ⟨2, ![1, k]⟩ b h = rowOf b := by
  funext i
  obtain ⟨u, q, rfl⟩ : ∃ (u : Fin 1) (q : Fin k), i = ix2 u q := ⟨i 0, i 1, eq_ix2 i⟩
  rw [shapeCast_a_1a_apply, rowOf_ix2]

end RowCol

end
-- ==== Proof.DistBlock.lean ====
import proofs.«106771_j67276367724779_2_alg».proof.Proof.Gen.KernelIdeal.Skeleton
import proofs.«106771_j67276367724779_2_alg».proof.Proof.Gen.ReferenceIdeal.Read
import proofs.«106771_j67276367724779_2_alg».proof.Proof.LibLayout
import proofs.«106771_j67276367724779_2_alg».proof.Proof.LibMatProd
import proofs.«106771_j67276367724779_2_alg».proof.Proof.LibRowCol
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Bridge.Dist

open Idealize.ShloMosaic Idealize.ShloMosaic.ValueIdx

/-! ## The distance matrix of a block, as a formula in its entries -/

/-- The Gram entry `(n, m)` of a `1024 × 512` array: the sum over rows `c` of `X c n * X c m`. -/
def gram (X : Fin 1024 → Fin 512 → EReal) (n m : Fin 512) : EReal :=
  ∑ c : Fin 1024, X c n * X c m

/-- The Gram matrix is symmetric, because multiplication commutes. -/
theorem gram_comm (X : Fin 1024 → Fin 512 → EReal) (n m : Fin 512) : gram X n m = gram X m n :=
  Finset.sum_congr rfl fun _ _ => mul_comm _ _

/-- The squared norm of row `n` of the Gram matrix. -/
def sqn (X : Fin 1024 → Fin 512 → EReal) (n : Fin 512) : EReal :=
  ∑ k : Fin 512, gram X n k * gram X n k

/-- Entry `(n, m)` of the Gram matrix times itself. -/
def gsq (X : Fin 1024 → Fin 512 → EReal) (n m : Fin 512) : EReal :=
  ∑ k : Fin 512, gram X n k * gram X k m

/-- The distance entry: the square root of the squared distance between rows `n` and `m` of the Gram matrix,
    clamped below by a positive constant. The two float constants are kept as the words the programs print. -/
def dist (X : Fin 1024 → Fin 512 → EReal) (n m : Fin 512) : EReal :=
  Ideal.sqrt (max ((sqn X n + sqn X m) - Ideal.ofBits .f32 0x40000000#32 * gsq X n m)
    (Ideal.ofBits .f32 0x2B8CBCCC#32))

/-! ## A matrix unit's product contracting the ROWS of both operands -/

/-- A matrix unit's product of rank-2 operands onto the zero accumulator, contracting axis 0 of the left operand
    against axis 0 of the right one: entry `(p, q)` is the sum over `l` of `lhs (l, p) * rhs (l, q)`. -/
theorem matmul_zero_rows {k n m : ℕ} {φ₁ φ₂ : FTy}
    (d : DotDims (⟨2, ![k, n]⟩ : Shape) (⟨2, ![k, m]⟩ : Shape) (⟨2, ![n, m]⟩ : Shape)) (prec : Option ContractPrecision)
    (hr : d.contr.rank = 1) (hs : d.contr.size ⟨0, by omega⟩ = k)
    (hl0 : ∀ (j : (⟨2, ![n, m]⟩ : Shape).Idx) (c : d.contr.Idx), (d.lhsIdx j c 0).val = (c ⟨0, by omega⟩).val)
    (hl1 : ∀ (j : (⟨2, ![n, m]⟩ : Shape).Idx) (c : d.contr.Idx), (d.lhsIdx j c 1).val = (j 0).val)
    (hr0 : ∀ (j : (⟨2, ![n, m]⟩ : Shape).Idx) (c : d.contr.Idx), (d.rhsIdx j c 0).val = (c ⟨0, by omega⟩).val)
    (hr1 : ∀ (j : (⟨2, ![n, m]⟩ : Shape).Idx) (c : d.contr.Idx), (d.rhsIdx j c 1).val = (j 1).val)
    (lhs : FVec Ideal (⟨2, ![k, n]⟩ : Shape) φ₁) (rhs : FVec Ideal (⟨2, ![k, m]⟩ : Shape) φ₂) (p : Fin n) (q : Fin m) :
    FloatOps.matmul d prec lhs rhs (constant (F := Ideal) (⟨2, ![n, m]⟩ : Shape) .f32 0x00000000#32) (ix2 p q)
      = ∑ l : Fin k, lhs (ix2 l p) * rhs (ix2 l q) := by
  rw [Ideal.matmul_constant_zero_apply, ← Equiv.sum_comp (contrEquiv1 d k hr hs).symm]
  refine Finset.sum_congr rfl fun l _ => ?_
  have hk := contrEquiv1_symm_val d k hr hs l
  have el : d.lhsIdx (ix2 p q) ((contrEquiv1 d k hr hs).symm l) = ix2 l p := funext fun a => Fin.ext (by
    match a with
    | ⟨0, _⟩ => exact (hl0 _ _).trans hk
    | ⟨1, _⟩ => exact hl1 _ _)
  have er : d.rhsIdx (ix2 p q) ((contrEquiv1 d k hr hs).symm l) = ix2 l q := funext fun a => Fin.ext (by
    match a with
    | ⟨0, _⟩ => exact (hr0 _ _).trans hk
    | ⟨1, _⟩ => exact hr1 _ _)
  rw [el, er]

/-! ## The kernel's block at an index -/

section Kernel
open Cert.KernelIdeal Cert.KernelIdeal.Gen

/-- The kernel's first product (rows of the block against rows of the block) at `(p, q)`. -/
theorem kernel_gram (v : FVec Ideal S1024x512 .f32) (p q : Fin 512) :
    matmul dot_S1024x512_S1024x512_S512x512_0_0_1_1_n_n none v v (constant (F := Ideal) S512x512 .f32 0x00000000#32) (ix2 p q)
      = ∑ l : Fin 1024, v (ix2 l p) * v (ix2 l q) :=
  matmul_zero_rows dot_S1024x512_S1024x512_S512x512_0_0_1_1_n_n none rfl rfl
    (fun j c => dot_S1024x512_S1024x512_S512x512_0_0_1_1_n_n.lhsIdx_val_of_single rfl j c)
    (fun j c => by
      unfold DotDims.lhsIdx
      rw [dif_neg (show ¬(1 : Fin S1024x512.rank) ∈ dot_S1024x512_S1024x512_S512x512_0_0_1_1_n_n.lhsBatch by decide),
        dif_pos (show (1 : Fin S1024x512.rank) ∈ dot_S1024x512_S1024x512_S512x512_0_0_1_1_n_n.lhsNonContracting by decide)]
      rfl)
    (fun j c => dot_S1024x512_S1024x512_S512x512_0_0_1_1_n_n.rhsIdx_val_of_single rfl j c)
    (fun j c => by
      unfold DotDims.rhsIdx
      rw [dif_neg (show ¬(1 : Fin S1024x512.rank) ∈ dot_S1024x512_S1024x512_S512x512_0_0_1_1_n_n.rhsBatch by decide),
        dif_pos (show (1 : Fin S1024x512.rank) ∈ dot_S1024x512_S1024x512_S512x512_0_0_1_1_n_n.rhsNonContracting by decide)]
      rfl)
    v v p q

/-- The kernel's second product (columns of the left operand against rows of the right one) at `(p, q)`. -/
theorem kernel_square (v : FVec Ideal S512x512 .f32) (p q : Fin 512) :
    matmul dot_S512x512_S512x512_S512x512_1_0_0_1_n_n none v v (constant (F := Ideal) S512x512 .f32 0x00000000#32) (ix2 p q)
      = ∑ l : Fin 512, v (ix2 p l) * v (ix2 l q) :=
  MatProd.matmul_zero_entry dot_S512x512_S512x512_S512x512_1_0_0_1_n_n none rfl rfl
    (fun j c => by
      unfold DotDims.lhsIdx
      rw [dif_neg (show ¬(0 : Fin S512x512.rank) ∈ dot_S512x512_S512x512_S512x512_1_0_0_1_n_n.lhsBatch by decide),
        dif_pos (show (0 : Fin S512x512.rank) ∈ dot_S512x512_S512x512_S512x512_1_0_0_1_n_n.lhsNonContracting by decide)]
      rfl)
    (fun j c => dot_S512x512_S512x512_S512x512_1_0_0_1_n_n.lhsIdx_val_of_single rfl j c)
    (fun j c => dot_S512x512_S512x512_S512x512_1_0_0_1_n_n.rhsIdx_val_of_single rfl j c)
    (fun j c => by
      unfold DotDims.rhsIdx
      rw [dif_neg (show ¬(1 : Fin S512x512.rank) ∈ dot_S512x512_S512x512_S512x512_1_0_0_1_n_n.rhsBatch by decide),
        dif_pos (show (1 : Fin S512x512.rank) ∈ dot_S512x512_S512x512_S512x512_1_0_0_1_n_n.rhsNonContracting by decide)]
      rfl)
    v v p q

end Kernel

/-! ## The kernel's payload at an index -/

section KernelPayload
open Cert.KernelIdeal Cert.KernelIdeal.Gen

/-- A square root at an index is the square root of the element. -/
theorem sqrt_apply {s : Shape} {φ : FTy} (a : FVec Ideal s φ) (i : s.Idx) : sqrt a i = Ideal.sqrt (a i) := rfl

/-- The kernel's sum over the columns of a `512 × 512` array, at row `p`. -/
theorem kernel_rowsum (v : FVec Ideal S512x512 .f32) (hφ : FKind.Formats .f32)
    (hacc : (0x00000000#32 : BitVec 32) = 0x00000000#32) (p : Fin 512) :
    multiReduction .add [1] S512 v 0x00000000#32 reduces_S512x512_S512 hφ hacc (ix1 p)
      = ∑ k : Fin 512, v (ix2 p k) :=
  PushPull.Layout.sum_ab_1 v 0x00000000#32 reduces_S512x512_S512 hφ hacc p

/-- The kernel's Gram matrix of the block, at `(p, q)`. -/
theorem kernel_gram_block (x0 : Vec Ideal S1x1024x512 .f32) (p q : Fin 512) :
    matmul (φ₁ := .f32) (φ₂ := .f32) dot_S1024x512_S1024x512_S512x512_0_0_1_1_n_n none
        (shapeCast S1024x512 x0 shapeCasts_S1x1024x512_S1024x512 : FVec Ideal S1024x512 .f32)
        (shapeCast S1024x512 x0 shapeCasts_S1x1024x512_S1024x512 : FVec Ideal S1024x512 .f32)
        (constant (F := Ideal) S512x512 .f32 0x00000000#32) (ix2 p q)
      = gram (fun c j => x0 (ix3 (0 : Fin 1) c j)) p q := by
  rw [kernel_gram]
  unfold gram
  refine Finset.sum_congr rfl fun l _ => ?_
  rw [shapeCast_1ab_ab_apply, shapeCast_1ab_ab_apply]

/-- The kernel's payload at `(0, n, m)` is the distance entry of the block's rows. -/
theorem k0_pay1_apply (x0 : Vec Ideal S1x1024x512 .f32) (n m : Fin 512) :
    k0_pay1 (F := Ideal) x0 (ix3 (0 : Fin 1) n m) = dist (fun c j => x0 (ix3 (0 : Fin 1) c j)) n m := by
  unfold k0_pay1
  rw [shapeCast_ab_1ab_apply, sqrt_apply, maximumf_apply, subf_apply, addf_apply, mulf_apply, broadcast_apply,
    broadcast_apply, RowCol.broadcastTo_a1_ab_apply, RowCol.shapeCast_a_a1_apply, kernel_rowsum,
    broadcastTo_1b_ab_apply, transpose_ix2_apply, RowCol.shapeCast_a_a1_apply, kernel_rowsum, kernel_square]
  simp only [mulf_apply, kernel_gram_block]
  rfl

end KernelPayload

/-! ## The reference's stage at an index -/

section Reference
open Cert.ReferenceIdeal Cert.ReferenceIdeal.Read

/-- The reference's batched Gram matrix at `(b, p, q)`. -/
theorem ref_gram (x2 : FVec Ideal S32x1024x512 .f32) (b : Fin 32) (p q : Fin 512) :
    val_main_v1 (F := Ideal) x2 (ix3 b p q) = gram (fun c j => x2 (ix3 b c j)) p q := by
  rw [val_main_v1_apply]
  unfold gram
  refine Finset.sum_congr rfl fun c _ => ?_
  rw [val_main_v0_apply, val_main_v0_apply]
  have el : idx_main_v0 (lidx_main_v1 (ix3 b p q) c) = ix3 b c p := funext fun a => by
    match a with | ⟨0, _⟩ => rfl | ⟨1, _⟩ => rfl | ⟨2, _⟩ => rfl
  have er : idx_main_v0 (ridx_main_v1 (ix3 b p q) c) = ix3 b c q := funext fun a => by
    match a with | ⟨0, _⟩ => rfl | ⟨1, _⟩ => rfl | ⟨2, _⟩ => rfl
  rw [el, er]

/-- The reference's row sums of squares at `(b, p)`: the initial value is the zero word. -/
theorem ref_sqn (x2 : FVec Ideal S32x1024x512 .f32) (b : Fin 32) (p : Fin 512) :
    val_main_v3 (F := Ideal) x2 (ix2 b p) = sqn (fun c j => x2 (ix3 b c j)) p := by
  rw [val_main_v3_apply, val_main_cst_apply]
  show Ideal.ofBits .f32 0x00000000#32 + _ = _
  rw [Ideal.ofBits_zero_f32, zero_add]
  unfold sqn
  refine Finset.sum_congr rfl fun k _ => ?_
  have e : idx_main_v3 (ix2 b p) k = ix3 b p k := funext fun a => by
    match a with | ⟨0, _⟩ => rfl | ⟨1, _⟩ => rfl | ⟨2, _⟩ => rfl
  rw [e, val_main_v2_apply, ref_gram]
  rfl

/-- The reference's second product at `(b, p, q)` contracts the LAST axes of both operands; it is the Gram matrix
    times itself because the Gram matrix is symmetric. -/
theorem ref_gsq (x2 : FVec Ideal S32x1024x512 .f32) (b : Fin 32) (p q : Fin 512) :
    val_main_v4 (F := Ideal) x2 (ix3 b p q) = gsq (fun c j => x2 (ix3 b c j)) p q := by
  rw [val_main_v4_apply]
  unfold gsq
  refine Finset.sum_congr rfl fun k _ => ?_
  have el : lidx_main_v4 (ix3 b p q) k = ix3 b p k := funext fun a => by
    match a with | ⟨0, _⟩ => rfl | ⟨1, _⟩ => rfl | ⟨2, _⟩ => rfl
  have er : ridx_main_v4 (ix3 b p q) k = ix3 b q k := funext fun a => by
    match a with | ⟨0, _⟩ => rfl | ⟨1, _⟩ => rfl | ⟨2, _⟩ => rfl
  rw [el, er, ref_gram, ref_gram, gram_comm _ q k]

/-- The reference's distance stage at `(b, n, m)`. -/
theorem ref_dist (x2 : FVec Ideal S32x1024x512 .f32) (b : Fin 32) (n m : Fin 512) :
    val_main_v15 (F := Ideal) x2 (ix3 b n m) = dist (fun c j => x2 (ix3 b c j)) n m := by
  rw [val_main_v15_apply, val_main_v14_apply, val_main_v12_apply, val_main_v9_apply, val_main_v11_apply,
    val_main_v7_apply, val_main_v5_apply, val_main_v8_apply, val_main_v6_apply, val_main_v10_apply,
    val_main_cst_0_apply, val_main_v13_apply, val_main_cst_1_apply]
  have e7 : idx_main_v5 (idx_main_v7 (ix3 b n m)) = ix2 b n := funext fun a => by
    match a with | ⟨0, _⟩ => rfl | ⟨1, _⟩ => rfl
  have e8 : idx_main_v6 (idx_main_v8 (ix3 b n m)) = ix2 b m := funext fun a => by
    match a with | ⟨0, _⟩ => rfl | ⟨1, _⟩ => rfl
  rw [e7, e8, ref_sqn, ref_sqn, ref_gsq]
  rfl

end Reference

/-! ## The two sides meet -/

/-- On a block that is batch `b` of the reference's array, the kernel's payload at `(0, n, m)` is the reference's
    distance stage at `(b, n, m)`: both are the distance entry of the same `1024 × 512` array. -/
theorem dist_block (x2 : FVec Ideal Cert.ReferenceIdeal.S32x1024x512 .f32)
    (x0 : Vec Ideal Cert.KernelIdeal.S1x1024x512 .f32) (b : Fin 32)
    (hx : ∀ (c : Fin 1024) (n : Fin 512), x0 (ValueIdx.ix3 (0 : Fin 1) c n) = x2 (ValueIdx.ix3 b c n)) (n m : Fin 512) :
    Cert.KernelIdeal.Gen.k0_pay1 (F := Ideal) x0 (ValueIdx.ix3 (0 : Fin 1) n m)
      = Cert.ReferenceIdeal.Read.val_main_v15 (F := Ideal) x2 (ValueIdx.ix3 b n m) := by
  rw [k0_pay1_apply, ref_dist]
  exact congrArg (fun X => dist X n m) (funext fun c => funext fun j => hx c j)

end Cert.Bridge.Dist

end
-- ==== Proof.MatAcc.lean ====
/-
  A product of a [32, 262144] array by a [262144, 256] array computed in blocks.

  For one half `j` of the 256 columns (128 columns) the contraction axis of extent 262144 is walked in 16 blocks of
  16384: an accumulator of shape [32, 128] is set to zero and, block after block, receives the product of the
  [32, 16384] block of the left operand by the [16384, 128] block of the right operand.  After the last block the
  accumulator holds, at every (row, column), the one-shot contraction over all 262144 positions (`mm_blocks`).

  The argument: a finite sum over `m * n` consecutive positions is the sum over the `m` blocks of the sums over
  each block's `n` positions (`sum_blocks`); an accumulator that starts at the first term and adds one term per
  step ends at the sum of all terms (`acc_sum`); one step of the accumulator adds the block's product entry
  (`pay2_apply`) and the initial accumulator is zero (`pay1_apply`).  Only commutativity and associativity of
  addition, `0 + x = x`, and re-indexing of finite sums are used; nothing needs to be finite.
-/
import proofs.«106771_j67276367724779_2_alg».proof.Proof.Gen.KernelIdeal.Skeleton
import proofs.«106771_j67276367724779_2_alg».proof.Proof.Gen.ReferenceIdeal.Read
import proofs.«106771_j67276367724779_2_alg».proof.Proof.LibMatProd
import Idealize.ShloMosaic.Lib.ValueIdx
import Idealize.ShloMosaic.Lib.Pipeline.Value
import Idealize.ShloMosaic.PureOps.Ideal.Laws

noncomputable section

open scoped BigOperators

namespace Cert.Bridge.Acc

open Idealize.ShloMosaic Idealize.ShloMosaic.ValueIdx

/-! ## Finite sums in blocks -/

/-- A position inside block `i` of `m` consecutive blocks of length `n` lies below `m * n`. -/
theorem blk_lt {m n : ℕ} (i : Fin m) (j : Fin n) : i.val * n + j.val < m * n := by
  have hi := i.isLt
  have hj := j.isLt
  calc i.val * n + j.val < i.val * n + n := by omega
    _ = (i.val + 1) * n := by ring
    _ ≤ m * n := Nat.mul_le_mul_right n hi

/-- A sum over `m * n` consecutive positions is the sum over the `m` blocks of the sums over each block's `n`
    positions. -/
theorem sum_blocks {M : Type*} [AddCommMonoid M] (m n : ℕ) (f : Fin (m * n) → M) :
    ∑ k : Fin (m * n), f k = ∑ i : Fin m, ∑ j : Fin n, f ⟨i.val * n + j.val, blk_lt i j⟩ := by
  rw [← Equiv.sum_comp finProdFinEquiv f, Fintype.sum_prod_type]
  refine Finset.sum_congr rfl fun i _ => Finset.sum_congr rfl fun j _ => ?_
  refine congrArg f (Fin.ext ?_)
  show j.val + n * i.val = i.val * n + j.val
  rw [Nat.mul_comm, Nat.add_comm]

/-- The same regrouping at the extents of this contraction: 262144 positions are 16 blocks of 16384. -/
theorem sum_262144 {M : Type*} [AddCommMonoid M] (f : Fin 262144 → M) :
    ∑ k : Fin 262144, f k
      = ∑ kb : Fin 16, ∑ kk : Fin 16384, f ⟨kb.val * 16384 + kk.val, blk_lt (m := 16) (n := 16384) kb kk⟩ :=
  sum_blocks 16 16384 f

/-- An accumulator that starts at the first term and adds one term per step ends at the sum of all terms. -/
theorem acc_sum {M : Type*} [AddCommMonoid M] : ∀ (N : ℕ) (a P : Fin (N + 1) → M),
    a 0 = P 0 → (∀ k : Fin N, a k.succ = a k.castSucc + P k.succ) → a (Fin.last N) = ∑ i, P i
  | 0, a, P, h0, _ => by
      rw [Fin.sum_univ_one]; exact h0
  | N + 1, a, P, h0, hs => by
      have ih := acc_sum N (fun k => a k.castSucc) (fun k => P k.castSucc) h0
        (fun k => by
          have := hs k.castSucc
          rw [Fin.succ_castSucc] at this
          exact this)
      rw [Fin.sum_univ_castSucc, ← ih, ← Fin.succ_last, hs (Fin.last N)]

/-! ## The block product's contraction: where its operands are read -/

/-- The left operand of the block product is read at the row of the result. -/
theorem blk_lhs_0 (i : Cert.KernelIdeal.S32x128.Idx)
    (q : Cert.KernelIdeal.dot_S32x16384_S16384x128_S32x128_1_0_0_1_n_n.contr.Idx) :
    (Cert.KernelIdeal.dot_S32x16384_S16384x128_S32x128_1_0_0_1_n_n.lhsIdx i q 0).val = (i 0).val := by
  unfold DotDims.lhsIdx
  rw [dif_neg (show ¬(0 : Fin Cert.KernelIdeal.S32x16384.rank) ∈ Cert.KernelIdeal.dot_S32x16384_S16384x128_S32x128_1_0_0_1_n_n.lhsBatch by decide),
    dif_pos (show (0 : Fin Cert.KernelIdeal.S32x16384.rank) ∈ Cert.KernelIdeal.dot_S32x16384_S16384x128_S32x128_1_0_0_1_n_n.lhsNonContracting by decide)]
  rfl

/-- … and at the contracted coordinate. -/
theorem blk_lhs_1 (i : Cert.KernelIdeal.S32x128.Idx)
    (q : Cert.KernelIdeal.dot_S32x16384_S16384x128_S32x128_1_0_0_1_n_n.contr.Idx) :
    (Cert.KernelIdeal.dot_S32x16384_S16384x128_S32x128_1_0_0_1_n_n.lhsIdx i q 1).val = (q ⟨0, by decide⟩).val :=
  Cert.KernelIdeal.dot_S32x16384_S16384x128_S32x128_1_0_0_1_n_n.lhsIdx_val_of_single rfl i q

/-- The right operand of the block product is read at the contracted coordinate … -/
theorem blk_rhs_0 (i : Cert.KernelIdeal.S32x128.Idx)
    (q : Cert.KernelIdeal.dot_S32x16384_S16384x128_S32x128_1_0_0_1_n_n.contr.Idx) :
    (Cert.KernelIdeal.dot_S32x16384_S16384x128_S32x128_1_0_0_1_n_n.rhsIdx i q 0).val = (q ⟨0, by decide⟩).val :=
  Cert.KernelIdeal.dot_S32x16384_S16384x128_S32x128_1_0_0_1_n_n.rhsIdx_val_of_single rfl i q

/-- … and at the column of the result. -/
theorem blk_rhs_1 (i : Cert.KernelIdeal.S32x128.Idx)
    (q : Cert.KernelIdeal.dot_S32x16384_S16384x128_S32x128_1_0_0_1_n_n.contr.Idx) :
    (Cert.KernelIdeal.dot_S32x16384_S16384x128_S32x128_1_0_0_1_n_n.rhsIdx i q 1).val = (i 1).val := by
  unfold DotDims.rhsIdx
  rw [dif_neg (show ¬(1 : Fin Cert.KernelIdeal.S16384x128.rank) ∈ Cert.KernelIdeal.dot_S32x16384_S16384x128_S32x128_1_0_0_1_n_n.rhsBatch by decide),
    dif_pos (show (1 : Fin Cert.KernelIdeal.S16384x128.rank) ∈ Cert.KernelIdeal.dot_S32x16384_S16384x128_S32x128_1_0_0_1_n_n.rhsNonContracting by decide)]
  rfl

/-! ## The two accumulator payloads at an index -/

/-- The initial accumulator is zero everywhere. -/
theorem pay1_apply (b : Fin 32) (o : Fin 128) :
    Cert.KernelIdeal.Gen.k1_pay1 (F := Ideal) (ix2 b o) = 0 := by
  unfold Cert.KernelIdeal.Gen.k1_pay1
  simp only [shapeCast_self]
  rw [broadcast_apply]
  exact Ideal.ofBits_zero_f32

/-- One step: the accumulator plus the entry of the block product. -/
theorem pay2_apply (acc : Vec Ideal Cert.KernelIdeal.S32x128 .f32) (d : Vec Ideal Cert.KernelIdeal.S32x16384 .f32)
    (w : Vec Ideal Cert.KernelIdeal.S16384x128 .f32) (b : Fin 32) (o : Fin 128) :
    Cert.KernelIdeal.Gen.k1_pay2 (F := Ideal) acc d w (ix2 b o)
      = acc (ix2 b o) + ∑ kk : Fin 16384, d (ix2 b kk) * w (ix2 kk o) := by
  unfold Cert.KernelIdeal.Gen.k1_pay2
  simp only [shapeCast_self]
  rw [addf_apply]
  exact congrArg (acc (ix2 b o) + ·)
    (MatProd.matmul_zero_entry Cert.KernelIdeal.dot_S32x16384_S16384x128_S32x128_1_0_0_1_n_n none rfl rfl
      blk_lhs_0 blk_lhs_1 blk_rhs_0 blk_rhs_1 d w b o)

/-! ## The one-shot contraction at an index -/

/-- The contraction of a [32, 262144] array with a [262144, 256] array, at (row, column): the sum over the
    contracted position of the products. -/
theorem dot_apply (dflat : FVec Ideal Cert.ReferenceIdeal.S32x262144 .f32) (W : FVec Ideal Cert.ReferenceIdeal.S262144x256 .f32)
    (p : Fin 32) (q : Fin 256) :
    Host.dotGeneral (F := Ideal) Cert.ReferenceIdeal.dot_S32x262144_S262144x256_S32x256_1_0_0_1_n_n none dflat W (ix2 p q)
      = ∑ k : Fin 262144, dflat (ix2 p k) * W (ix2 k q) := by
  simp only [Host.dotGeneral]
  rw [Ideal.dotGeneral_apply,
    ← Equiv.sum_comp (contrEquiv1 Cert.ReferenceIdeal.dot_S32x262144_S262144x256_S32x256_1_0_0_1_n_n 262144 rfl rfl).symm]
  refine Finset.sum_congr rfl fun k _ => ?_
  have hk := contrEquiv1_symm_val Cert.ReferenceIdeal.dot_S32x262144_S262144x256_S32x256_1_0_0_1_n_n 262144 rfl rfl k
  have el : Cert.ReferenceIdeal.dot_S32x262144_S262144x256_S32x256_1_0_0_1_n_n.lhsIdx (ix2 p q)
      ((contrEquiv1 Cert.ReferenceIdeal.dot_S32x262144_S262144x256_S32x256_1_0_0_1_n_n 262144 rfl rfl).symm k) = ix2 p k :=
    funext fun a => Fin.ext (by
      match a with
      | ⟨0, _⟩ => exact Cert.ReferenceIdeal.Read.lhs_main_v17_0 _ _
      | ⟨1, _⟩ => exact (Cert.ReferenceIdeal.Read.lhs_main_v17_1 _ _).trans hk)
  have er : Cert.ReferenceIdeal.dot_S32x262144_S262144x256_S32x256_1_0_0_1_n_n.rhsIdx (ix2 p q)
      ((contrEquiv1 Cert.ReferenceIdeal.dot_S32x262144_S262144x256_S32x256_1_0_0_1_n_n 262144 rfl rfl).symm k) = ix2 k q :=
    funext fun a => Fin.ext (by
      match a with
      | ⟨0, _⟩ => exact (Cert.ReferenceIdeal.Read.rhs_main_v17_0 _ _).trans hk
      | ⟨1, _⟩ => exact Cert.ReferenceIdeal.Read.rhs_main_v17_1 _ _)
  rw [el, er]

/-! ## The blocked product is the one-shot contraction -/

/-- Sixteen accumulation steps over the blocks of the contracted axis, for the column half `j`, end at the one-shot
    contraction's entry in column `j * 128 + o`. -/
theorem mm_blocks (dflat : FVec Ideal Cert.ReferenceIdeal.S32x262144 .f32) (W : FVec Ideal Cert.ReferenceIdeal.S262144x256 .f32)
    (j : Fin 2)
    (acc : Fin 16 → Vec Ideal Cert.KernelIdeal.S32x128 .f32) (d : Fin 16 → Vec Ideal Cert.KernelIdeal.S32x16384 .f32)
    (w : Fin 16 → Vec Ideal Cert.KernelIdeal.S16384x128 .f32)
    (hd : ∀ (kb : Fin 16) (b : Fin 32) (kk : Fin 16384),
      d kb (ix2 b kk) = dflat (ix2 b ⟨kb.val * 16384 + kk.val, by omega⟩))
    (hw : ∀ (kb : Fin 16) (kk : Fin 16384) (o : Fin 128),
      w kb (ix2 kk o) = W (ix2 ⟨kb.val * 16384 + kk.val, by omega⟩ ⟨j.val * 128 + o.val, by omega⟩))
    (h0 : acc 0 = Cert.KernelIdeal.Gen.k1_pay2 (F := Ideal) (Cert.KernelIdeal.Gen.k1_pay1 (F := Ideal)) (d 0) (w 0))
    (hs : ∀ kb : Fin 15, acc kb.succ
      = Cert.KernelIdeal.Gen.k1_pay2 (F := Ideal) (acc kb.castSucc) (d kb.succ) (w kb.succ))
    (b : Fin 32) (o : Fin 128) :
    acc 15 (ix2 b o)
      = Host.dotGeneral (F := Ideal) Cert.ReferenceIdeal.dot_S32x262144_S262144x256_S32x256_1_0_0_1_n_n none dflat W
          (ix2 b ⟨j.val * 128 + o.val, by omega⟩) := by
  have hbase : acc 0 (ix2 b o) = ∑ kk : Fin 16384, d 0 (ix2 b kk) * w 0 (ix2 kk o) := by
    rw [h0, pay2_apply, pay1_apply, zero_add]
  have hstep : ∀ k : Fin 15, acc k.succ (ix2 b o)
      = acc k.castSucc (ix2 b o) + ∑ kk : Fin 16384, d k.succ (ix2 b kk) * w k.succ (ix2 kk o) := by
    intro k
    rw [hs k, pay2_apply]
  have key : acc 15 (ix2 b o) = ∑ kb : Fin 16, ∑ kk : Fin 16384, d kb (ix2 b kk) * w kb (ix2 kk o) :=
    acc_sum 15 (fun k => acc k (ix2 b o)) (fun kb => ∑ kk : Fin 16384, d kb (ix2 b kk) * w kb (ix2 kk o)) hbase hstep
  rw [dot_apply, sum_262144, key]
  refine Finset.sum_congr rfl fun kb _ => Finset.sum_congr rfl fun kk _ => ?_
  rw [hd, hw]

end Cert.Bridge.Acc

end
-- ==== Proof.Bridge.lean ====
import proofs.«106771_j67276367724779_2_alg».proof.Proof.FrameRun
import proofs.«106771_j67276367724779_2_alg».proof.Proof.ValueR0
import proofs.«106771_j67276367724779_2_alg».proof.Proof.ValueR1b
import proofs.«106771_j67276367724779_2_alg».proof.Proof.DistBlock
import proofs.«106771_j67276367724779_2_alg».proof.Proof.MatAcc
import proofs.«106771_j67276367724779_2_alg».proof.Proof.Gen.ReferenceIdeal.Read
import Idealize.ShloMosaic.Lib.Pipeline.Value
import Idealize.ShloMosaic.Lib.ValueIdx
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.Sem
open Idealize.ShloMosaic.Pipeline (Dat)
open Idealize.ShloMosaic.ValueIdx
open Cert.ReferenceIdeal.Read (val_main_v15 val_main_v16 val_main_v17 val_main_v18 val_main_v19 val_main_v20 val_main_v25)

variable (m : (ℓ : Loc nD τ sig) → Buf (Elt Ideal) ℓ) (ρ : Dev nD → PrngReg)

/-!
# The idealized kernel's result is the reference's result

Over the extended reals: the first region's output array is the reference's distance stage of the input (block by block; the
two Gram products agree because the first Gram matrix is symmetric), the reshape is the same on both sides, the second
region's K-blocked accumulation is the reference's one matrix product (a finite sum regrouped into 16 consecutive blocks),
the bias is the same row broadcast written as a reshape on one side and a broadcast on the other, and the closing
operations (row norm, floor, division) are the same functions of the biased product. No finiteness is used.
-/

/-- The first region's output array is the reference's distance stage of the input array. -/
theorem G0_eq (xo : S32x1024x512.Idx → Elt Ideal .f32) : G0 (F := Ideal) xo = val_main_v15 (F := Ideal) xo := by
  funext i
  obtain ⟨b, n, k, rfl⟩ : ∃ (b : Fin 32) (n : Fin 512) (k : Fin 512), i = ix3 b n k := ⟨i 0, i 1, i 2, eq_ix3 i⟩
  exact Cert.Bridge.Dist.dist_block xo (batchOf xo b) b (fun _ _ => rfl) n k

section Region1

variable (V : (c : Dev nD) → (b : Ref sig .tc) → Buf (Elt Ideal) ((c : Thread nD τ).loc b))

/-- The whole matrix product of the two operand arrays as the second region finds them. -/
abbrev prodOf (c : Dev nD) : S32x256.Idx → Elt Ideal .f32 :=
  Host.dotGeneral (F := Ideal) (φ₁ := .f32) (φ₂ := .f32) Cert.ReferenceIdeal.dot_S32x262144_S262144x256_S32x256_1_0_0_1_n_n none
    (V c main_v1) (V c main_arg3)

/-- What a last K-block writes back is its block of the whole matrix product: the 16 accumulation steps of its column half
    are the 16 consecutive pieces of the long sum. -/
theorem flushed1_eq (c : Dev nD) (t : Fin cfg1.N) (hf : (cfg1.win 2).flush t = true) :
    (dat1 V c).flushed 2 t = ((cfg1.win 2).blk t).view.read (Elt Ideal) (prodOf V c) := by
  have hN : cfg1.N = 32 := N_1
  have ht : t.val < 32 := lt_of_lt_of_eq t.isLt hN
  have h15 : t.val % 16 = 15 := (flush1_2 t).mp hf
  obtain ⟨-, -, -, -, e4, e5⟩ := idx_facts1 t
  show (cfg1.win 2).cut (grid1.coords t) ((dat1 V c).after 2 t) = _
  rw [after1_2]
  funext y
  have hy0 : (y 0).val < 32 := (y 0).isLt
  have hy1 : (y 1).val < 128 := (y 1).isLt
  show (outsAt1 V c t.val t.isLt).1 y = prodOf V c (((cfg1.win 2).blk t).view.emb y)
  rw [out_last V c t.val t.isLt (by omega) h15]
  have e_t : t.val = 16 * (t.val / 16) + 15 := by omega
  have e_y : y = ix2 (⟨(y 0).val, hy0⟩ : Fin 32) (⟨(y 1).val, hy1⟩ : Fin 128) :=
    funext fun a => Fin.ext (by match a with | ⟨0, _⟩ => rfl | ⟨1, _⟩ => rfl)
  have e_emb : ((cfg1.win 2).blk t).view.emb y = ix2 (⟨(y 0).val, hy0⟩ : Fin 32) (⟨(t.val / 16) * 128 + (y 1).val, by omega⟩ : Fin 256) :=
    funext fun a => Fin.ext (by
      match a with
      | ⟨0, _⟩ => show win1_2.index t (0 : Fin 2) * 32 + 1 * (y 0).val = (y 0).val; omega
      | ⟨1, _⟩ => show win1_2.index t (1 : Fin 2) * 128 + 1 * (y 1).val = (t.val / 16) * 128 + (y 1).val; omega)
  have hb : ∀ kb : Fin 16, 16 * (t.val / 16) + kb.val < cfg1.N := fun kb => by have := kb.isLt; omega
  have h0' : (outsAt1 V c (16 * (t.val / 16) + (0 : Fin 16).val) (hb 0)).2
      = k1_pay2 (k1_pay1 (F := Ideal)) (iblk1 V c 0 ⟨16 * (t.val / 16) + (0 : Fin 16).val, hb 0⟩) (iblk1 V c 1 ⟨16 * (t.val / 16) + (0 : Fin 16).val, hb 0⟩) :=
    acc_reset V c _ (hb 0) (by show (16 * (t.val / 16) + 0) % 16 = 0; omega)
  have hs' : ∀ kb : Fin 15, (outsAt1 V c (16 * (t.val / 16) + kb.succ.val) (hb kb.succ)).2
      = k1_pay2 ((outsAt1 V c (16 * (t.val / 16) + kb.castSucc.val) (hb kb.castSucc)).2)
          (iblk1 V c 0 ⟨16 * (t.val / 16) + kb.succ.val, hb kb.succ⟩) (iblk1 V c 1 ⟨16 * (t.val / 16) + kb.succ.val, hb kb.succ⟩) := fun kb =>
    acc_step V c (16 * (t.val / 16) + kb.val) (by have := kb.isLt; omega) (by have := kb.isLt; omega)
  have hd' : ∀ (kb : Fin 16) (b : Fin 32) (kk : Fin 16384),
      (iblk1 V c 0 ⟨16 * (t.val / 16) + kb.val, hb kb⟩ : Vec Ideal S32x16384 .f32) (ix2 b kk)
        = (V c main_v1 : S32x262144.Idx → Elt Ideal .f32) (ix2 b ⟨kb.val * 16384 + kk.val, by omega⟩) := fun kb b kk =>
    iblk1_0_apply V c _ b kk _ rfl (by have := kb.isLt; show kb.val * 16384 + kk.val = ((16 * (t.val / 16) + kb.val) % 16) * 16384 + kk.val; omega)
  have hw' : ∀ (kb : Fin 16) (kk : Fin 16384) (o : Fin 128),
      (iblk1 V c 1 ⟨16 * (t.val / 16) + kb.val, hb kb⟩ : Vec Ideal S16384x128 .f32) (ix2 kk o)
        = (V c main_arg3 : S262144x256.Idx → Elt Ideal .f32) (ix2 ⟨kb.val * 16384 + kk.val, by omega⟩ ⟨(t.val / 16) * 128 + o.val, by omega⟩) := fun kb kk o =>
    iblk1_1_apply V c _ kk o _
      (by have := kb.isLt; show kb.val * 16384 + kk.val = ((16 * (t.val / 16) + kb.val) % 16) * 16384 + kk.val; omega)
      (by have := kb.isLt; show (t.val / 16) * 128 + o.val = ((16 * (t.val / 16) + kb.val) / 16) * 128 + o.val; omega)
  have key := Cert.Bridge.Acc.mm_blocks (V c main_v1) (V c main_arg3) ⟨t.val / 16, by omega⟩
    (fun kb => (outsAt1 V c (16 * (t.val / 16) + kb.val) (hb kb)).2)
    (fun kb => iblk1 V c 0 ⟨16 * (t.val / 16) + kb.val, hb kb⟩)
    (fun kb => iblk1 V c 1 ⟨16 * (t.val / 16) + kb.val, hb kb⟩)
    hd' hw' h0' hs'
    ⟨(y 0).val, hy0⟩ ⟨(y 1).val, hy1⟩
  have e1 : (outsAt1 V c t.val t.isLt).2 = (outsAt1 V c (16 * (t.val / 16) + (15 : Fin 16).val) (hb 15)).2 :=
    congrArg Prod.snd (outsAt1_congr V c e_t t.isLt (hb 15))
  calc (outsAt1 V c t.val t.isLt).2 y
      = (outsAt1 V c (16 * (t.val / 16) + (15 : Fin 16).val) (hb 15)).2 y := congrFun e1 y
    _ = (outsAt1 V c (16 * (t.val / 16) + (15 : Fin 16).val) (hb 15)).2 (ix2 ⟨(y 0).val, hy0⟩ ⟨(y 1).val, hy1⟩) := congrArg _ e_y
    _ = prodOf V c (ix2 ⟨(y 0).val, hy0⟩ ⟨(t.val / 16) * 128 + (y 1).val, by omega⟩) := key
    _ = prodOf V c (((cfg1.win 2).blk t).view.emb y) := (congrArg _ e_emb).symm

/-- The second region's output array after the run: the whole matrix product. -/
theorem final1 (c : Dev nD) : (dat1 V c).arrAt 2 cfg1.N = prodOf V c :=
  (dat1 V c).arrAt_eq_of_cover 2 (prodOf V c) (flushed1_eq V c) (fun i => cover1 i)

end Region1

/-! ## The buffers along the run -/

/-- After the reshape, the left operand of the second region is the reference's flattened distance stage. -/
theorem W2_main_v1 (c : Dev nD) : W2 m ρ c (Proc.devRef .tc main_v1) = val_main_v16 (F := Ideal) (m ((c : Thread nD τ).loc main_arg2)) := by
  show StableHlo.after hostOps1 (W1 m ρ c) (Proc.devRef .tc main_v1) = _
  after_results
  rw [W1_arr m ρ c 1, final0 (V0r m ρ) c, G0_eq]
  rfl

theorem W2_main_arg3 (c : Dev nD) : W2 m ρ c (Proc.devRef .tc main_arg3) = m ((c : Thread nD τ).loc main_arg3) :=
  (StableHlo.after_of_writes_sub hostOps1 _ hostOps1_writes (by decide)).trans ((W1_of_ne m ρ c main_arg3 (by decide)).trans rfl)

/-- After the second region its output array is the reference's matrix product stage. -/
theorem W3_main_v2 (c : Dev nD) : W3 m ρ c (Proc.devRef .tc main_v2)
    = val_main_v17 (F := Ideal) (m ((c : Thread nD τ).loc main_arg2)) (m ((c : Thread nD τ).loc main_arg3)) := by
  rw [W3_arr m ρ c 2, final1 (V2r m ρ) c]
  show Host.dotGeneral (F := Ideal) _ none (W2 m ρ c (Proc.devRef .tc main_v1)) (W2 m ρ c (Proc.devRef .tc main_arg3)) = _
  rw [W2_main_v1, W2_main_arg3]
  rfl

theorem W3_main_arg4 (c : Dev nD) : W3 m ρ c (Proc.devRef .tc main_arg4) = m ((c : Thread nD τ).loc main_arg4) :=
  (W3_of_ne m ρ c main_arg4 (by decide)).trans
    ((StableHlo.after_of_writes_sub hostOps1 _ hostOps1_writes (by decide)).trans ((W1_of_ne m ρ c main_arg4 (by decide)).trans rfl))

/-- The biased product is the reference's: the bias row is a reshape on one side and a broadcast on the other. -/
theorem W4_main_v5 (c : Dev nD) : W4 m ρ c (Proc.devRef .tc main_v5)
    = val_main_v20 (F := Ideal) (m ((c : Thread nD τ).loc main_arg2)) (m ((c : Thread nD τ).loc main_arg3)) (m ((c : Thread nD τ).loc main_arg4)) := by
  show StableHlo.after hostOps2 (W3 m ρ c) (Proc.devRef .tc main_v5) = _
  after_results
  rw [W3_main_v2, W3_main_arg4]
  unfold Cert.ReferenceIdeal.Read.val_main_v20 Cert.ReferenceIdeal.Read.val_main_v19
  refine congrArg₂ addf rfl (congrArg _ ?_)
  funext i
  rw [Cert.ReferenceIdeal.Read.val_main_v18_apply]
  show shapeCast S1x256 (m ((c : Thread nD τ).loc main_arg4)) shapeCasts_S256_S1x256 i = _
  refine shapeCast_apply (s := S256) (t := S1x256) _ _ i (Cert.ReferenceIdeal.Read.idx_main_v18 i) ?_
  show ((⟨1, ![256]⟩ : Shape).rowMajor (Cert.ReferenceIdeal.Read.idx_main_v18 i)).val = ((⟨2, ![1, 256]⟩ : Shape).rowMajor i).val
  rw [Shape.rowMajor_val_one, Shape.rowMajor_val_two]
  have h0 : (i 0).val < 1 := (i 0).isLt
  show (i 1).val = (i 0).val * 256 + (i 1).val
  omega

/-- The result array at the end is the reference's result stage of the same arguments. -/
theorem W6_main_v10 (c : Dev nD) : W6 m ρ c (Proc.devRef .tc main_v10)
    = val_main_v25 (F := Ideal) (m ((c : Thread nD τ).loc main_arg2)) (m ((c : Thread nD τ).loc main_arg3)) (m ((c : Thread nD τ).loc main_arg4)) := by
  have h5 := W4_main_v5 m ρ c
  show StableHlo.after hostOps2_2 (StableHlo.after hostOps2_1 (W4 m ρ c)) (Proc.devRef .tc main_v10) = _
  generalize W4 m ρ c = Wv at h5 ⊢
  after_results
  rw [h5]
  rfl

/-- The run of the idealized kernel, read: the result at the reference's result stage, the arguments unchanged. -/
theorem run_value : θ_run defs (onTc (τ := τ) (main (F := Ideal))) ⟨m, fun _ => 0, ρ⟩ (fun r => ∀ c : Dev nD,
      r.2.mem ((c.tc : Thread nD τ).loc main_v10) = val_main_v25 (F := Ideal) (m ((c : Thread nD τ).loc main_arg2)) (m ((c : Thread nD τ).loc main_arg3)) (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_v10 (by decide))).trans (W6_main_v10 m ρ c),
     (h c _ (mem_uc main_arg0 (by decide))).trans (W6_main_arg0 m ρ c),
     (h c _ (mem_uc main_arg1 (by decide))).trans (W6_main_arg1 m ρ c),
     (h c _ (mem_uc main_arg2 (by decide))).trans (W6_main_arg2 m ρ c),
     (h c _ (mem_uc main_arg3 (by decide))).trans (W6_main_arg3 m ρ c),
     (h c _ (mem_uc main_arg4 (by decide))).trans (W6_main_arg4 m ρ c)⟩) (run_all m ρ)

end Cert.KernelIdeal.Hand

end
-- ==== Proof.lean ====
/-
  Two programs compute, for 32 batches of 1024 × 512 points, the 512 × 512 matrix of Euclidean distances between the rows of
  the Gram matrix S = Xᵀ X of a batch, flatten it, multiply it by a 262144 × 256 matrix, add a bias row and divide every row by
  its Euclidean norm floored at a small constant.

  The kernel does this in two regions. The first walks the batches and stores one whole 512 × 512 block per batch:
  sqrt(max((sq[n] + sq[m]) − 2·(S S)[n, m], ε)) with sq the row sums of S ∘ S. The second multiplies the flattened distances
  by the weight matrix, one half of the 256 columns at a time, accumulating over 16 blocks of the long axis in a scratch
  buffer that is reset at the first block and copied out at the last. The closing operations run on the host.

  Over the extended reals the two programs agree entry by entry. The reference's second Gram product contracts the last
  axes of S with itself, the kernel's is the plain product S S; they are equal because S is symmetric, which is commutativity
  of the product under the sum. A long finite sum equals the sum of its 16 consecutive blocks added one after the other
  onto zero. Everything else is the same operation on both sides, read through the same index arithmetic. Nothing needs the
  inputs to be finite, so the precondition is not opened.

  Each program's frame — every execution ends, nothing faults, the five argument arrays end unchanged — is proved from the
  run of its two regions: the first region's body writes each output block whole from its input block; the second region's
  body is run in its three control cases (first block, inner block, last block) with the scratch accumulator carried from
  point to point in the region's invariant.
-/
import proofs.«106771_j67276367724779_2_alg».proof.Defs
import proofs.«106771_j67276367724779_2_alg».proof.Proof.Gen.Kernel
import proofs.«106771_j67276367724779_2_alg».proof.Proof.Gen.KernelIdeal
import proofs.«106771_j67276367724779_2_alg».proof.Proof.Gen.ReferenceIdeal
import proofs.«106771_j67276367724779_2_alg».proof.Proof.Gen.Pre_finite_inputs
import proofs.«106771_j67276367724779_2_alg».proof.Proof.Gen.ReferenceIdeal.Run
import proofs.«106771_j67276367724779_2_alg».proof.Proof.Gen.ReferenceIdeal.Read
import proofs.«106771_j67276367724779_2_alg».proof.Proof.KFrameRun
import proofs.«106771_j67276367724779_2_alg».proof.Proof.FrameRun
import proofs.«106771_j67276367724779_2_alg».proof.Proof.Bridge
import Idealize.ShloMosaic.Adequacy
import Idealize.ShloMosaic.Init

noncomputable section

namespace Cert.Proof

open Idealize.ShloMosaic Idealize.SL.Sem

/-- The word-level kernel runs to the end and leaves its arguments as launched. -/
theorem frame_k : Cert.frame_Kernel := fun m ρ _ => Cert.Kernel.Hand.frame (F := Bits) m ρ

/-- So does the idealized kernel. -/
theorem frame_ki : Cert.frame_KernelIdeal := fun m ρ _ => Cert.KernelIdeal.Hand.frame (F := Ideal) m ρ

/-- The reference is host operations only: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories agreeing on the arguments both programs end with the same result array: the reference's result stage
    of the kernel's arguments. -/
theorem algebraic : Cert.algebraic_KernelIdeal_ReferenceIdeal := by
  intro m ρ m' ρ' _ hagree
  refine ⟨fun c => Cert.ReferenceIdeal.Read.val_main_v25 (F := Ideal)
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)),
    Cert.KernelIdeal.Hand.run_value m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v25_eq]
  obtain ⟨-, -, e2, e3, e4⟩ := hagree c
  rw [e2, e3, e4]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
